-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S25x8x1x256x256 : Shape := ⟨5, ![25, 8, 1, 256, 256]⟩
abbrev S_ : Shape := ⟨0, ![]⟩

class Facts : Prop where
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel
  bcast_S_S25x8x1x256x256 : S_.BroadcastsInDim S25x8x1x256x256 (![] : Fin 0 → Fin S25x8x1x256x256.rank)
  reducesTo_S25x8x1x256x256_S_d0_1_2_3_4 : S25x8x1x256x256.ReducesTo [0, 1, 2, 3, 4] S_

variable [Facts]

def fn {F : FTy → Type} [FloatOps F] (main_arg0 : FVec F S8x64x256x256 .f32) (main_arg1 : FVec F S25x8x1x256x256 .f32) : IVec S_ 1 :=
  let main_v0 : FVec F S8x64x256x256 .f32 := Host.absf main_arg0
  let main_cst : FVec F S_ .f32 := constant S_ .f32 0x7F800000#32
  let main_v1 : FVec F S8x64x256x256 .f32 := broadcastInDim S8x64x256x256 ![] bcast_S_S8x64x256x256 main_cst
  let main_v2 : IVec S8x64x256x256 1 := cmpf .olt main_v0 main_v1
  let main_c : IVec S_ 1 := constantI S_ 1 1#1
  let main_v3 : IVec S_ 1 := (fun x v => Host.reduce IntOp.andi x v reducesTo_S8x64x256x256_S_d0_1_2_3 h_S_) main_v2 main_c
  let main_v4 : FVec F S25x8x1x256x256 .f32 := Host.absf main_arg1
  let main_cst_0 : FVec F S_ .f32 := constant S_ .f32 0x7F800000#32
  let main_v5 : FVec F S25x8x1x256x256 .f32 := broadcastInDim S25x8x1x256x256 ![] bcast_S_S25x8x1x256x256 main_cst_0
  let main_v6 : IVec S25x8x1x256x256 1 := cmpf .olt main_v4 main_v5
  let main_c_1 : IVec S_ 1 := constantI S_ 1 1#1
  let main_v7 : IVec S_ 1 := (fun x v => Host.reduce IntOp.andi x v reducesTo_S25x8x1x256x256_S_d0_1_2_3_4 h_S_) main_v6 main_c_1
  let main_v8 : IVec S_ 1 := andi main_v3 main_v7
  main_v8
-- ==== Kernel.lean ====
abbrev S8x64x256x256 : Shape := ⟨4, ![8, 64, 256, 256]⟩
abbrev S25x8x1x256x256 : Shape := ⟨5, ![25, 8, 1, 256, 256]⟩
abbrev S_ : Shape := ⟨0, ![]⟩
abbrev S8x64x260x260 : Shape := ⟨4, ![8, 64, 260, 260]⟩
abbrev S1x16x260x260 : Shape := ⟨4, ![1, 16, 260, 260]⟩
abbrev S25x1x1x256x256 : Shape := ⟨5, ![25, 1, 1, 256, 256]⟩
abbrev S1x16x256x256 : Shape := ⟨4, ![1, 16, 256, 256]⟩
abbrev S16x256x256 : Shape := ⟨3, ![16, 256, 256]⟩
abbrev S1x1x1x256x256 : Shape := ⟨5, ![1, 1, 1, 256, 256]⟩
abbrev S256x256 : Shape := ⟨2, ![256, 256]⟩
abbrev S1x256x256 : Shape := ⟨3, ![1, 256, 256]⟩

abbrev nBuf : Space → Nat
  | .hbm => 6
  | .vmem => 6
  | .smem => 0
  | _ => 0

abbrev bufTy : (tb : Table) → Fin (tcTables nBuf tb) → BufTy
  | .hbm, ⟨0, _⟩ => ⟨S8x64x256x256, .f32⟩
  | .hbm, ⟨1, _⟩ => ⟨S25x8x1x256x256, .f32⟩
  | .hbm, ⟨2, _⟩ => ⟨S_, .i32⟩
  | .hbm, ⟨3, _⟩ => ⟨S_, .f32⟩
  | .hbm, ⟨4, _⟩ => ⟨S8x64x260x260, .f32⟩
  | .hbm, ⟨5, _⟩ => ⟨S8x64x256x256, .f32⟩
  | .local _ .vmem, ⟨0, _⟩ => ⟨S1x16x260x260, .f32⟩
  | .local _ .vmem, ⟨1, _⟩ => ⟨S1x16x260x260, .f32⟩
  | .local _ .vmem, ⟨2, _⟩ => ⟨S25x1x1x256x256, .f32⟩
  | .local _ .vmem, ⟨3, _⟩ => ⟨S25x1x1x256x256, .f32⟩
  | .local _ .vmem, ⟨4, _⟩ => ⟨S1x16x256x256, .f32⟩
  | .local _ .vmem, ⟨5, _⟩ => ⟨S1x16x256x256, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x260x260 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S25x1x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S8x64x256x256_S8x64x260x260_000_000_220_220 : S8x64x256x256.Pads (![0, 0, 2, 2] : Fin 4 → Nat) ![0, 0, 2, 2] ![0, 0, 0, 0] S8x64x260x260
  h_S_ : 0 < S_.numel
  inb_S1x16x260x260_S1x16x256x256_0_0_0_0 : ∀ a, (![0, 0, 0, 0] : Fin 4 → Nat) a + S1x16x256x256.size a ≤ S1x16x260x260.size a
  h_S1x16x256x256 : 0 < S1x16x256x256.numel
  shapeCasts_S1x16x256x256_S16x256x256 : S1x16x256x256.ShapeCasts S16x256x256
  inb_S25x1x1x256x256_S1x1x1x256x256_0_0_0_0_0 : ∀ a, (![0, 0, 0, 0, 0] : Fin 5 → Nat) a + S1x1x1x256x256.size a ≤ S25x1x1x256x256.size a
  h_S1x1x1x256x256 : 0 < S1x1x1x256x256.numel
  shapeCasts_S1x1x1x256x256_S256x256 : S1x1x1x256x256.ShapeCasts S256x256
  shapeCasts_S256x256_S1x256x256 : S256x256.ShapeCasts S1x256x256
  broadcasts_S1x256x256_S16x256x256 : S1x256x256.Broadcasts S16x256x256
  inb_S1x16x256x256_S1x16x256x256_0_0_0_0 : ∀ a, (![0, 0, 0, 0] : Fin 4 → Nat) a + S1x16x256x256.size a ≤ S1x16x256x256.size a
  shapeCasts_S16x256x256_S1x16x256x256 : S16x256x256.ShapeCasts S1x16x256x256
  inb_S1x16x260x260_S1x16x256x256_0_0_0_1 : ∀ a, (![0, 0, 0, 1] : Fin 4 → Nat) a + S1x16x256x256.size a ≤ S1x16x260x260.size a
  inb_S25x1x1x256x256_S1x1x1x256x256_1_0_0_0_0 : ∀ a, (![1, 0, 0, 0, 0] : Fin 5 → Nat) a + S1x1x1x256x256.size a ≤ S25x1x1x256x256.size a
  inb_S1x16x260x260_S1x16x256x256_0_0_0_2 : ∀ a, (![0, 0, 0, 2] : Fin 4 → Nat) a + S1x16x256x256.size a ≤ S1x16x260x260.size a
  inb_S25x1x1x256x256_S1x1x1x256x256_2_0_0_0_0 : ∀ a, (![2, 0, 0, 0, 0] : Fin 5 → Nat) a + S1x1x1x256x256.size a ≤ S25x1x1x256x256.size a
  inb_S1x16x260x260_S1x16x256x256_0_0_0_3 : ∀ a, (![0, 0, 0, 3] : Fin 4 → Nat) a + S1x16x256x256.size a ≤ S1x16x260x260.size a
  inb_S25x1x1x256x256_S1x1x1x256x256_3_0_0_0_0 : ∀ a, (![3, 0, 0, 0, 0] : Fin 5 → Nat) a + S1x1x1x256x256.size a ≤ S25x1x1x256x256.size a
  inb_S1x16x260x260_S1x16x256x256_0_0_0_4 : ∀ a, (![0, 0, 0, 4] : Fin 4 → Nat) a + S1x16x256x256.size a ≤ S1x16x260x260.size a
  inb_S25x1x1x256x256_S1x1x1x256x256_4_0_0_0_0 : ∀ a, (![4, 0, 0, 0, 0] : Fin 5 → Nat) a + S1x1x1x256x256.size a ≤ S25x1x1x256x256.size a
  inb_S1x16x260x260_S1x16x256x256_0_0_1_0 : ∀ a, (![0, 0, 1, 0] : Fin 4 → Nat) a + S1x16x256x256.size a ≤ S1x16x260x260.size a
  inb_S25x1x1x256x256_S1x1x1x256x256_5_0_0_0_0 : ∀ a, (![5, 0, 0, 0, 0] : Fin 5 → Nat) a + S1x1x1x256x256.size a ≤ S25x1x1x256x256.size a
  inb_S1x16x260x260_S1x16x256x256_0_0_1_1 : ∀ a, (![0, 0, 1, 1] : Fin 4 → Nat) a + S1x16x256x256.size a ≤ S1x16x260x260.size a
  inb_S25x1x1x256x256_S1x1x1x256x256_6_0_0_0_0 : ∀ a, (![6, 0, 0, 0, 0] : Fin 5 → Nat) a + S1x1x1x256x256.size a ≤ S25x1x1x256x256.size a
  inb_S1x16x260x260_S1x16x256x256_0_0_1_2 : ∀ a, (![0, 0, 1, 2] : Fin 4 → Nat) a + S1x16x256x256.size a ≤ S1x16x260x260.size a
  inb_S25x1x1x256x256_S1x1x1x256x256_7_0_0_0_0 : ∀ a, (![7, 0, 0, 0, 0] : Fin 5 → Nat) a + S1x1x1x256x256.size a ≤ S25x1x1x256x256.size a
  inb_S1x16x260x260_S1x16x256x256_0_0_1_3 : ∀ a, (![0, 0, 1, 3] : Fin 4 → Nat) a + S1x16x256x256.size a ≤ S1x16x260x260.size a
  inb_S25x1x1x256x256_S1x1x1x256x256_8_0_0_0_0 : ∀ a, (![8, 0, 0, 0, 0] : Fin 5 → Nat) a + S1x1x1x256x256.size a ≤ S25x1x1x256x256.size a
  inb_S1x16x260x260_S1x16x256x256_0_0_1_4 : ∀ a, (![0, 0, 1, 4] : Fin 4 → Nat) a + S1x16x256x256.size a ≤ S1x16x260x260.size a
  inb_S25x1x1x256x256_S1x1x1x256x256_9_0_0_0_0 : ∀ a, (![9, 0, 0, 0, 0] : Fin 5 → Nat) a + S1x1x1x256x256.size a ≤ S25x1x1x256x256.size a
  inb_S1x16x260x260_S1x16x256x256_0_0_2_0 : ∀ a, (![0, 0, 2, 0] : Fin 4 → Nat) a + S1x16x256x256.size a ≤ S1x16x260x260.size a
  inb_S25x1x1x256x256_S1x1x1x256x256_10_0_0_0_0 : ∀ a, (![10, 0, 0, 0, 0] : Fin 5 → Nat) a + S1x1x1x256x256.size a ≤ S25x1x1x256x256.size a
  inb_S1x16x260x260_S1x16x256x256_0_0_2_1 : ∀ a, (![0, 0, 2, 1] : Fin 4 → Nat) a + S1x16x256x256.size a ≤ S1x16x260x260.size a
  inb_S25x1x1x256x256_S1x1x1x256x256_11_0_0_0_0 : ∀ a, (![11, 0, 0, 0, 0] : Fin 5 → Nat) a + S1x1x1x256x256.size a ≤ S25x1x1x256x256.size a
  inb_S1x16x260x260_S1x16x256x256_0_0_2_2 : ∀ a, (![0, 0, 2, 2] : Fin 4 → Nat) a + S1x16x256x256.size a ≤ S1x16x260x260.size a
  inb_S25x1x1x256x256_S1x1x1x256x256_12_0_0_0_0 : ∀ a, (![12, 0, 0, 0, 0] : Fin 5 → Nat) a + S1x1x1x256x256.size a ≤ S25x1x1x256x256.size a
  inb_S1x16x260x260_S1x16x256x256_0_0_2_3 : ∀ a, (![0, 0, 2, 3] : Fin 4 → Nat) a + S1x16x256x256.size a ≤ S1x16x260x260.size a
  inb_S25x1x1x256x256_S1x1x1x256x256_13_0_0_0_0 : ∀ a, (![13, 0, 0, 0, 0] : Fin 5 → Nat) a + S1x1x1x256x256.size a ≤ S25x1x1x256x256.size a
  inb_S1x16x260x260_S1x16x256x256_0_0_2_4 : ∀ a, (![0, 0, 2, 4] : Fin 4 → Nat) a + S1x16x256x256.size a ≤ S1x16x260x260.size a
  inb_S25x1x1x256x256_S1x1x1x256x256_14_0_0_0_0 : ∀ a, (![14, 0, 0, 0, 0] : Fin 5 → Nat) a + S1x1x1x256x256.size a ≤ S25x1x1x256x256.size a
  inb_S1x16x260x260_S1x16x256x256_0_0_3_0 : ∀ a, (![0, 0, 3, 0] : Fin 4 → Nat) a + S1x16x256x256.size a ≤ S1x16x260x260.size a
  inb_S25x1x1x256x256_S1x1x1x256x256_15_0_0_0_0 : ∀ a, (![15, 0, 0, 0, 0] : Fin 5 → Nat) a + S1x1x1x256x256.size a ≤ S25x1x1x256x256.size a
  inb_S1x16x260x260_S1x16x256x256_0_0_3_1 : ∀ a, (![0, 0, 3, 1] : Fin 4 → Nat) a + S1x16x256x256.size a ≤ S1x16x260x260.size a
  inb_S25x1x1x256x256_S1x1x1x256x256_16_0_0_0_0 : ∀ a, (![16, 0, 0, 0, 0] : Fin 5 → Nat) a + S1x1x1x256x256.size a ≤ S25x1x1x256x256.size a
  inb_S1x16x260x260_S1x16x256x256_0_0_3_2 : ∀ a, (![0, 0, 3, 2] : Fin 4 → Nat) a + S1x16x256x256.size a ≤ S1x16x260x260.size a
  inb_S25x1x1x256x256_S1x1x1x256x256_17_0_0_0_0 : ∀ a, (![17, 0, 0, 0, 0] : Fin 5 → Nat) a + S1x1x1x256x256.size a ≤ S25x1x1x256x256.size a
  inb_S1x16x260x260_S1x16x256x256_0_0_3_3 : ∀ a, (![0, 0, 3, 3] : Fin 4 → Nat) a + S1x16x256x256.size a ≤ S1x16x260x260.size a
  inb_S25x1x1x256x256_S1x1x1x256x256_18_0_0_0_0 : ∀ a, (![18, 0, 0, 0, 0] : Fin 5 → Nat) a + S1x1x1x256x256.size a ≤ S25x1x1x256x256.size a
  inb_S1x16x260x260_S1x16x256x256_0_0_3_4 : ∀ a, (![0, 0, 3, 4] : Fin 4 → Nat) a + S1x16x256x256.size a ≤ S1x16x260x260.size a
  inb_S25x1x1x256x256_S1x1x1x256x256_19_0_0_0_0 : ∀ a, (![19, 0, 0, 0, 0] : Fin 5 → Nat) a + S1x1x1x256x256.size a ≤ S25x1x1x256x256.size a
  inb_S1x16x260x260_S1x16x256x256_0_0_4_0 : ∀ a, (![0, 0, 4, 0] : Fin 4 → Nat) a + S1x16x256x256.size a ≤ S1x16x260x260.size a
  inb_S25x1x1x256x256_S1x1x1x256x256_20_0_0_0_0 : ∀ a, (![20, 0, 0, 0, 0] : Fin 5 → Nat) a + S1x1x1x256x256.size a ≤ S25x1x1x256x256.size a
  inb_S1x16x260x260_S1x16x256x256_0_0_4_1 : ∀ a, (![0, 0, 4, 1] : Fin 4 → Nat) a + S1x16x256x256.size a ≤ S1x16x260x260.size a
  inb_S25x1x1x256x256_S1x1x1x256x256_21_0_0_0_0 : ∀ a, (![21, 0, 0, 0, 0] : Fin 5 → Nat) a + S1x1x1x256x256.size a ≤ S25x1x1x256x256.size a
  inb_S1x16x260x260_S1x16x256x256_0_0_4_2 : ∀ a, (![0, 0, 4, 2] : Fin 4 → Nat) a + S1x16x256x256.size a ≤ S1x16x260x260.size a
  inb_S25x1x1x256x256_S1x1x1x256x256_22_0_0_0_0 : ∀ a, (![22, 0, 0, 0, 0] : Fin 5 → Nat) a + S1x1x1x256x256.size a ≤ S25x1x1x256x256.size a
  inb_S1x16x260x260_S1x16x256x256_0_0_4_3 : ∀ a, (![0, 0, 4, 3] : Fin 4 → Nat) a + S1x16x256x256.size a ≤ S1x16x260x260.size a
  inb_S25x1x1x256x256_S1x1x1x256x256_23_0_0_0_0 : ∀ a, (![23, 0, 0, 0, 0] : Fin 5 → Nat) a + S1x1x1x256x256.size a ≤ S25x1x1x256x256.size a
  inb_S1x16x260x260_S1x16x256x256_0_0_4_4 : ∀ a, (![0, 0, 4, 4] : Fin 4 → Nat) a + S1x16x256x256.size a ≤ S1x16x260x260.size a
  inb_S25x1x1x256x256_S1x1x1x256x256_24_0_0_0_0 : ∀ a, (![24, 0, 0, 0, 0] : Fin 5 → Nat) a + S1x1x1x256x256.size a ≤ S25x1x1x256x256.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x260x260.size a ≤ S8x64x260x260.size a
  hwx0_0 : ∀ i : grid0.Coords, EltTy.bits .f32 = 32 ∨ (Rect.block (s := S8x64x260x260) S1x16x260x260.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S25x1x1x256x256.size a ≤ S25x8x1x256x256.size a
  hwx0_1 : ∀ i : grid0.Coords, EltTy.bits .f32 = 32 ∨ (Rect.block (s := S25x8x1x256x256) S25x1x1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x256x256.size a ≤ S8x64x256x256.size a
  hwx0_2 : ∀ i : grid0.Coords, EltTy.bits .f32 = 32 ∨ (Rect.block (s := S8x64x256x256) S1x16x256x256.size (cc0_transform_2 i) (hinb0_2 i)).WholeWords (EltTy.packing .f32)

variable [Facts₀]

abbrev win0_0 : Pipeline.Window sig grid0 :=
  Pipeline.Window.ofSpec (Memref.whole main_v0) S1x16x260x260.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S25x1x1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x16x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x64x256x256 : Shape := ⟨4, ![8, 64, 256, 256]⟩
abbrev S25x8x1x256x256 : Shape := ⟨5, ![25, 8, 1, 256, 256]⟩
abbrev S_ : Shape := ⟨0, ![]⟩
abbrev S8x64x260x260 : Shape := ⟨4, ![8, 64, 260, 260]⟩
abbrev S1x8x1x256x256 : Shape := ⟨5, ![1, 8, 1, 256, 256]⟩
abbrev S8x1x256x256 : Shape := ⟨4, ![8, 1, 256, 256]⟩

abbrev nBuf : Space → Nat
  | .hbm => 157
  | .vmem => 0
  | .smem => 0
  | _ => 0

abbrev hbmTy0_0 (i : Nat) : BufTy := match i % 128 with
  | 0 => ⟨S8x64x256x256, .f32⟩
  | 1 => ⟨S25x8x1x256x256, .f32⟩
  | 2 => ⟨S_, .i32⟩
  | 3 => ⟨S_, .f32⟩
  | 4 => ⟨S8x64x260x260, .f32⟩
  | 5 => ⟨S_, .f32⟩
  | 6 => ⟨S8x64x256x256, .f32⟩
  | 7 => ⟨S8x64x256x256, .f32⟩
  | 8 => ⟨S1x8x1x256x256, .f32⟩
  | 9 => ⟨S8x1x256x256, .f32⟩
  | 10 => ⟨S8x64x256x256, .f32⟩
  | 11 => ⟨S8x64x256x256, .f32⟩
  | 12 => ⟨S8x64x256x256, .f32⟩
  | 13 => ⟨S8x64x256x256, .f32⟩
  | 14 => ⟨S1x8x1x256x256, .f32⟩
  | 15 => ⟨S8x1x256x256, .f32⟩
  | 16 => ⟨S8x64x256x256, .f32⟩
  | 17 => ⟨S8x64x256x256, .f32⟩
  | 18 => ⟨S8x64x256x256, .f32⟩
  | 19 => ⟨S8x64x256x256, .f32⟩
  | 20 => ⟨S1x8x1x256x256, .f32⟩
  | 21 => ⟨S8x1x256x256, .f32⟩
  | 22 => ⟨S8x64x256x256, .f32⟩
  | 23 => ⟨S8x64x256x256, .f32⟩
  | 24 => ⟨S8x64x256x256, .f32⟩
  | 25 => ⟨S8x64x256x256, .f32⟩
  | 26 => ⟨S1x8x1x256x256, .f32⟩
  | 27 => ⟨S8x1x256x256, .f32⟩
  | 28 => ⟨S8x64x256x256, .f32⟩
  | 29 => ⟨S8x64x256x256, .f32⟩
  | 30 => ⟨S8x64x256x256, .f32⟩
  | 31 => ⟨S8x64x256x256, .f32⟩
  | 32 => ⟨S1x8x1x256x256, .f32⟩
  | 33 => ⟨S8x1x256x256, .f32⟩
  | 34 => ⟨S8x64x256x256, .f32⟩
  | 35 => ⟨S8x64x256x256, .f32⟩
  | 36 => ⟨S8x64x256x256, .f32⟩
  | 37 => ⟨S8x64x256x256, .f32⟩
  | 38 => ⟨S1x8x1x256x256, .f32⟩
  | 39 => ⟨S8x1x256x256, .f32⟩
  | 40 => ⟨S8x64x256x256, .f32⟩
  | 41 => ⟨S8x64x256x256, .f32⟩
  | 42 => ⟨S8x64x256x256, .f32⟩
  | 43 => ⟨S8x64x256x256, .f32⟩
  | 44 => ⟨S1x8x1x256x256, .f32⟩
  | 45 => ⟨S8x1x256x256, .f32⟩
  | 46 => ⟨S8x64x256x256, .f32⟩
  | 47 => ⟨S8x64x256x256, .f32⟩
  | 48 => ⟨S8x64x256x256, .f32⟩
  | 49 => ⟨S8x64x256x256, .f32⟩
  | 50 => ⟨S1x8x1x256x256, .f32⟩
  | 51 => ⟨S8x1x256x256, .f32⟩
  | 52 => ⟨S8x64x256x256, .f32⟩
  | 53 => ⟨S8x64x256x256, .f32⟩
  | 54 => ⟨S8x64x256x256, .f32⟩
  | 55 => ⟨S8x64x256x256, .f32⟩
  | 56 => ⟨S1x8x1x256x256, .f32⟩
  | 57 => ⟨S8x1x256x256, .f32⟩
  | 58 => ⟨S8x64x256x256, .f32⟩
  | 59 => ⟨S8x64x256x256, .f32⟩
  | 60 => ⟨S8x64x256x256, .f32⟩
  | 61 => ⟨S8x64x256x256, .f32⟩
  | 62 => ⟨S1x8x1x256x256, .f32⟩
  | 63 => ⟨S8x1x256x256, .f32⟩
  | 64 => ⟨S8x64x256x256, .f32⟩
  | 65 => ⟨S8x64x256x256, .f32⟩
  | 66 => ⟨S8x64x256x256, .f32⟩
  | 67 => ⟨S8x64x256x256, .f32⟩
  | 68 => ⟨S1x8x1x256x256, .f32⟩
  | 69 => ⟨S8x1x256x256, .f32⟩
  | 70 => ⟨S8x64x256x256, .f32⟩
  | 71 => ⟨S8x64x256x256, .f32⟩
  | 72 => ⟨S8x64x256x256, .f32⟩
  | 73 => ⟨S8x64x256x256, .f32⟩
  | 74 => ⟨S1x8x1x256x256, .f32⟩
  | 75 => ⟨S8x1x256x256, .f32⟩
  | 76 => ⟨S8x64x256x256, .f32⟩
  | 77 => ⟨S8x64x256x256, .f32⟩
  | 78 => ⟨S8x64x256x256, .f32⟩
  | 79 => ⟨S8x64x256x256, .f32⟩
  | 80 => ⟨S1x8x1x256x256, .f32⟩
  | 81 => ⟨S8x1x256x256, .f32⟩
  | 82 => ⟨S8x64x256x256, .f32⟩
  | 83 => ⟨S8x64x256x256, .f32⟩
  | 84 => ⟨S8x64x256x256, .f32⟩
  | 85 => ⟨S8x64x256x256, .f32⟩
  | 86 => ⟨S1x8x1x256x256, .f32⟩
  | 87 => ⟨S8x1x256x256, .f32⟩
  | 88 => ⟨S8x64x256x256, .f32⟩
  | 89 => ⟨S8x64x256x256, .f32⟩
  | 90 => ⟨S8x64x256x256, .f32⟩
  | 91 => ⟨S8x64x256x256, .f32⟩
  | 92 => ⟨S1x8x1x256x256, .f32⟩
  | 93 => ⟨S8x1x256x256, .f32⟩
  | 94 => ⟨S8x64x256x256, .f32⟩
  | 95 => ⟨S8x64x256x256, .f32⟩
  | 96 => ⟨S8x64x256x256, .f32⟩
  | 97 => ⟨S8x64x256x256, .f32⟩
  | 98 => ⟨S1x8x1x256x256, .f32⟩
  | 99 => ⟨S8x1x256x256, .f32⟩
  | 100 => ⟨S8x64x256x256, .f32⟩
  | 101 => ⟨S8x64x256x256, .f32⟩
  | 102 => ⟨S8x64x256x256, .f32⟩
  | 103 => ⟨S8x64x256x256, .f32⟩
  | 104 => ⟨S1x8x1x256x256, .f32⟩
  | 105 => ⟨S8x1x256x256, .f32⟩
  | 106 => ⟨S8x64x256x256, .f32⟩
  | 107 => ⟨S8x64x256x256, .f32⟩
  | 108 => ⟨S8x64x256x256, .f32⟩
  | 109 => ⟨S8x64x256x256, .f32⟩
  | 110 => ⟨S1x8x1x256x256, .f32⟩
  | 111 => ⟨S8x1x256x256, .f32⟩
  | 112 => ⟨S8x64x256x256, .f32⟩
  | 113 => ⟨S8x64x256x256, .f32⟩
  | 114 => ⟨S8x64x256x256, .f32⟩
  | 115 => ⟨S8x64x256x256, .f32⟩
  | 116 => ⟨S1x8x1x256x256, .f32⟩
  | 117 => ⟨S8x1x256x256, .f32⟩
  | 118 => ⟨S8x64x256x256, .f32⟩
  | 119 => ⟨S8x64x256x256, .f32⟩
  | 120 => ⟨S8x64x256x256, .f32⟩
  | 121 => ⟨S8x64x256x256, .f32⟩
  | 122 => ⟨S1x8x1x256x256, .f32⟩
  | 123 => ⟨S8x1x256x256, .f32⟩
  | 124 => ⟨S8x64x256x256, .f32⟩
  | 125 => ⟨S8x64x256x256, .f32⟩
  | 126 => ⟨S8x64x256x256, .f32⟩
  | 127 => ⟨S8x64x256x256, .f32⟩
  | _ => ⟨S8x64x256x256, .f32⟩

abbrev hbmTy0_1 (i : Nat) : BufTy := match i % 128 with
  | 0 => ⟨S1x8x1x256x256, .f32⟩
  | 1 => ⟨S8x1x256x256, .f32⟩
  | 2 => ⟨S8x64x256x256, .f32⟩
  | 3 => ⟨S8x64x256x256, .f32⟩
  | 4 => ⟨S8x64x256x256, .f32⟩
  | 5 => ⟨S8x64x256x256, .f32⟩
  | 6 => ⟨S1x8x1x256x256, .f32⟩
  | 7 => ⟨S8x1x256x256, .f32⟩
  | 8 => ⟨S8x64x256x256, .f32⟩
  | 9 => ⟨S8x64x256x256, .f32⟩
  | 10 => ⟨S8x64x256x256, .f32⟩
  | 11 => ⟨S8x64x256x256, .f32⟩
  | 12 => ⟨S1x8x1x256x256, .f32⟩
  | 13 => ⟨S8x1x256x256, .f32⟩
  | 14 => ⟨S8x64x256x256, .f32⟩
  | 15 => ⟨S8x64x256x256, .f32⟩
  | 16 => ⟨S8x64x256x256, .f32⟩
  | 17 => ⟨S8x64x256x256, .f32⟩
  | 18 => ⟨S1x8x1x256x256, .f32⟩
  | 19 => ⟨S8x1x256x256, .f32⟩
  | 20 => ⟨S8x64x256x256, .f32⟩
  | 21 => ⟨S8x64x256x256, .f32⟩
  | 22 => ⟨S8x64x256x256, .f32⟩
  | 23 => ⟨S8x64x256x256, .f32⟩
  | 24 => ⟨S1x8x1x256x256, .f32⟩
  | 25 => ⟨S8x1x256x256, .f32⟩
  | 26 => ⟨S8x64x256x256, .f32⟩
  | 27 => ⟨S8x64x256x256, .f32⟩
  | 28 => ⟨S8x64x256x256, .f32⟩
  | _ => ⟨S8x64x256x256, .f32⟩

abbrev hbmTy (i : Nat) : BufTy := match i / 128 with
  | 0 => hbmTy0_0 i
  | 1 => hbmTy0_1 i
  | _ => ⟨S8x64x256x256, .f32⟩

abbrev bufTy : (tb : Table) → Fin (tcTables nBuf tb) → BufTy
  | .hbm, ⟨i, _⟩ => hbmTy i
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_v147 : Ref sig .tc := ⟨.hbm, 152, rfl⟩
abbrev main_v148 : Ref sig .tc := ⟨.hbm, 153, rfl⟩
abbrev main_v149 : Ref sig .tc := ⟨.hbm, 154, rfl⟩
abbrev main_v150 : Ref sig .tc := ⟨.hbm, 155, rfl⟩
abbrev main_v151 : Ref sig .tc := ⟨.hbm, 156, rfl⟩

abbrev nD : Nat := 1
abbrev τ : Topo := Topo.v7x

variable {F : FTy → Type} [FloatOps F]

class Facts₀ : Prop where
  pads_S8x64x256x256_S8x64x260x260_000_000_220_220 : S8x64x256x256.Pads (![0, 0, 2, 2] : Fin 4 → Nat) ![0, 0, 2, 2] ![0, 0, 0, 0] S8x64x260x260
  h_S_ : 0 < S_.numel
  bcast_S_S8x64x256x256 : S_.BroadcastsInDim S8x64x256x256 (![] : Fin 0 → Fin S8x64x256x256.rank)
  slices_S8x64x260x260_S8x64x256x256_0_0_0_0 : S8x64x260x260.Slices ![0, 0, 0, 0] S8x64x256x256
  slices_S25x8x1x256x256_S1x8x1x256x256_0_0_0_0_0 : S25x8x1x256x256.Slices ![0, 0, 0, 0, 0] S1x8x1x256x256
  shapeCasts_S1x8x1x256x256_S8x1x256x256 : S1x8x1x256x256.ShapeCasts S8x1x256x256
  bcast_S8x1x256x256_S8x64x256x256_0_1_2_3 : S8x1x256x256.BroadcastsInDim S8x64x256x256 (![0, 1, 2, 3] : Fin 4 → Fin S8x64x256x256.rank)
  slices_S8x64x260x260_S8x64x256x256_0_0_0_1 : S8x64x260x260.Slices ![0, 0, 0, 1] S8x64x256x256
  slices_S25x8x1x256x256_S1x8x1x256x256_1_0_0_0_0 : S25x8x1x256x256.Slices ![1, 0, 0, 0, 0] S1x8x1x256x256
  slices_S8x64x260x260_S8x64x256x256_0_0_0_2 : S8x64x260x260.Slices ![0, 0, 0, 2] S8x64x256x256
  slices_S25x8x1x256x256_S1x8x1x256x256_2_0_0_0_0 : S25x8x1x256x256.Slices ![2, 0, 0, 0, 0] S1x8x1x256x256
  slices_S8x64x260x260_S8x64x256x256_0_0_0_3 : S8x64x260x260.Slices ![0, 0, 0, 3] S8x64x256x256
  slices_S25x8x1x256x256_S1x8x1x256x256_3_0_0_0_0 : S25x8x1x256x256.Slices ![3, 0, 0, 0, 0] S1x8x1x256x256
  slices_S8x64x260x260_S8x64x256x256_0_0_0_4 : S8x64x260x260.Slices ![0, 0, 0, 4] S8x64x256x256
  slices_S25x8x1x256x256_S1x8x1x256x256_4_0_0_0_0 : S25x8x1x256x256.Slices ![4, 0, 0, 0, 0] S1x8x1x256x256
  slices_S8x64x260x260_S8x64x256x256_0_0_1_0 : S8x64x260x260.Slices ![0, 0, 1, 0] S8x64x256x256
  slices_S25x8x1x256x256_S1x8x1x256x256_5_0_0_0_0 : S25x8x1x256x256.Slices ![5, 0, 0, 0, 0] S1x8x1x256x256
  slices_S8x64x260x260_S8x64x256x256_0_0_1_1 : S8x64x260x260.Slices ![0, 0, 1, 1] S8x64x256x256
  slices_S25x8x1x256x256_S1x8x1x256x256_6_0_0_0_0 : S25x8x1x256x256.Slices ![6, 0, 0, 0, 0] S1x8x1x256x256
  slices_S8x64x260x260_S8x64x256x256_0_0_1_2 : S8x64x260x260.Slices ![0, 0, 1, 2] S8x64x256x256
  slices_S25x8x1x256x256_S1x8x1x256x256_7_0_0_0_0 : S25x8x1x256x256.Slices ![7, 0, 0, 0, 0] S1x8x1x256x256
  slices_S8x64x260x260_S8x64x256x256_0_0_1_3 : S8x64x260x260.Slices ![0, 0, 1, 3] S8x64x256x256
  slices_S25x8x1x256x256_S1x8x1x256x256_8_0_0_0_0 : S25x8x1x256x256.Slices ![8, 0, 0, 0, 0] S1x8x1x256x256
  slices_S8x64x260x260_S8x64x256x256_0_0_1_4 : S8x64x260x260.Slices ![0, 0, 1, 4] S8x64x256x256
  slices_S25x8x1x256x256_S1x8x1x256x256_9_0_0_0_0 : S25x8x1x256x256.Slices ![9, 0, 0, 0, 0] S1x8x1x256x256
  slices_S8x64x260x260_S8x64x256x256_0_0_2_0 : S8x64x260x260.Slices ![0, 0, 2, 0] S8x64x256x256
  slices_S25x8x1x256x256_S1x8x1x256x256_10_0_0_0_0 : S25x8x1x256x256.Slices ![10, 0, 0, 0, 0] S1x8x1x256x256
  slices_S8x64x260x260_S8x64x256x256_0_0_2_1 : S8x64x260x260.Slices ![0, 0, 2, 1] S8x64x256x256
  slices_S25x8x1x256x256_S1x8x1x256x256_11_0_0_0_0 : S25x8x1x256x256.Slices ![11, 0, 0, 0, 0] S1x8x1x256x256
  slices_S8x64x260x260_S8x64x256x256_0_0_2_2 : S8x64x260x260.Slices ![0, 0, 2, 2] S8x64x256x256
  slices_S25x8x1x256x256_S1x8x1x256x256_12_0_0_0_0 : S25x8x1x256x256.Slices ![12, 0, 0, 0, 0] S1x8x1x256x256
  slices_S8x64x260x260_S8x64x256x256_0_0_2_3 : S8x64x260x260.Slices ![0, 0, 2, 3] S8x64x256x256
  slices_S25x8x1x256x256_S1x8x1x256x256_13_0_0_0_0 : S25x8x1x256x256.Slices ![13, 0, 0, 0, 0] S1x8x1x256x256
  slices_S8x64x260x260_S8x64x256x256_0_0_2_4 : S8x64x260x260.Slices ![0, 0, 2, 4] S8x64x256x256
  slices_S25x8x1x256x256_S1x8x1x256x256_14_0_0_0_0 : S25x8x1x256x256.Slices ![14, 0, 0, 0, 0] S1x8x1x256x256
  slices_S8x64x260x260_S8x64x256x256_0_0_3_0 : S8x64x260x260.Slices ![0, 0, 3, 0] S8x64x256x256
  slices_S25x8x1x256x256_S1x8x1x256x256_15_0_0_0_0 : S25x8x1x256x256.Slices ![15, 0, 0, 0, 0] S1x8x1x256x256
  slices_S8x64x260x260_S8x64x256x256_0_0_3_1 : S8x64x260x260.Slices ![0, 0, 3, 1] S8x64x256x256
  slices_S25x8x1x256x256_S1x8x1x256x256_16_0_0_0_0 : S25x8x1x256x256.Slices ![16, 0, 0, 0, 0] S1x8x1x256x256
  slices_S8x64x260x260_S8x64x256x256_0_0_3_2 : S8x64x260x260.Slices ![0, 0, 3, 2] S8x64x256x256
  slices_S25x8x1x256x256_S1x8x1x256x256_17_0_0_0_0 : S25x8x1x256x256.Slices ![17, 0, 0, 0, 0] S1x8x1x256x256
  slices_S8x64x260x260_S8x64x256x256_0_0_3_3 : S8x64x260x260.Slices ![0, 0, 3, 3] S8x64x256x256
  slices_S25x8x1x256x256_S1x8x1x256x256_18_0_0_0_0 : S25x8x1x256x256.Slices ![18, 0, 0, 0, 0] S1x8x1x256x256
  slices_S8x64x260x260_S8x64x256x256_0_0_3_4 : S8x64x260x260.Slices ![0, 0, 3, 4] S8x64x256x256
  slices_S25x8x1x256x256_S1x8x1x256x256_19_0_0_0_0 : S25x8x1x256x256.Slices ![19, 0, 0, 0, 0] S1x8x1x256x256
  slices_S8x64x260x260_S8x64x256x256_0_0_4_0 : S8x64x260x260.Slices ![0, 0, 4, 0] S8x64x256x256
  slices_S25x8x1x256x256_S1x8x1x256x256_20_0_0_0_0 : S25x8x1x256x256.Slices ![20, 0, 0, 0, 0] S1x8x1x256x256
  slices_S8x64x260x260_S8x64x256x256_0_0_4_1 : S8x64x260x260.Slices ![0, 0, 4, 1] S8x64x256x256
  slices_S25x8x1x256x256_S1x8x1x256x256_21_0_0_0_0 : S25x8x1x256x256.Slices ![21, 0, 0, 0, 0] S1x8x1x256x256
  slices_S8x64x260x260_S8x64x256x256_0_0_4_2 : S8x64x260x260.Slices ![0, 0, 4, 2] S8x64x256x256
  slices_S25x8x1x256x256_S1x8x1x256x256_22_0_0_0_0 : S25x8x1x256x256.Slices ![22, 0, 0, 0, 0] S1x8x1x256x256
  slices_S8x64x260x260_S8x64x256x256_0_0_4_3 : S8x64x260x260.Slices ![0, 0, 4, 3] S8x64x256x256
  slices_S25x8x1x256x256_S1x8x1x256x256_23_0_0_0_0 : S25x8x1x256x256.Slices ![23, 0, 0, 0, 0] S1x8x1x256x256
  slices_S8x64x260x260_S8x64x256x256_0_0_4_4 : S8x64x260x260.Slices ![0, 0, 4, 4] S8x64x256x256
  slices_S25x8x1x256x256_S1x8x1x256x256_24_0_0_0_0 : S25x8x1x256x256.Slices ![24, 0, 0, 0, 0] S1x8x1x256x256

variable [Facts₀]

class Facts : Prop extends Facts₀ where

variable [Facts]
-- ==== Proof.Spec.lean ====
/-
  A channel-shared 5×5 dynamic convolution ("involution"), entry by entry, over the extended reals.

  The image x : [8, 64, 256, 256] is first padded with two zeros on each side of its last two axes, giving
  xp : [8, 64, 260, 260]; the weights wt : [25, 8, 1, 256, 256] hold, for every batch b and pixel (h, w), one
  5×5 stencil shared by all 64 channels, tap (dh, dw) stored at position 5·dh + dw of the first axis. The result is

      Z[b, c, h, w] = Σ_{dh, dw < 5} xp[b, c, h + dh, w + dw] · wt[5·dh + dw, b, 0, h, w],

  the 25 products added one after the other in the order dh-major, dw-minor, from the first product on: on the
  extended reals + is associative and commutative, but nothing here re-orders the sum, so the order is part of the
  definition and both programs are shown to follow it. The padded array enters only as a whole array `xp`: both
  programs pad in the same way, and the padding is never opened.
-/
import Idealize.ShloMosaic.Lib.ValueIdx

noncomputable section

open Idealize.ShloMosaic Idealize.ShloMosaic.ValueIdx

namespace Cert.Conv5x5

/-- The image's (and the result's) shape. -/
abbrev Img : Shape := ⟨4, ![8, 64, 256, 256]⟩
/-- The padded image's shape. -/
abbrev Pad : Shape := ⟨4, ![8, 64, 260, 260]⟩
/-- The weights' shape. -/
abbrev Wts : Shape := ⟨5, ![25, 8, 1, 256, 256]⟩

/-- The image with two zeros added on each side of its last two axes, in the one spelling both programs use: a pad
    whose padding value is the integer 0 converted to a float. It is carried whole and never read at an entry. -/
def padded (x : Img.Idx → EReal) (hp : Img.Pads ![0, 0, 2, 2] ![0, 0, 2, 2] ![0, 0, 0, 0] Pad)
    (h0 : 0 < (⟨0, ![]⟩ : Shape).numel) : Pad.Idx → EReal :=
  pad Pad ![0, 0, 2, 2] ![0, 0, 2, 2] ![0, 0, 0, 0] x
    (sitofp (F := Ideal) .f32 (constantI (⟨0, ![]⟩ : Shape) 32 0#32)) hp h0

/-- One tap of the stencil at pixel (h, w) of channel c of batch b: the padded image (dh, dw) further on, times that
    pixel's weight number 5·dh + dw. -/
def tap (xp : Pad.Idx → EReal) (wt : Wts.Idx → EReal) (b : Fin 8) (c : Fin 64) (h w : Fin 256)
    (dh dw : Nat) (hdh : dh ≤ 4 := by decide) (hdw : dw ≤ 4 := by decide) : EReal :=
  xp (ix4 b c (⟨h.val + dh, by omega⟩ : Fin 260) (⟨w.val + dw, by omega⟩ : Fin 260))
    * wt (ix5 (⟨5 * dh + dw, by omega⟩ : Fin 25) b (0 : Fin 1) h w)

/-- The 25 taps added in order, first to last. -/
def convAt (xp : Pad.Idx → EReal) (wt : Wts.Idx → EReal) (b : Fin 8) (c : Fin 64) (h w : Fin 256) : EReal :=
  tap xp wt b c h w 0 0
    + tap xp wt b c h w 0 1
    + tap xp wt b c h w 0 2
    + tap xp wt b c h w 0 3
    + tap xp wt b c h w 0 4
    + tap xp wt b c h w 1 0
    + tap xp wt b c h w 1 1
    + tap xp wt b c h w 1 2
    + tap xp wt b c h w 1 3
    + tap xp wt b c h w 1 4
    + tap xp wt b c h w 2 0
    + tap xp wt b c h w 2 1
    + tap xp wt b c h w 2 2
    + tap xp wt b c h w 2 3
    + tap xp wt b c h w 2 4
    + tap xp wt b c h w 3 0
    + tap xp wt b c h w 3 1
    + tap xp wt b c h w 3 2
    + tap xp wt b c h w 3 3
    + tap xp wt b c h w 3 4
    + tap xp wt b c h w 4 0
    + tap xp wt b c h w 4 1
    + tap xp wt b c h w 4 2
    + tap xp wt b c h w 4 3
    + tap xp wt b c h w 4 4

/-- The convolution as one function of the padded image and the weights. -/
def conv (xp : Pad.Idx → EReal) (wt : Wts.Idx → EReal) : Img.Idx → EReal :=
  fun i => convAt xp wt (i 0) (i 1) (i 2) (i 3)

theorem conv_apply (xp : Pad.Idx → EReal) (wt : Wts.Idx → EReal) (b : Fin 8) (c : Fin 64) (h w : Fin 256) :
    conv xp wt (ix4 b c h w) = convAt xp wt b c h w := rfl

end Cert.Conv5x5

end
-- ==== Proof.Block.lean ====
/-
  One grid point of the 5×5 stencil, at the level of the blocks the body works on.

  At a grid point the body holds a block of the padded image, xb : [1, 16, 260, 260] (one batch, sixteen channels),
  the 25 weight planes of that batch, wb : [25, 1, 1, 256, 256], and an output block [1, 16, 256, 256]. For tap
  (dh, dw) it reads the [1, 16, 256, 256] slab of xb that starts at row dh and column dw and the plane 5·dh + dw of
  wb, multiplies the slab entry by entry with the plane (the plane repeated over the sixteen channels), and either
  stores the product (the first tap) or adds it to what the output block holds and stores the sum (every later
  tap). This module states those two stores as functions of the slab, the plane and the previous contents, and
  reads them at an entry (0, p, h, w) over the extended reals:

      first  slab plane        (0, p, h, w) = slab (0, p, h, w) · plane (0, 0, 0, h, w)
      step   prev slab plane   (0, p, h, w) = prev (0, p, h, w) + slab (0, p, h, w) · plane (0, 0, 0, h, w)

  and a slab or plane read through its rectangle: entry (0, p, h, w) of the slab at (dh, dw) is xb (0, p, h + dh, w + dw),
  entry (0, 0, 0, h, w) of plane k is wb (k, 0, 0, h, w).
-/
import Idealize.ShloMosaic.Lib.ValueIdx
import Idealize.ShloMosaic.Lib.Pipeline.Value

noncomputable section

open Idealize.ShloMosaic Idealize.ShloMosaic.ValueIdx

namespace Cert.Conv5x5

/-- A block of the padded image: one batch, sixteen channels. -/
abbrev XBlk : Shape := ⟨4, ![1, 16, 260, 260]⟩
/-- The 25 weight planes of one batch. -/
abbrev WBlk : Shape := ⟨5, ![25, 1, 1, 256, 256]⟩
/-- An output block, and a slab of the padded block. -/
abbrev OBlk : Shape := ⟨4, ![1, 16, 256, 256]⟩
/-- The same without its leading unit axis. -/
abbrev O3 : Shape := ⟨3, ![16, 256, 256]⟩
/-- One weight plane as loaded, -/
abbrev P5 : Shape := ⟨5, ![1, 1, 1, 256, 256]⟩
/-- as a matrix, -/
abbrev P2 : Shape := ⟨2, ![256, 256]⟩
/-- and with the channel axis it is repeated along. -/
abbrev P3 : Shape := ⟨3, ![1, 256, 256]⟩

section AnyFloat
variable {F : FTy → Type} [FloatOps F]

/-- A slab times a weight plane, the plane repeated over the sixteen channels. -/
def prod (slab : Vec F OBlk .f32) (plane : Vec F P5 .f32) (h1 : OBlk.ShapeCasts O3) (h2 : P5.ShapeCasts P2)
    (h3 : P2.ShapeCasts P3) (h4 : P3.Broadcasts O3) : FVec F O3 .f32 :=
  mulf (shapeCast O3 slab h1) (broadcastTo O3 (shapeCast P3 (shapeCast P2 plane h2) h3) h4)

/-- What the first tap stores: the product. -/
def first (slab : Vec F OBlk .f32) (plane : Vec F P5 .f32) (h1 : OBlk.ShapeCasts O3) (h2 : P5.ShapeCasts P2)
    (h3 : P2.ShapeCasts P3) (h4 : P3.Broadcasts O3) (h5 : O3.ShapeCasts OBlk) : FVec F OBlk .f32 :=
  shapeCast OBlk (prod slab plane h1 h2 h3 h4) h5

/-- What a later tap stores: the previous contents plus the product. -/
def step (prev : Vec F OBlk .f32) (slab : Vec F OBlk .f32) (plane : Vec F P5 .f32) (h1 : OBlk.ShapeCasts O3)
    (h2 : P5.ShapeCasts P2) (h3 : P2.ShapeCasts P3) (h4 : P3.Broadcasts O3) (h5 : O3.ShapeCasts OBlk) :
    FVec F OBlk .f32 :=
  shapeCast OBlk (addf (shapeCast O3 prev h1) (prod slab plane h1 h2 h3 h4)) h5

end AnyFloat

/-! ## Read at an entry, over the extended reals -/

/-- Dropping the block's leading unit axis keeps the entry. -/
theorem drop_apply {α : Type} (v : OBlk.Idx → α) (h1 : OBlk.ShapeCasts O3) (p : Fin 16) (h w : Fin 256) :
    shapeCast O3 v h1 (ix3 p h w) = v (ix4 (0 : Fin 1) p h w) :=
  shapeCast_apply v h1 (ix3 p h w) (ix4 (0 : Fin 1) p h w) (by
    rw [Shape.rowMajor_val_four, Shape.rowMajor_val_three]
    show ((0 * 16 + p.val) * 256 + h.val) * 256 + w.val = (p.val * 256 + h.val) * 256 + w.val
    omega)

/-- Adding it back keeps the entry. -/
theorem add_apply {α : Type} (v : O3.Idx → α) (h5 : O3.ShapeCasts OBlk) (p : Fin 16) (h w : Fin 256) :
    shapeCast OBlk v h5 (ix4 (0 : Fin 1) p h w) = v (ix3 p h w) :=
  shapeCast_apply v h5 (ix4 (0 : Fin 1) p h w) (ix3 p h w) (by
    rw [Shape.rowMajor_val_four, Shape.rowMajor_val_three]
    show (p.val * 256 + h.val) * 256 + w.val = ((0 * 16 + p.val) * 256 + h.val) * 256 + w.val
    omega)

/-- A weight plane repeated over the channels reads, at channel p, the plane's entry (h, w). -/
theorem plane_apply {α : Type} (plane : P5.Idx → α) (h2 : P5.ShapeCasts P2) (h3 : P2.ShapeCasts P3) (h4 : P3.Broadcasts O3)
    (p : Fin 16) (h w : Fin 256) :
    broadcastTo O3 (shapeCast P3 (shapeCast P2 plane h2) h3) h4 (ix3 p h w)
      = plane (ix5 (0 : Fin 1) (0 : Fin 1) (0 : Fin 1) h w) := by
  refine (broadcastTo_apply _ h4 (ix3 p h w) (ix3 (0 : Fin 1) h w) (fun a => ?_)).trans ?_
  · match a with
    | ⟨0, _⟩ => rfl
    | ⟨1, _⟩ => rfl
    | ⟨2, _⟩ => rfl
  refine (shapeCast_apply _ h3 (ix3 (0 : Fin 1) h w) (ix2 h w) ?_).trans ?_
  · rw [Shape.rowMajor_val_two, Shape.rowMajor_val_three]
    show h.val * 256 + w.val = (0 * 256 + h.val) * 256 + w.val
    omega
  refine shapeCast_apply plane h2 (ix2 h w) (ix5 (0 : Fin 1) (0 : Fin 1) (0 : Fin 1) h w) ?_
  rw [Shape.rowMajor_val_five, Shape.rowMajor_val_two]
  show (((0 * 1 + 0) * 1 + 0) * 256 + h.val) * 256 + w.val = h.val * 256 + w.val
  omega

theorem prod_apply (slab : Vec Ideal OBlk .f32) (plane : Vec Ideal P5 .f32) (h1 : OBlk.ShapeCasts O3)
    (h2 : P5.ShapeCasts P2) (h3 : P2.ShapeCasts P3) (h4 : P3.Broadcasts O3) (p : Fin 16) (h w : Fin 256) :
    prod slab plane h1 h2 h3 h4 (ix3 p h w)
      = slab (ix4 (0 : Fin 1) p h w) * plane (ix5 (0 : Fin 1) (0 : Fin 1) (0 : Fin 1) h w) := by
  unfold prod
  rw [mulf_apply, drop_apply, plane_apply]

theorem first_apply (slab : Vec Ideal OBlk .f32) (plane : Vec Ideal P5 .f32) (h1 : OBlk.ShapeCasts O3)
    (h2 : P5.ShapeCasts P2) (h3 : P2.ShapeCasts P3) (h4 : P3.Broadcasts O3) (h5 : O3.ShapeCasts OBlk)
    (p : Fin 16) (h w : Fin 256) :
    first slab plane h1 h2 h3 h4 h5 (ix4 (0 : Fin 1) p h w)
      = slab (ix4 (0 : Fin 1) p h w) * plane (ix5 (0 : Fin 1) (0 : Fin 1) (0 : Fin 1) h w) := by
  unfold first
  rw [add_apply, prod_apply]

theorem step_apply (prev slab : Vec Ideal OBlk .f32) (plane : Vec Ideal P5 .f32) (h1 : OBlk.ShapeCasts O3)
    (h2 : P5.ShapeCasts P2) (h3 : P2.ShapeCasts P3) (h4 : P3.Broadcasts O3) (h5 : O3.ShapeCasts OBlk)
    (p : Fin 16) (h w : Fin 256) :
    step prev slab plane h1 h2 h3 h4 h5 (ix4 (0 : Fin 1) p h w)
      = prev (ix4 (0 : Fin 1) p h w)
        + slab (ix4 (0 : Fin 1) p h w) * plane (ix5 (0 : Fin 1) (0 : Fin 1) (0 : Fin 1) h w) := by
  unfold step
  rw [add_apply, addf_apply, drop_apply, prod_apply]

/-! ## A slab and a plane through their rectangles -/

/-- Entry (0, p, h, w) of the slab that starts at row dh, column dw of the padded block. -/
theorem slab_apply {F : FTy → Type} (xb : Vec F XBlk .f32) (dh dw : Nat) (hdh : dh ≤ 4) (hdw : dw ≤ 4)
    (inb : ∀ a, (![0, 0, dh, dw] : Fin 4 → Nat) a + OBlk.size a ≤ XBlk.size a) (p : Fin 16) (h w : Fin 256) :
    (View.ld (Val := Elt F) (e' := .f32) xb (Rect.unit (s := XBlk) ![0, 0, dh, dw] OBlk.size inb) : Vec F OBlk .f32)
        (ix4 (0 : Fin 1) p h w)
      = xb (ix4 (0 : Fin 1) p (⟨h.val + dh, by omega⟩ : Fin 260) (⟨w.val + dw, by omega⟩ : Fin 260)) := by
  show xb _ = xb _
  refine congrArg xb (funext fun a => Fin.ext ?_)
  match a with
  | ⟨0, _⟩ => show 0 + 1 * 0 = 0; rfl
  | ⟨1, _⟩ => show 0 + 1 * p.val = p.val; omega
  | ⟨2, _⟩ => show dh + 1 * h.val = h.val + dh; omega
  | ⟨3, _⟩ => show dw + 1 * w.val = w.val + dw; omega

/-- Entry (0, 0, 0, h, w) of weight plane k = 5·dh + dw. -/
theorem wplane_apply {F : FTy → Type} (wb : Vec F WBlk .f32) (k dh dw : Nat) (hk : k = 5 * dh + dw) (hdh : dh ≤ 4)
    (hdw : dw ≤ 4) (inb : ∀ a, (![k, 0, 0, 0, 0] : Fin 5 → Nat) a + P5.size a ≤ WBlk.size a) (h w : Fin 256) :
    (View.ld (Val := Elt F) (e' := .f32) wb (Rect.unit (s := WBlk) ![k, 0, 0, 0, 0] P5.size inb) : Vec F P5 .f32)
        (ix5 (0 : Fin 1) (0 : Fin 1) (0 : Fin 1) h w)
      = wb (ix5 (⟨5 * dh + dw, by omega⟩ : Fin 25) (0 : Fin 1) (0 : Fin 1) h w) := by
  subst hk
  show wb _ = wb _
  refine congrArg wb (funext fun a => Fin.ext ?_)
  match a with
  | ⟨0, _⟩ => show 5 * dh + dw + 1 * 0 = 5 * dh + dw; omega
  | ⟨1, _⟩ => show 0 + 1 * 0 = 0; rfl
  | ⟨2, _⟩ => show 0 + 1 * 0 = 0; rfl
  | ⟨3, _⟩ => show 0 + 1 * h.val = h.val; omega
  | ⟨4, _⟩ => show 0 + 1 * w.val = w.val; omega

/-! ## The block's 25 taps, and the whole block after the last one -/

/-- Tap (dh, dw) at entry (0, p, h, w) of the output block, from the padded block and the 25 planes. -/
def blkTap (xb : XBlk.Idx → EReal) (wb : WBlk.Idx → EReal) (p : Fin 16) (h w : Fin 256) (dh dw : Nat)
    (hdh : dh ≤ 4 := by decide) (hdw : dw ≤ 4 := by decide) : EReal :=
  xb (ix4 (0 : Fin 1) p (⟨h.val + dh, by omega⟩ : Fin 260) (⟨w.val + dw, by omega⟩ : Fin 260))
    * wb (ix5 (⟨5 * dh + dw, by omega⟩ : Fin 25) (0 : Fin 1) (0 : Fin 1) h w)

/-- The 25 taps added in order, first to last. -/
def blkConv (xb : XBlk.Idx → EReal) (wb : WBlk.Idx → EReal) (p : Fin 16) (h w : Fin 256) : EReal :=
  blkTap xb wb p h w 0 0
    + blkTap xb wb p h w 0 1
    + blkTap xb wb p h w 0 2
    + blkTap xb wb p h w 0 3
    + blkTap xb wb p h w 0 4
    + blkTap xb wb p h w 1 0
    + blkTap xb wb p h w 1 1
    + blkTap xb wb p h w 1 2
    + blkTap xb wb p h w 1 3
    + blkTap xb wb p h w 1 4
    + blkTap xb wb p h w 2 0
    + blkTap xb wb p h w 2 1
    + blkTap xb wb p h w 2 2
    + blkTap xb wb p h w 2 3
    + blkTap xb wb p h w 2 4
    + blkTap xb wb p h w 3 0
    + blkTap xb wb p h w 3 1
    + blkTap xb wb p h w 3 2
    + blkTap xb wb p h w 3 3
    + blkTap xb wb p h w 3 4
    + blkTap xb wb p h w 4 0
    + blkTap xb wb p h w 4 1
    + blkTap xb wb p h w 4 2
    + blkTap xb wb p h w 4 3
    + blkTap xb wb p h w 4 4

end Cert.Conv5x5

end
-- ==== Proof.Point.lean ====
/-
  One grid point against the whole arrays.

  At the grid point of batch b and channel tile j the padded block is the part of the padded image
  xp[b, 16j : 16j + 16, :, :] and the planes are the part wt[:, b, :, :, :] of the weights. So entry (0, p, h, w) of
  what the 25 taps leave in the output block is the convolution at (b, 16j + p, h, w): the two sums have the same 25
  terms in the same order.
-/
import proofs.«117650_j18502719111479_2_alg».proof.Proof.Spec
import proofs.«117650_j18502719111479_2_alg».proof.Proof.Block

noncomputable section

open Idealize.ShloMosaic Idealize.ShloMosaic.ValueIdx

namespace Cert.Conv5x5

/-- If the padded block is rows `ec p` of batch `eb` of the padded image and the planes are batch `eb` of the weights,
    the block's sum at (0, p, h, w) is the convolution at (eb, ec p, h, w). -/
theorem point_eq (xb : XBlk.Idx → EReal) (wb : WBlk.Idx → EReal) (xp : Pad.Idx → EReal) (wt : Wts.Idx → EReal)
    (eb : Fin 8) (ec : Fin 16 → Fin 64)
    (hx : ∀ (p : Fin 16) (hh ww : Fin 260), xb (ix4 (0 : Fin 1) p hh ww) = xp (ix4 eb (ec p) hh ww))
    (hw : ∀ (k : Fin 25) (h w : Fin 256), wb (ix5 k (0 : Fin 1) (0 : Fin 1) h w) = wt (ix5 k eb (0 : Fin 1) h w))
    (p : Fin 16) (h w : Fin 256) : blkConv xb wb p h w = convAt xp wt eb (ec p) h w := by
  unfold blkConv convAt blkTap tap
  simp only [hx, hw]

end Cert.Conv5x5

end
-- ==== Proof.LibStretches.lean ====
/-
  A long straight line of host operations handled as short stretches, and a read-back fact for accumulating bodies.

  A host program of many operations is best stated as the concatenation of short stretches, each a list of its own:
  a list literal of a hundred and more operations is costly to state, a list of a handful is not. With
  `ops := chunks.flatten`, the program is the chain of the stretches' lines by unfolding (`main c =
  Pipeline.chain (chunks.map seq)`, closed by `chain_rfl`), and that chain is the one line of the concatenation
  (`chain_map_seq`); a fact about every operation of every stretch is a fact about every operation of the line
  (`forall_flatten`: the line touches TensorCore buffers only, allocates nothing). What a buffer holds after the line
  is then read one stretch at a time (`StableHlo.after_append`; `after_results` on a short stretch is cheap).

  `readCov_cons_unit_zero`: in a kernel body that loads a whole buffer back after storing the whole buffer (an
  accumulator kept in an output block: store, load, add, store, …), the load reads the last store's value whatever
  the earlier stores were — the last store covers the buffer.
-/
import Idealize.ShloMosaic.Lib.StableHlo.Run
import Idealize.ShloMosaic.Lib.Pipeline.Regions
import Idealize.ShloMosaic.Lib.Pipeline.Value

noncomputable section

namespace Cert.StretchLib

open Idealize.ShloMosaic Idealize.ShloMosaic.StableHlo Idealize.SL.Sem

/-- What holds of every entry of every list holds of every entry of their concatenation. -/
theorem forall_flatten {α : Type} {p : α → Prop} {L : List (List α)} (h : L.Forall fun l => l.Forall p) :
    L.flatten.Forall p :=
  List.forall_iff_forall_mem.mpr fun a ha => by
    obtain ⟨l, hl, hal⟩ := List.mem_flatten.mp ha
    exact List.forall_iff_forall_mem.mp (List.forall_iff_forall_mem.mp h l hl) a hal

/-- The chain of some stretches' lines is the one line of their concatenation. -/
theorem chain_map_seq {nD : Nat} {τ : Topo} {sig : RefSig} {Val : EltTy → Type} {Λ : Labels}
    (L : List (List (HloOp τ sig Val))) :
    (Pipeline.chain (L.map seq) : Prog (TpuEff nD τ sig Val Λ .tc) PUnit) = seq L.flatten := by
  induction L with
  | nil => rfl
  | cons l L ih => rw [List.map_cons, Pipeline.chain_cons, ih, List.flatten_cons, seq_append]

/-- A load of the whole buffer, after a last store of the whole buffer, reads that store's value, whatever the
    earlier stores were. -/
theorem readCov_cons_unit_zero {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

end Cert.StretchLib

end
-- ==== Proof.KernelBlock.lean ====
/-
  What one grid point leaves in its output block.

  The body makes 25 stores of the whole output block, one per tap: the first stores slab₀ · plane₀, and tap k > 0
  loads the block back, adds slab_k · plane_k and stores the sum. `acc k` below is the block's contents after
  tap k as a function of the padded block x0 and the planes x1 alone; each load-back reads what the store before
  it left (the store covers the block, so nothing older shows through), which makes the run's found contents
  `acc 24`. Read at an entry over the extended reals, `acc k` is `acc (k-1)` plus tap k, so `acc 24` is the
  block's 25-term sum.
-/
import proofs.«117650_j18502719111479_2_alg».proof.Proof.Gen.KernelIdeal.Frame
import proofs.«117650_j18502719111479_2_alg».proof.Proof.Block
import proofs.«117650_j18502719111479_2_alg».proof.Proof.LibStretches
import Idealize.ShloMosaic.Lib.Pipeline.Value
import Idealize.ShloMosaic.Lib.Tactic

noncomputable section

open Idealize.ShloMosaic Idealize.ShloMosaic.TcCoe Idealize.SL.Sem Idealize.ShloMosaic.ValueIdx

namespace Cert.KernelIdeal.Blk

open Cert.KernelIdeal Cert.KernelIdeal.Gen Cert.Conv5x5 Cert.StretchLib

variable {F : FTy → Type} [FloatOps F]

theorem hz : (![0, 0, 0, 0] : Fin 4 → Nat) = fun _ => 0 := funext fun a => by fin_cases a <;> rfl

/-- The slab of the padded block that starts at row dh, column dw. -/
abbrev slab (x0 : Vec F S1x16x260x260 .f32) (dh dw : Nat)
    (inb : ∀ a, (![0, 0, dh, dw] : Fin 4 → Nat) a + S1x16x256x256.size a ≤ S1x16x260x260.size a) : Vec F S1x16x256x256 .f32 :=
  View.ld (Val := Elt F) (e' := .f32) x0 (Rect.unit (s := S1x16x260x260) ![0, 0, dh, dw] S1x16x256x256.size inb)

/-- Weight plane k. -/
abbrev plane (x1 : Vec F S25x1x1x256x256 .f32) (k : Nat)
    (inb : ∀ a, (![k, 0, 0, 0, 0] : Fin 5 → Nat) a + S1x1x1x256x256.size a ≤ S25x1x1x256x256.size a) : Vec F S1x1x1x256x256 .f32 :=
  View.ld (Val := Elt F) (e' := .f32) x1 (Rect.unit (s := S25x1x1x256x256) ![k, 0, 0, 0, 0] S1x1x1x256x256.size inb)

/-! ## The block after each tap -/

/-- After tap 0. -/
def acc0 (x0 : Vec F S1x16x260x260 .f32) (x1 : Vec F S25x1x1x256x256 .f32) : Vec F S1x16x256x256 .f32 :=
  first (slab x0 0 0 inb_S1x16x260x260_S1x16x256x256_0_0_0_0) (plane x1 0 inb_S25x1x1x256x256_S1x1x1x256x256_0_0_0_0_0)
    shapeCasts_S1x16x256x256_S16x256x256 shapeCasts_S1x1x1x256x256_S256x256 shapeCasts_S256x256_S1x256x256 broadcasts_S1x256x256_S16x256x256 shapeCasts_S16x256x256_S1x16x256x256

/-- After tap 1. -/
def acc1 (x0 : Vec F S1x16x260x260 .f32) (x1 : Vec F S25x1x1x256x256 .f32) : Vec F S1x16x256x256 .f32 :=
  step (acc0 x0 x1) (slab x0 0 1 inb_S1x16x260x260_S1x16x256x256_0_0_0_1) (plane x1 1 inb_S25x1x1x256x256_S1x1x1x256x256_1_0_0_0_0)
    shapeCasts_S1x16x256x256_S16x256x256 shapeCasts_S1x1x1x256x256_S256x256 shapeCasts_S256x256_S1x256x256 broadcasts_S1x256x256_S16x256x256 shapeCasts_S16x256x256_S1x16x256x256

/-- After tap 2. -/
def acc2 (x0 : Vec F S1x16x260x260 .f32) (x1 : Vec F S25x1x1x256x256 .f32) : Vec F S1x16x256x256 .f32 :=
  step (acc1 x0 x1) (slab x0 0 2 inb_S1x16x260x260_S1x16x256x256_0_0_0_2) (plane x1 2 inb_S25x1x1x256x256_S1x1x1x256x256_2_0_0_0_0)
    shapeCasts_S1x16x256x256_S16x256x256 shapeCasts_S1x1x1x256x256_S256x256 shapeCasts_S256x256_S1x256x256 broadcasts_S1x256x256_S16x256x256 shapeCasts_S16x256x256_S1x16x256x256

/-- After tap 3. -/
def acc3 (x0 : Vec F S1x16x260x260 .f32) (x1 : Vec F S25x1x1x256x256 .f32) : Vec F S1x16x256x256 .f32 :=
  step (acc2 x0 x1) (slab x0 0 3 inb_S1x16x260x260_S1x16x256x256_0_0_0_3) (plane x1 3 inb_S25x1x1x256x256_S1x1x1x256x256_3_0_0_0_0)
    shapeCasts_S1x16x256x256_S16x256x256 shapeCasts_S1x1x1x256x256_S256x256 shapeCasts_S256x256_S1x256x256 broadcasts_S1x256x256_S16x256x256 shapeCasts_S16x256x256_S1x16x256x256

/-- After tap 4. -/
def acc4 (x0 : Vec F S1x16x260x260 .f32) (x1 : Vec F S25x1x1x256x256 .f32) : Vec F S1x16x256x256 .f32 :=
  step (acc3 x0 x1) (slab x0 0 4 inb_S1x16x260x260_S1x16x256x256_0_0_0_4) (plane x1 4 inb_S25x1x1x256x256_S1x1x1x256x256_4_0_0_0_0)
    shapeCasts_S1x16x256x256_S16x256x256 shapeCasts_S1x1x1x256x256_S256x256 shapeCasts_S256x256_S1x256x256 broadcasts_S1x256x256_S16x256x256 shapeCasts_S16x256x256_S1x16x256x256

/-- After tap 5. -/
def acc5 (x0 : Vec F S1x16x260x260 .f32) (x1 : Vec F S25x1x1x256x256 .f32) : Vec F S1x16x256x256 .f32 :=
  step (acc4 x0 x1) (slab x0 1 0 inb_S1x16x260x260_S1x16x256x256_0_0_1_0) (plane x1 5 inb_S25x1x1x256x256_S1x1x1x256x256_5_0_0_0_0)
    shapeCasts_S1x16x256x256_S16x256x256 shapeCasts_S1x1x1x256x256_S256x256 shapeCasts_S256x256_S1x256x256 broadcasts_S1x256x256_S16x256x256 shapeCasts_S16x256x256_S1x16x256x256

/-- After tap 6. -/
def acc6 (x0 : Vec F S1x16x260x260 .f32) (x1 : Vec F S25x1x1x256x256 .f32) : Vec F S1x16x256x256 .f32 :=
  step (acc5 x0 x1) (slab x0 1 1 inb_S1x16x260x260_S1x16x256x256_0_0_1_1) (plane x1 6 inb_S25x1x1x256x256_S1x1x1x256x256_6_0_0_0_0)
    shapeCasts_S1x16x256x256_S16x256x256 shapeCasts_S1x1x1x256x256_S256x256 shapeCasts_S256x256_S1x256x256 broadcasts_S1x256x256_S16x256x256 shapeCasts_S16x256x256_S1x16x256x256

/-- After tap 7. -/
def acc7 (x0 : Vec F S1x16x260x260 .f32) (x1 : Vec F S25x1x1x256x256 .f32) : Vec F S1x16x256x256 .f32 :=
  step (acc6 x0 x1) (slab x0 1 2 inb_S1x16x260x260_S1x16x256x256_0_0_1_2) (plane x1 7 inb_S25x1x1x256x256_S1x1x1x256x256_7_0_0_0_0)
    shapeCasts_S1x16x256x256_S16x256x256 shapeCasts_S1x1x1x256x256_S256x256 shapeCasts_S256x256_S1x256x256 broadcasts_S1x256x256_S16x256x256 shapeCasts_S16x256x256_S1x16x256x256

/-- After tap 8. -/
def acc8 (x0 : Vec F S1x16x260x260 .f32) (x1 : Vec F S25x1x1x256x256 .f32) : Vec F S1x16x256x256 .f32 :=
  step (acc7 x0 x1) (slab x0 1 3 inb_S1x16x260x260_S1x16x256x256_0_0_1_3) (plane x1 8 inb_S25x1x1x256x256_S1x1x1x256x256_8_0_0_0_0)
    shapeCasts_S1x16x256x256_S16x256x256 shapeCasts_S1x1x1x256x256_S256x256 shapeCasts_S256x256_S1x256x256 broadcasts_S1x256x256_S16x256x256 shapeCasts_S16x256x256_S1x16x256x256

/-- After tap 9. -/
def acc9 (x0 : Vec F S1x16x260x260 .f32) (x1 : Vec F S25x1x1x256x256 .f32) : Vec F S1x16x256x256 .f32 :=
  step (acc8 x0 x1) (slab x0 1 4 inb_S1x16x260x260_S1x16x256x256_0_0_1_4) (plane x1 9 inb_S25x1x1x256x256_S1x1x1x256x256_9_0_0_0_0)
    shapeCasts_S1x16x256x256_S16x256x256 shapeCasts_S1x1x1x256x256_S256x256 shapeCasts_S256x256_S1x256x256 broadcasts_S1x256x256_S16x256x256 shapeCasts_S16x256x256_S1x16x256x256

/-- After tap 10. -/
def acc10 (x0 : Vec F S1x16x260x260 .f32) (x1 : Vec F S25x1x1x256x256 .f32) : Vec F S1x16x256x256 .f32 :=
  step (acc9 x0 x1) (slab x0 2 0 inb_S1x16x260x260_S1x16x256x256_0_0_2_0) (plane x1 10 inb_S25x1x1x256x256_S1x1x1x256x256_10_0_0_0_0)
    shapeCasts_S1x16x256x256_S16x256x256 shapeCasts_S1x1x1x256x256_S256x256 shapeCasts_S256x256_S1x256x256 broadcasts_S1x256x256_S16x256x256 shapeCasts_S16x256x256_S1x16x256x256

/-- After tap 11. -/
def acc11 (x0 : Vec F S1x16x260x260 .f32) (x1 : Vec F S25x1x1x256x256 .f32) : Vec F S1x16x256x256 .f32 :=
  step (acc10 x0 x1) (slab x0 2 1 inb_S1x16x260x260_S1x16x256x256_0_0_2_1) (plane x1 11 inb_S25x1x1x256x256_S1x1x1x256x256_11_0_0_0_0)
    shapeCasts_S1x16x256x256_S16x256x256 shapeCasts_S1x1x1x256x256_S256x256 shapeCasts_S256x256_S1x256x256 broadcasts_S1x256x256_S16x256x256 shapeCasts_S16x256x256_S1x16x256x256

/-- After tap 12. -/
def acc12 (x0 : Vec F S1x16x260x260 .f32) (x1 : Vec F S25x1x1x256x256 .f32) : Vec F S1x16x256x256 .f32 :=
  step (acc11 x0 x1) (slab x0 2 2 inb_S1x16x260x260_S1x16x256x256_0_0_2_2) (plane x1 12 inb_S25x1x1x256x256_S1x1x1x256x256_12_0_0_0_0)
    shapeCasts_S1x16x256x256_S16x256x256 shapeCasts_S1x1x1x256x256_S256x256 shapeCasts_S256x256_S1x256x256 broadcasts_S1x256x256_S16x256x256 shapeCasts_S16x256x256_S1x16x256x256

/-- After tap 13. -/
def acc13 (x0 : Vec F S1x16x260x260 .f32) (x1 : Vec F S25x1x1x256x256 .f32) : Vec F S1x16x256x256 .f32 :=
  step (acc12 x0 x1) (slab x0 2 3 inb_S1x16x260x260_S1x16x256x256_0_0_2_3) (plane x1 13 inb_S25x1x1x256x256_S1x1x1x256x256_13_0_0_0_0)
    shapeCasts_S1x16x256x256_S16x256x256 shapeCasts_S1x1x1x256x256_S256x256 shapeCasts_S256x256_S1x256x256 broadcasts_S1x256x256_S16x256x256 shapeCasts_S16x256x256_S1x16x256x256

/-- After tap 14. -/
def acc14 (x0 : Vec F S1x16x260x260 .f32) (x1 : Vec F S25x1x1x256x256 .f32) : Vec F S1x16x256x256 .f32 :=
  step (acc13 x0 x1) (slab x0 2 4 inb_S1x16x260x260_S1x16x256x256_0_0_2_4) (plane x1 14 inb_S25x1x1x256x256_S1x1x1x256x256_14_0_0_0_0)
    shapeCasts_S1x16x256x256_S16x256x256 shapeCasts_S1x1x1x256x256_S256x256 shapeCasts_S256x256_S1x256x256 broadcasts_S1x256x256_S16x256x256 shapeCasts_S16x256x256_S1x16x256x256

/-- After tap 15. -/
def acc15 (x0 : Vec F S1x16x260x260 .f32) (x1 : Vec F S25x1x1x256x256 .f32) : Vec F S1x16x256x256 .f32 :=
  step (acc14 x0 x1) (slab x0 3 0 inb_S1x16x260x260_S1x16x256x256_0_0_3_0) (plane x1 15 inb_S25x1x1x256x256_S1x1x1x256x256_15_0_0_0_0)
    shapeCasts_S1x16x256x256_S16x256x256 shapeCasts_S1x1x1x256x256_S256x256 shapeCasts_S256x256_S1x256x256 broadcasts_S1x256x256_S16x256x256 shapeCasts_S16x256x256_S1x16x256x256

/-- After tap 16. -/
def acc16 (x0 : Vec F S1x16x260x260 .f32) (x1 : Vec F S25x1x1x256x256 .f32) : Vec F S1x16x256x256 .f32 :=
  step (acc15 x0 x1) (slab x0 3 1 inb_S1x16x260x260_S1x16x256x256_0_0_3_1) (plane x1 16 inb_S25x1x1x256x256_S1x1x1x256x256_16_0_0_0_0)
    shapeCasts_S1x16x256x256_S16x256x256 shapeCasts_S1x1x1x256x256_S256x256 shapeCasts_S256x256_S1x256x256 broadcasts_S1x256x256_S16x256x256 shapeCasts_S16x256x256_S1x16x256x256

/-- After tap 17. -/
def acc17 (x0 : Vec F S1x16x260x260 .f32) (x1 : Vec F S25x1x1x256x256 .f32) : Vec F S1x16x256x256 .f32 :=
  step (acc16 x0 x1) (slab x0 3 2 inb_S1x16x260x260_S1x16x256x256_0_0_3_2) (plane x1 17 inb_S25x1x1x256x256_S1x1x1x256x256_17_0_0_0_0)
    shapeCasts_S1x16x256x256_S16x256x256 shapeCasts_S1x1x1x256x256_S256x256 shapeCasts_S256x256_S1x256x256 broadcasts_S1x256x256_S16x256x256 shapeCasts_S16x256x256_S1x16x256x256

/-- After tap 18. -/
def acc18 (x0 : Vec F S1x16x260x260 .f32) (x1 : Vec F S25x1x1x256x256 .f32) : Vec F S1x16x256x256 .f32 :=
  step (acc17 x0 x1) (slab x0 3 3 inb_S1x16x260x260_S1x16x256x256_0_0_3_3) (plane x1 18 inb_S25x1x1x256x256_S1x1x1x256x256_18_0_0_0_0)
    shapeCasts_S1x16x256x256_S16x256x256 shapeCasts_S1x1x1x256x256_S256x256 shapeCasts_S256x256_S1x256x256 broadcasts_S1x256x256_S16x256x256 shapeCasts_S16x256x256_S1x16x256x256

/-- After tap 19. -/
def acc19 (x0 : Vec F S1x16x260x260 .f32) (x1 : Vec F S25x1x1x256x256 .f32) : Vec F S1x16x256x256 .f32 :=
  step (acc18 x0 x1) (slab x0 3 4 inb_S1x16x260x260_S1x16x256x256_0_0_3_4) (plane x1 19 inb_S25x1x1x256x256_S1x1x1x256x256_19_0_0_0_0)
    shapeCasts_S1x16x256x256_S16x256x256 shapeCasts_S1x1x1x256x256_S256x256 shapeCasts_S256x256_S1x256x256 broadcasts_S1x256x256_S16x256x256 shapeCasts_S16x256x256_S1x16x256x256

/-- After tap 20. -/
def acc20 (x0 : Vec F S1x16x260x260 .f32) (x1 : Vec F S25x1x1x256x256 .f32) : Vec F S1x16x256x256 .f32 :=
  step (acc19 x0 x1) (slab x0 4 0 inb_S1x16x260x260_S1x16x256x256_0_0_4_0) (plane x1 20 inb_S25x1x1x256x256_S1x1x1x256x256_20_0_0_0_0)
    shapeCasts_S1x16x256x256_S16x256x256 shapeCasts_S1x1x1x256x256_S256x256 shapeCasts_S256x256_S1x256x256 broadcasts_S1x256x256_S16x256x256 shapeCasts_S16x256x256_S1x16x256x256

/-- After tap 21. -/
def acc21 (x0 : Vec F S1x16x260x260 .f32) (x1 : Vec F S25x1x1x256x256 .f32) : Vec F S1x16x256x256 .f32 :=
  step (acc20 x0 x1) (slab x0 4 1 inb_S1x16x260x260_S1x16x256x256_0_0_4_1) (plane x1 21 inb_S25x1x1x256x256_S1x1x1x256x256_21_0_0_0_0)
    shapeCasts_S1x16x256x256_S16x256x256 shapeCasts_S1x1x1x256x256_S256x256 shapeCasts_S256x256_S1x256x256 broadcasts_S1x256x256_S16x256x256 shapeCasts_S16x256x256_S1x16x256x256

/-- After tap 22. -/
def acc22 (x0 : Vec F S1x16x260x260 .f32) (x1 : Vec F S25x1x1x256x256 .f32) : Vec F S1x16x256x256 .f32 :=
  step (acc21 x0 x1) (slab x0 4 2 inb_S1x16x260x260_S1x16x256x256_0_0_4_2) (plane x1 22 inb_S25x1x1x256x256_S1x1x1x256x256_22_0_0_0_0)
    shapeCasts_S1x16x256x256_S16x256x256 shapeCasts_S1x1x1x256x256_S256x256 shapeCasts_S256x256_S1x256x256 broadcasts_S1x256x256_S16x256x256 shapeCasts_S16x256x256_S1x16x256x256

/-- After tap 23. -/
def acc23 (x0 : Vec F S1x16x260x260 .f32) (x1 : Vec F S25x1x1x256x256 .f32) : Vec F S1x16x256x256 .f32 :=
  step (acc22 x0 x1) (slab x0 4 3 inb_S1x16x260x260_S1x16x256x256_0_0_4_3) (plane x1 23 inb_S25x1x1x256x256_S1x1x1x256x256_23_0_0_0_0)
    shapeCasts_S1x16x256x256_S16x256x256 shapeCasts_S1x1x1x256x256_S256x256 shapeCasts_S256x256_S1x256x256 broadcasts_S1x256x256_S16x256x256 shapeCasts_S16x256x256_S1x16x256x256

/-- After tap 24. -/
def acc24 (x0 : Vec F S1x16x260x260 .f32) (x1 : Vec F S25x1x1x256x256 .f32) : Vec F S1x16x256x256 .f32 :=
  step (acc23 x0 x1) (slab x0 4 4 inb_S1x16x260x260_S1x16x256x256_0_0_4_4) (plane x1 24 inb_S25x1x1x256x256_S1x1x1x256x256_24_0_0_0_0)
    shapeCasts_S1x16x256x256_S16x256x256 shapeCasts_S1x1x1x256x256_S256x256 shapeCasts_S256x256_S1x256x256 broadcasts_S1x256x256_S16x256x256 shapeCasts_S16x256x256_S1x16x256x256

/-! ## The run's load-backs, one after the other -/

section Run
variable (c : Dev nD) (i : grid0.Coords) (a2 : Memref sig .tc .vmem S1x16x260x260 .f32) (h2 : a2.IsWhole)
  (a3 : Memref sig .tc .vmem S25x1x1x256x256 .f32) (h3 : a3.IsWhole) (a4 : Memref sig .tc .vmem S1x16x256x256 .f32)
  (h4 : a4.IsWhole) (x0 : Vec F S1x16x260x260 .f32) (x1 : Vec F S25x1x1x256x256 .f32)

/-- The load-back before tap 1 reads the block after tap 0. -/
theorem v15_eq : kernelRun0_A.sl.v15 c a2 h2 a3 h3 a4 x0 x1 = acc0 x0 x1 := by
  unfold kernelRun0_A.sl.v15 kernelRun0_A.sl.H2_1
  rw [readCov_cons_unit_zero _ hz]
  simp only [View.readAt_eq_ld, h2.read_unread, h3.read_unread]
  rfl

/-- The load-back before tap 2 reads the block after tap 1. -/
theorem v28_eq : kernelRun0_A.sl.v28 c a2 h2 a3 h3 a4 x0 x1 = acc1 x0 x1 := by
  unfold kernelRun0_A.sl.v28 kernelRun0_A.sl.H2_2
  rw [readCov_cons_unit_zero _ hz]
  rw [v15_eq]
  simp only [View.readAt_eq_ld, h2.read_unread, h3.read_unread]
  rfl

/-- The load-back before tap 3 reads the block after tap 2. -/
theorem v41_eq : kernelRun0_A.sl.v41 c a2 h2 a3 h3 a4 x0 x1 = acc2 x0 x1 := by
  unfold kernelRun0_A.sl.v41 kernelRun0_A.sl.H2_3
  rw [readCov_cons_unit_zero _ hz]
  rw [v28_eq]
  simp only [View.readAt_eq_ld, h2.read_unread, h3.read_unread]
  rfl

/-- The load-back before tap 4 reads the block after tap 3. -/
theorem v54_eq : kernelRun0_A.sl.v54 c a2 h2 a3 h3 a4 x0 x1 = acc3 x0 x1 := by
  unfold kernelRun0_A.sl.v54 kernelRun0_A.sl.H2_4
  rw [readCov_cons_unit_zero _ hz]
  rw [v41_eq]
  simp only [View.readAt_eq_ld, h2.read_unread, h3.read_unread]
  rfl

/-- The load-back before tap 5 reads the block after tap 4. -/
theorem v67_eq : kernelRun0_A.sl.v67 c a2 h2 a3 h3 a4 x0 x1 = acc4 x0 x1 := by
  unfold kernelRun0_A.sl.v67 kernelRun0_A.sl.H2_5
  rw [readCov_cons_unit_zero _ hz]
  rw [v54_eq]
  simp only [View.readAt_eq_ld, h2.read_unread, h3.read_unread]
  rfl

/-- The load-back before tap 6 reads the block after tap 5. -/
theorem v80_eq : kernelRun0_A.sl.v80 c a2 h2 a3 h3 a4 x0 x1 = acc5 x0 x1 := by
  unfold kernelRun0_A.sl.v80 kernelRun0_A.sl.H2_6
  rw [readCov_cons_unit_zero _ hz]
  unfold kernelRun0_A.sl.r
  rw [v67_eq]
  simp only [View.readAt_eq_ld, h2.read_unread, h3.read_unread]
  rfl

/-- The load-back before tap 7 reads the block after tap 6. -/
theorem v93_eq : kernelRun0_A.sl.v93 c a2 h2 a3 h3 a4 x0 x1 = acc6 x0 x1 := by
  unfold kernelRun0_A.sl.v93 kernelRun0_A.sl.H2_7
  rw [readCov_cons_unit_zero _ hz]
  rw [v80_eq]
  simp only [View.readAt_eq_ld, h2.read_unread, h3.read_unread]
  rfl

/-- The load-back before tap 8 reads the block after tap 7. -/
theorem v106_eq : kernelRun0_A.sl.v106 c a2 h2 a3 h3 a4 x0 x1 = acc7 x0 x1 := by
  unfold kernelRun0_A.sl.v106 kernelRun0_A.sl.H2_8
  rw [readCov_cons_unit_zero _ hz]
  unfold kernelRun0_A.sl.r_1
  rw [v93_eq]
  simp only [View.readAt_eq_ld, h2.read_unread, h3.read_unread]
  rfl

/-- The load-back before tap 9 reads the block after tap 8. -/
theorem v119_eq : kernelRun0_A.sl.v119 c a2 h2 a3 h3 a4 x0 x1 = acc8 x0 x1 := by
  unfold kernelRun0_A.sl.v119 kernelRun0_A.sl.H2_9
  rw [readCov_cons_unit_zero _ hz]
  rw [v106_eq]
  simp only [View.readAt_eq_ld, h2.read_unread, h3.read_unread]
  rfl

/-- The load-back before tap 10 reads the block after tap 9. -/
theorem v132_eq : kernelRun0_A.sl.v132 c a2 h2 a3 h3 a4 x0 x1 = acc9 x0 x1 := by
  unfold kernelRun0_A.sl.v132 kernelRun0_A.sl.H2_10
  rw [readCov_cons_unit_zero _ hz]
  unfold kernelRun0_A.sl.r_2
  rw [v119_eq]
  simp only [View.readAt_eq_ld, h2.read_unread, h3.read_unread]
  rfl

/-- The load-back before tap 11 reads the block after tap 10. -/
theorem v145_eq : kernelRun0_A.sl.v145 c a2 h2 a3 h3 a4 x0 x1 = acc10 x0 x1 := by
  unfold kernelRun0_A.sl.v145 kernelRun0_A.sl.H2_11
  rw [readCov_cons_unit_zero _ hz]
  rw [v132_eq]
  simp only [View.readAt_eq_ld, h2.read_unread, h3.read_unread]
  rfl

/-- The load-back before tap 12 reads the block after tap 11. -/
theorem v158_eq : kernelRun0_A.sl.v158 c a2 h2 a3 h3 a4 x0 x1 = acc11 x0 x1 := by
  unfold kernelRun0_A.sl.v158 kernelRun0_A.sl.H2_12
  rw [readCov_cons_unit_zero _ hz]
  unfold kernelRun0_A.sl.r_3
  rw [v145_eq]
  simp only [View.readAt_eq_ld, h2.read_unread, h3.read_unread]
  rfl

/-- The load-back before tap 13 reads the block after tap 12. -/
theorem v171_eq : kernelRun0_A.sl.v171 c a2 h2 a3 h3 a4 x0 x1 = acc12 x0 x1 := by
  unfold kernelRun0_A.sl.v171 kernelRun0_A.sl.H2_13
  rw [readCov_cons_unit_zero _ hz]
  rw [v158_eq]
  simp only [View.readAt_eq_ld, h2.read_unread, h3.read_unread]
  rfl

/-- The load-back before tap 14 reads the block after tap 13. -/
theorem v184_eq : kernelRun0_A.sl.v184 c a2 h2 a3 h3 a4 x0 x1 = acc13 x0 x1 := by
  unfold kernelRun0_A.sl.v184 kernelRun0_A.sl.H2_14
  rw [readCov_cons_unit_zero _ hz]
  unfold kernelRun0_A.sl.r_4 kernelRun0_A.sl.r_5
  rw [v171_eq]
  simp only [View.readAt_eq_ld, h2.read_unread, h3.read_unread]
  rfl

/-- The load-back before tap 15 reads the block after tap 14. -/
theorem v197_eq : kernelRun0_A.sl.v197 c a2 h2 a3 h3 a4 x0 x1 = acc14 x0 x1 := by
  unfold kernelRun0_A.sl.v197 kernelRun0_A.sl.H2_15
  rw [readCov_cons_unit_zero _ hz]
  rw [v184_eq]
  simp only [View.readAt_eq_ld, h2.read_unread, h3.read_unread]
  rfl

/-- The load-back before tap 16 reads the block after tap 15. -/
theorem v210_eq : kernelRun0_A.sl.v210 c a2 h2 a3 h3 a4 x0 x1 = acc15 x0 x1 := by
  unfold kernelRun0_A.sl.v210 kernelRun0_A.sl.H2_16
  rw [readCov_cons_unit_zero _ hz]
  unfold kernelRun0_A.sl.r_6 kernelRun0_A.sl.r_7 kernelRun0_A.sl.r_8
  rw [v197_eq]
  simp only [View.readAt_eq_ld, h2.read_unread, h3.read_unread]
  rfl

/-- The load-back before tap 17 reads the block after tap 16. -/
theorem v223_eq : kernelRun0_A.sl.v223 c a2 h2 a3 h3 a4 x0 x1 = acc16 x0 x1 := by
  unfold kernelRun0_A.sl.v223 kernelRun0_A.sl.H2_17
  rw [readCov_cons_unit_zero _ hz]
  rw [v210_eq]
  simp only [View.readAt_eq_ld, h2.read_unread, h3.read_unread]
  rfl

/-- The load-back before tap 18 reads the block after tap 17. -/
theorem v236_eq : kernelRun0_A.sl.v236 c a2 h2 a3 h3 a4 x0 x1 = acc17 x0 x1 := by
  unfold kernelRun0_A.sl.v236 kernelRun0_A.sl.H2_18
  rw [readCov_cons_unit_zero _ hz]
  unfold kernelRun0_A.sl.r_9 kernelRun0_A.sl.r_10
  rw [v223_eq]
  simp only [View.readAt_eq_ld, h2.read_unread, h3.read_unread]
  rfl

/-- The load-back before tap 19 reads the block after tap 18. -/
theorem v249_eq : kernelRun0_A.sl.v249 c a2 h2 a3 h3 a4 x0 x1 = acc18 x0 x1 := by
  unfold kernelRun0_A.sl.v249 kernelRun0_A.sl.H2_19
  rw [readCov_cons_unit_zero _ hz]
  rw [v236_eq]
  simp only [View.readAt_eq_ld, h2.read_unread, h3.read_unread]
  rfl

/-- The load-back before tap 20 reads the block after tap 19. -/
theorem v262_eq : kernelRun0_A.sl.v262 c a2 h2 a3 h3 a4 x0 x1 = acc19 x0 x1 := by
  unfold kernelRun0_A.sl.v262 kernelRun0_A.sl.H2_20
  rw [readCov_cons_unit_zero _ hz]
  unfold kernelRun0_A.sl.r_11 kernelRun0_A.sl.r_12
  rw [v249_eq]
  simp only [View.readAt_eq_ld, h2.read_unread, h3.read_unread]
  rfl

/-- The load-back before tap 21 reads the block after tap 20. -/
theorem v275_eq : kernelRun0_A.sl.v275 c a2 h2 a3 h3 a4 x0 x1 = acc20 x0 x1 := by
  unfold kernelRun0_A.sl.v275 kernelRun0_A.sl.H2_21
  rw [readCov_cons_unit_zero _ hz]
  rw [v262_eq]
  simp only [View.readAt_eq_ld, h2.read_unread, h3.read_unread]
  rfl

/-- The load-back before tap 22 reads the block after tap 21. -/
theorem v288_eq : kernelRun0_A.sl.v288 c a2 h2 a3 h3 a4 x0 x1 = acc21 x0 x1 := by
  unfold kernelRun0_A.sl.v288 kernelRun0_A.sl.H2_22
  rw [readCov_cons_unit_zero _ hz]
  unfold kernelRun0_A.sl.r_13 kernelRun0_A.sl.r_14
  rw [v275_eq]
  simp only [View.readAt_eq_ld, h2.read_unread, h3.read_unread]
  rfl

/-- The load-back before tap 23 reads the block after tap 22. -/
theorem v301_eq : kernelRun0_A.sl.v301 c a2 h2 a3 h3 a4 x0 x1 = acc22 x0 x1 := by
  unfold kernelRun0_A.sl.v301 kernelRun0_A.sl.H2_23
  rw [readCov_cons_unit_zero _ hz]
  rw [v288_eq]
  simp only [View.readAt_eq_ld, h2.read_unread, h3.read_unread]
  rfl

/-- The load-back before tap 24 reads the block after tap 23. -/
theorem v314_eq : kernelRun0_A.sl.v314 c a2 h2 a3 h3 a4 x0 x1 = acc23 x0 x1 := by
  unfold kernelRun0_A.sl.v314 kernelRun0_A.sl.H2_24
  rw [readCov_cons_unit_zero _ hz]
  unfold kernelRun0_A.sl.r_15 kernelRun0_A.sl.r_16
  rw [v301_eq]
  simp only [View.readAt_eq_ld, h2.read_unread, h3.read_unread]
  rfl

/-- What the run leaves in the output block: the block after the last tap. -/
theorem out_eq : out0_A_2 c i a2 h2 a3 h3 a4 h4 x0 x1 = acc24 x0 x1 := by
  unfold out0_A_2
  rw [View.read_writes_eq_canon _ _ _ (cover0_A_2 c i a2 h2 a3 h3 a4 h4 x0 x1)]
  unfold kernelRun0_A
  dsimp only
  rw [View.canon_cons_unit_zero hz]
  unfold kernelRun0_A.sl.r_17
  rw [v314_eq]
  simp only [View.readAt_eq_ld, h2.read_unread, h3.read_unread]
  rfl

end Run

/-! ## Read at an entry, over the extended reals -/

section AtIdeal
variable (x0 : Vec Ideal S1x16x260x260 .f32) (x1 : Vec Ideal S25x1x1x256x256 .f32) (p : Fin 16) (h w : Fin 256)

theorem acc0_apply : acc0 x0 x1 (ix4 (0 : Fin 1) p h w) = blkTap x0 x1 p h w 0 0 := by
  unfold acc0 blkTap
  rw [first_apply]
  exact congrArg₂ (· * ·) (slab_apply x0 0 0 (by decide) (by decide) _ p h w)
    (wplane_apply x1 0 0 0 rfl (by decide) (by decide) _ h w)

theorem acc1_apply : acc1 x0 x1 (ix4 (0 : Fin 1) p h w) = acc0 x0 x1 (ix4 (0 : Fin 1) p h w) + blkTap x0 x1 p h w 0 1 := by
  unfold acc1 blkTap
  rw [step_apply]
  exact congrArg₂ (fun a b => acc0 x0 x1 (ix4 (0 : Fin 1) p h w) + a * b)
    (slab_apply x0 0 1 (by decide) (by decide) _ p h w) (wplane_apply x1 1 0 1 rfl (by decide) (by decide) _ h w)

theorem acc2_apply : acc2 x0 x1 (ix4 (0 : Fin 1) p h w) = acc1 x0 x1 (ix4 (0 : Fin 1) p h w) + blkTap x0 x1 p h w 0 2 := by
  unfold acc2 blkTap
  rw [step_apply]
  exact congrArg₂ (fun a b => acc1 x0 x1 (ix4 (0 : Fin 1) p h w) + a * b)
    (slab_apply x0 0 2 (by decide) (by decide) _ p h w) (wplane_apply x1 2 0 2 rfl (by decide) (by decide) _ h w)

theorem acc3_apply : acc3 x0 x1 (ix4 (0 : Fin 1) p h w) = acc2 x0 x1 (ix4 (0 : Fin 1) p h w) + blkTap x0 x1 p h w 0 3 := by
  unfold acc3 blkTap
  rw [step_apply]
  exact congrArg₂ (fun a b => acc2 x0 x1 (ix4 (0 : Fin 1) p h w) + a * b)
    (slab_apply x0 0 3 (by decide) (by decide) _ p h w) (wplane_apply x1 3 0 3 rfl (by decide) (by decide) _ h w)

theorem acc4_apply : acc4 x0 x1 (ix4 (0 : Fin 1) p h w) = acc3 x0 x1 (ix4 (0 : Fin 1) p h w) + blkTap x0 x1 p h w 0 4 := by
  unfold acc4 blkTap
  rw [step_apply]
  exact congrArg₂ (fun a b => acc3 x0 x1 (ix4 (0 : Fin 1) p h w) + a * b)
    (slab_apply x0 0 4 (by decide) (by decide) _ p h w) (wplane_apply x1 4 0 4 rfl (by decide) (by decide) _ h w)

theorem acc5_apply : acc5 x0 x1 (ix4 (0 : Fin 1) p h w) = acc4 x0 x1 (ix4 (0 : Fin 1) p h w) + blkTap x0 x1 p h w 1 0 := by
  unfold acc5 blkTap
  rw [step_apply]
  exact congrArg₂ (fun a b => acc4 x0 x1 (ix4 (0 : Fin 1) p h w) + a * b)
    (slab_apply x0 1 0 (by decide) (by decide) _ p h w) (wplane_apply x1 5 1 0 rfl (by decide) (by decide) _ h w)

theorem acc6_apply : acc6 x0 x1 (ix4 (0 : Fin 1) p h w) = acc5 x0 x1 (ix4 (0 : Fin 1) p h w) + blkTap x0 x1 p h w 1 1 := by
  unfold acc6 blkTap
  rw [step_apply]
  exact congrArg₂ (fun a b => acc5 x0 x1 (ix4 (0 : Fin 1) p h w) + a * b)
    (slab_apply x0 1 1 (by decide) (by decide) _ p h w) (wplane_apply x1 6 1 1 rfl (by decide) (by decide) _ h w)

theorem acc7_apply : acc7 x0 x1 (ix4 (0 : Fin 1) p h w) = acc6 x0 x1 (ix4 (0 : Fin 1) p h w) + blkTap x0 x1 p h w 1 2 := by
  unfold acc7 blkTap
  rw [step_apply]
  exact congrArg₂ (fun a b => acc6 x0 x1 (ix4 (0 : Fin 1) p h w) + a * b)
    (slab_apply x0 1 2 (by decide) (by decide) _ p h w) (wplane_apply x1 7 1 2 rfl (by decide) (by decide) _ h w)

theorem acc8_apply : acc8 x0 x1 (ix4 (0 : Fin 1) p h w) = acc7 x0 x1 (ix4 (0 : Fin 1) p h w) + blkTap x0 x1 p h w 1 3 := by
  unfold acc8 blkTap
  rw [step_apply]
  exact congrArg₂ (fun a b => acc7 x0 x1 (ix4 (0 : Fin 1) p h w) + a * b)
    (slab_apply x0 1 3 (by decide) (by decide) _ p h w) (wplane_apply x1 8 1 3 rfl (by decide) (by decide) _ h w)

theorem acc9_apply : acc9 x0 x1 (ix4 (0 : Fin 1) p h w) = acc8 x0 x1 (ix4 (0 : Fin 1) p h w) + blkTap x0 x1 p h w 1 4 := by
  unfold acc9 blkTap
  rw [step_apply]
  exact congrArg₂ (fun a b => acc8 x0 x1 (ix4 (0 : Fin 1) p h w) + a * b)
    (slab_apply x0 1 4 (by decide) (by decide) _ p h w) (wplane_apply x1 9 1 4 rfl (by decide) (by decide) _ h w)

theorem acc10_apply : acc10 x0 x1 (ix4 (0 : Fin 1) p h w) = acc9 x0 x1 (ix4 (0 : Fin 1) p h w) + blkTap x0 x1 p h w 2 0 := by
  unfold acc10 blkTap
  rw [step_apply]
  exact congrArg₂ (fun a b => acc9 x0 x1 (ix4 (0 : Fin 1) p h w) + a * b)
    (slab_apply x0 2 0 (by decide) (by decide) _ p h w) (wplane_apply x1 10 2 0 rfl (by decide) (by decide) _ h w)

theorem acc11_apply : acc11 x0 x1 (ix4 (0 : Fin 1) p h w) = acc10 x0 x1 (ix4 (0 : Fin 1) p h w) + blkTap x0 x1 p h w 2 1 := by
  unfold acc11 blkTap
  rw [step_apply]
  exact congrArg₂ (fun a b => acc10 x0 x1 (ix4 (0 : Fin 1) p h w) + a * b)
    (slab_apply x0 2 1 (by decide) (by decide) _ p h w) (wplane_apply x1 11 2 1 rfl (by decide) (by decide) _ h w)

theorem acc12_apply : acc12 x0 x1 (ix4 (0 : Fin 1) p h w) = acc11 x0 x1 (ix4 (0 : Fin 1) p h w) + blkTap x0 x1 p h w 2 2 := by
  unfold acc12 blkTap
  rw [step_apply]
  exact congrArg₂ (fun a b => acc11 x0 x1 (ix4 (0 : Fin 1) p h w) + a * b)
    (slab_apply x0 2 2 (by decide) (by decide) _ p h w) (wplane_apply x1 12 2 2 rfl (by decide) (by decide) _ h w)

theorem acc13_apply : acc13 x0 x1 (ix4 (0 : Fin 1) p h w) = acc12 x0 x1 (ix4 (0 : Fin 1) p h w) + blkTap x0 x1 p h w 2 3 := by
  unfold acc13 blkTap
  rw [step_apply]
  exact congrArg₂ (fun a b => acc12 x0 x1 (ix4 (0 : Fin 1) p h w) + a * b)
    (slab_apply x0 2 3 (by decide) (by decide) _ p h w) (wplane_apply x1 13 2 3 rfl (by decide) (by decide) _ h w)

theorem acc14_apply : acc14 x0 x1 (ix4 (0 : Fin 1) p h w) = acc13 x0 x1 (ix4 (0 : Fin 1) p h w) + blkTap x0 x1 p h w 2 4 := by
  unfold acc14 blkTap
  rw [step_apply]
  exact congrArg₂ (fun a b => acc13 x0 x1 (ix4 (0 : Fin 1) p h w) + a * b)
    (slab_apply x0 2 4 (by decide) (by decide) _ p h w) (wplane_apply x1 14 2 4 rfl (by decide) (by decide) _ h w)

theorem acc15_apply : acc15 x0 x1 (ix4 (0 : Fin 1) p h w) = acc14 x0 x1 (ix4 (0 : Fin 1) p h w) + blkTap x0 x1 p h w 3 0 := by
  unfold acc15 blkTap
  rw [step_apply]
  exact congrArg₂ (fun a b => acc14 x0 x1 (ix4 (0 : Fin 1) p h w) + a * b)
    (slab_apply x0 3 0 (by decide) (by decide) _ p h w) (wplane_apply x1 15 3 0 rfl (by decide) (by decide) _ h w)

theorem acc16_apply : acc16 x0 x1 (ix4 (0 : Fin 1) p h w) = acc15 x0 x1 (ix4 (0 : Fin 1) p h w) + blkTap x0 x1 p h w 3 1 := by
  unfold acc16 blkTap
  rw [step_apply]
  exact congrArg₂ (fun a b => acc15 x0 x1 (ix4 (0 : Fin 1) p h w) + a * b)
    (slab_apply x0 3 1 (by decide) (by decide) _ p h w) (wplane_apply x1 16 3 1 rfl (by decide) (by decide) _ h w)

theorem acc17_apply : acc17 x0 x1 (ix4 (0 : Fin 1) p h w) = acc16 x0 x1 (ix4 (0 : Fin 1) p h w) + blkTap x0 x1 p h w 3 2 := by
  unfold acc17 blkTap
  rw [step_apply]
  exact congrArg₂ (fun a b => acc16 x0 x1 (ix4 (0 : Fin 1) p h w) + a * b)
    (slab_apply x0 3 2 (by decide) (by decide) _ p h w) (wplane_apply x1 17 3 2 rfl (by decide) (by decide) _ h w)

theorem acc18_apply : acc18 x0 x1 (ix4 (0 : Fin 1) p h w) = acc17 x0 x1 (ix4 (0 : Fin 1) p h w) + blkTap x0 x1 p h w 3 3 := by
  unfold acc18 blkTap
  rw [step_apply]
  exact congrArg₂ (fun a b => acc17 x0 x1 (ix4 (0 : Fin 1) p h w) + a * b)
    (slab_apply x0 3 3 (by decide) (by decide) _ p h w) (wplane_apply x1 18 3 3 rfl (by decide) (by decide) _ h w)

theorem acc19_apply : acc19 x0 x1 (ix4 (0 : Fin 1) p h w) = acc18 x0 x1 (ix4 (0 : Fin 1) p h w) + blkTap x0 x1 p h w 3 4 := by
  unfold acc19 blkTap
  rw [step_apply]
  exact congrArg₂ (fun a b => acc18 x0 x1 (ix4 (0 : Fin 1) p h w) + a * b)
    (slab_apply x0 3 4 (by decide) (by decide) _ p h w) (wplane_apply x1 19 3 4 rfl (by decide) (by decide) _ h w)

theorem acc20_apply : acc20 x0 x1 (ix4 (0 : Fin 1) p h w) = acc19 x0 x1 (ix4 (0 : Fin 1) p h w) + blkTap x0 x1 p h w 4 0 := by
  unfold acc20 blkTap
  rw [step_apply]
  exact congrArg₂ (fun a b => acc19 x0 x1 (ix4 (0 : Fin 1) p h w) + a * b)
    (slab_apply x0 4 0 (by decide) (by decide) _ p h w) (wplane_apply x1 20 4 0 rfl (by decide) (by decide) _ h w)

theorem acc21_apply : acc21 x0 x1 (ix4 (0 : Fin 1) p h w) = acc20 x0 x1 (ix4 (0 : Fin 1) p h w) + blkTap x0 x1 p h w 4 1 := by
  unfold acc21 blkTap
  rw [step_apply]
  exact congrArg₂ (fun a b => acc20 x0 x1 (ix4 (0 : Fin 1) p h w) + a * b)
    (slab_apply x0 4 1 (by decide) (by decide) _ p h w) (wplane_apply x1 21 4 1 rfl (by decide) (by decide) _ h w)

theorem acc22_apply : acc22 x0 x1 (ix4 (0 : Fin 1) p h w) = acc21 x0 x1 (ix4 (0 : Fin 1) p h w) + blkTap x0 x1 p h w 4 2 := by
  unfold acc22 blkTap
  rw [step_apply]
  exact congrArg₂ (fun a b => acc21 x0 x1 (ix4 (0 : Fin 1) p h w) + a * b)
    (slab_apply x0 4 2 (by decide) (by decide) _ p h w) (wplane_apply x1 22 4 2 rfl (by decide) (by decide) _ h w)

theorem acc23_apply : acc23 x0 x1 (ix4 (0 : Fin 1) p h w) = acc22 x0 x1 (ix4 (0 : Fin 1) p h w) + blkTap x0 x1 p h w 4 3 := by
  unfold acc23 blkTap
  rw [step_apply]
  exact congrArg₂ (fun a b => acc22 x0 x1 (ix4 (0 : Fin 1) p h w) + a * b)
    (slab_apply x0 4 3 (by decide) (by decide) _ p h w) (wplane_apply x1 23 4 3 rfl (by decide) (by decide) _ h w)

theorem acc24_apply : acc24 x0 x1 (ix4 (0 : Fin 1) p h w) = acc23 x0 x1 (ix4 (0 : Fin 1) p h w) + blkTap x0 x1 p h w 4 4 := by
  unfold acc24 blkTap
  rw [step_apply]
  exact congrArg₂ (fun a b => acc23 x0 x1 (ix4 (0 : Fin 1) p h w) + a * b)
    (slab_apply x0 4 4 (by decide) (by decide) _ p h w) (wplane_apply x1 24 4 4 rfl (by decide) (by decide) _ h w)

/-- The block after the last tap is the block's 25-term sum. -/
theorem acc24_eq : acc24 x0 x1 (ix4 (0 : Fin 1) p h w) = blkConv x0 x1 p h w := by
  rw [acc24_apply, acc23_apply, acc22_apply, acc21_apply, acc20_apply, acc19_apply, acc18_apply, acc17_apply, acc16_apply, acc15_apply, acc14_apply, acc13_apply, acc12_apply, acc11_apply, acc10_apply, acc9_apply, acc8_apply, acc7_apply, acc6_apply, acc5_apply, acc4_apply, acc3_apply, acc2_apply, acc1_apply, acc0_apply]
  rfl

end AtIdeal

end Cert.KernelIdeal.Blk

end
-- ==== Proof.KernelValue.lean ====
/-
  The kernel's result array is the convolution of the padded image with the weights.

  The grid has 8 × 4 points; point (b, j) stages the block [b, 16j : 16j + 16, :, :] of the padded image, the planes
  [:, b, :, :, :] of the weights, and writes back the block [b, 16j : 16j + 16, :, :] of the result. What it writes back is
  the block's 25-term sum (the module on one grid point), which is the convolution at the block's place (the module
  on a point against the whole arrays); the 32 blocks tile the result, so the result array is the convolution.
  The array window 0 stages is the padded image: the host pads the first argument before the region starts.
-/
import proofs.«117650_j18502719111479_2_alg».proof.Proof.Gen.KernelIdeal.Value
import proofs.«117650_j18502719111479_2_alg».proof.Proof.Spec
import proofs.«117650_j18502719111479_2_alg».proof.Proof.Point
import proofs.«117650_j18502719111479_2_alg».proof.Proof.KernelBlock
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Conv

open Cert.KernelIdeal Cert.KernelIdeal.Gen Cert.KernelIdeal.Value Cert.Conv5x5

variable (m : (ℓ : Loc nD τ sig) → Buf (Elt Ideal) ℓ) (ρ : Dev nD → PrngReg)

/-- The first argument, padded. -/
abbrev xpad (c : Dev nD) : Pad.Idx → EReal :=
  padded (m ((c : Thread nD τ).loc main_arg0)) pads_S8x64x256x256_S8x64x260x260_000_000_220_220 h_S_

/-- The result: the convolution of the padded first argument with the second. -/
abbrev result (c : Dev nD) : Buf (Elt Ideal) ((c : Thread nD τ).loc main_v1) :=
  conv (xpad m c) (m ((c : Thread nD τ).loc main_arg1))

/-- When the region starts, the array its first window stages holds the padded first argument. -/
theorem V_main_v0 (c : Dev nD) : (V m c main_v0 : S8x64x260x260.Idx → EReal) = xpad m c := by
  dsimp only [Gen.V]
  simp only [hostOps0, hostOps0_1, List.flatten_cons, List.flatten_nil, List.append_nil, List.cons_append,
    List.nil_append]
  after_results
  rfl

/-- The index maps, decided over the 32 points: the image block and the result block sit at the same (batch, tile)
    and cover their rows and columns whole; the planes are those of the same batch. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_2.index t (2 : Fin 4) = 0 ∧ win0_2.index t (3 : Fin 4) = 0
    ∧ win0_1.index t (0 : Fin 5) = 0 ∧ win0_1.index t (1 : Fin 5) = win0_2.index t (0 : Fin 4)
    ∧ win0_1.index t (2 : Fin 5) = 0 ∧ win0_1.index t (3 : Fin 5) = 0 ∧ win0_1.index t (4 : Fin 5) = 0
    ∧ win0_2.index t (0 : Fin 4) ≤ 7 ∧ win0_2.index t (1 : Fin 4) ≤ 3 :=
  (by decide +kernel : ∀ t : Fin grid0.N, _)

/-- Every (batch, tile) is some point's. -/
theorem idx_onto : ∀ (q0 : Fin 8) (q1 : Fin 4), ∃ t : Fin cfg0.N, win0_2.index t = ![q0.val, q1.val, 0, 0] :=
  (by decide +kernel : ∀ (q0 : Fin 8) (q1 : Fin 4), ∃ t : Fin grid0.N, win0_2.index t = ![q0.val, q1.val, 0, 0])

/-- What point t writes back is its block of the convolution. -/
theorem flushed_eq (c : Dev nD) (t : Fin cfg0.N) :
    (dats m 0 c).flushed 2 t = ((cfg0.win 2).blk t).view.read (Elt Ideal) (result m c) := by
  rw [flushed2_A, Blk.out_eq]
  obtain ⟨e00, e01, e02, e03, e22, e23, e10, e11, e12, e13, e14, b0, b1⟩ := idx_facts t
  funext y
  show Blk.acc24 (iblk m c 0 t) (iblk m c 1 t) y
    = conv (xpad m c) (m ((c : Thread nD τ).loc main_arg1)) (((cfg0.win 2).blk t).view.emb y)
  have h0 : (y 0).val < 1 := (y 0).isLt
  have h1 : (y 1).val < 16 := (y 1).isLt
  have h2 : (y 2).val < 256 := (y 2).isLt
  have h3 : (y 3).val < 256 := (y 3).isLt
  have hy : y = ix4 (0 : Fin 1) (⟨(y 1).val, h1⟩ : Fin 16) (⟨(y 2).val, h2⟩ : Fin 256) (⟨(y 3).val, h3⟩ : Fin 256) := by
    funext a
    match a with
    | ⟨0, _⟩ => exact Fin.ext (by show (y 0).val = 0; omega)
    | ⟨1, _⟩ => rfl
    | ⟨2, _⟩ => rfl
    | ⟨3, _⟩ => rfl
  have hx : ∀ (p : Fin 16) (hh ww : Fin 260), (iblk m c 0 t : Vec Ideal S1x16x260x260 .f32) (ix4 (0 : Fin 1) p hh ww)
      = xpad m c (ix4 (⟨win0_2.index t (0 : Fin 4), by omega⟩ : Fin 8)
          (⟨win0_2.index t (1 : Fin 4) * 16 + p.val, by omega⟩ : Fin 64) hh ww) := by
    intro p hh ww
    show V m c main_v0 (((cfg0.win 0).blk t).view.emb (ix4 (0 : Fin 1) p hh ww)) = _
    rw [V_main_v0]
    refine congrArg (xpad m c) (funext fun a => Fin.ext ?_)
    match a with
    | ⟨0, _⟩ => show win0_0.index t (0 : Fin 4) * 1 + 1 * 0 = win0_2.index t (0 : Fin 4); omega
    | ⟨1, _⟩ => show win0_0.index t (1 : Fin 4) * 16 + 1 * p.val = win0_2.index t (1 : Fin 4) * 16 + p.val; omega
    | ⟨2, _⟩ => show win0_0.index t (2 : Fin 4) * 260 + 1 * hh.val = hh.val; omega
    | ⟨3, _⟩ => show win0_0.index t (3 : Fin 4) * 260 + 1 * ww.val = ww.val; omega
  have hw : ∀ (k : Fin 25) (h w : Fin 256), (iblk m c 1 t : Vec Ideal S25x1x1x256x256 .f32)
        (ix5 k (0 : Fin 1) (0 : Fin 1) h w)
      = m ((c : Thread nD τ).loc main_arg1) (ix5 k (⟨win0_2.index t (0 : Fin 4), by omega⟩ : Fin 8) (0 : Fin 1) h w) := by
    intro k h w
    show V m c main_arg1 (((cfg0.win 1).blk t).view.emb (ix5 k (0 : Fin 1) (0 : Fin 1) h w)) = _
    rw [V_main_arg1]
    refine congrArg (m ((c : Thread nD τ).loc main_arg1)) (funext fun a => Fin.ext ?_)
    match a with
    | ⟨0, _⟩ => show win0_1.index t (0 : Fin 5) * 25 + 1 * k.val = k.val; omega
    | ⟨1, _⟩ => show win0_1.index t (1 : Fin 5) * 1 + 1 * 0 = win0_2.index t (0 : Fin 4); omega
    | ⟨2, _⟩ => show win0_1.index t (2 : Fin 5) * 1 + 1 * 0 = 0; omega
    | ⟨3, _⟩ => show win0_1.index t (3 : Fin 5) * 256 + 1 * h.val = h.val; omega
    | ⟨4, _⟩ => show win0_1.index t (4 : Fin 5) * 256 + 1 * w.val = w.val; omega
  have hr : ((cfg0.win 2).blk t).view.emb y
      = ix4 (⟨win0_2.index t (0 : Fin 4), by omega⟩ : Fin 8) (⟨win0_2.index t (1 : Fin 4) * 16 + (y 1).val, by omega⟩ : Fin 64)
          (⟨(y 2).val, h2⟩ : Fin 256) (⟨(y 3).val, h3⟩ : Fin 256) := by
    funext a
    apply Fin.ext
    match a with
    | ⟨0, _⟩ => show win0_2.index t (0 : Fin 4) * 1 + 1 * (y 0).val = win0_2.index t (0 : Fin 4); omega
    | ⟨1, _⟩ => show win0_2.index t (1 : Fin 4) * 16 + 1 * (y 1).val = win0_2.index t (1 : Fin 4) * 16 + (y 1).val; omega
    | ⟨2, _⟩ => show win0_2.index t (2 : Fin 4) * 256 + 1 * (y 2).val = (y 2).val; omega
    | ⟨3, _⟩ => show win0_2.index t (3 : Fin 4) * 256 + 1 * (y 3).val = (y 3).val; omega
  rw [hr, conv_apply]
  refine (congrArg (Blk.acc24 (iblk m c 0 t) (iblk m c 1 t)) hy).trans ?_
  refine (Blk.acc24_eq (iblk m c 0 t) (iblk m c 1 t) (⟨(y 1).val, h1⟩ : Fin 16) (⟨(y 2).val, h2⟩ : Fin 256)
    (⟨(y 3).val, h3⟩ : Fin 256)).trans ?_
  exact point_eq (iblk m c 0 t) (iblk m c 1 t) (xpad m c) (m ((c : Thread nD τ).loc main_arg1))
    (⟨win0_2.index t (0 : Fin 4), by omega⟩ : Fin 8)
    (fun p => (⟨win0_2.index t (1 : Fin 4) * 16 + p.val, by omega⟩ : Fin 64)) hx hw
    (⟨(y 1).val, h1⟩ : Fin 16) (⟨(y 2).val, h2⟩ : Fin 256) (⟨(y 3).val, h3⟩ : Fin 256)

/-- An index of the result is in point t's block iff each coordinate is in the block's range on its axis. -/
theorem mem_blk (t : Fin cfg0.N) (i : S8x64x256x256.Idx) :
    i ∈ ((cfg0.win 2).blk t).view.set ↔ ∀ a : Fin 4, win0_2.index t a * S1x16x256x256.size a ≤ (i a).val
      ∧ (i a).val < win0_2.index t a * S1x16x256x256.size a + S1x16x256x256.size a := by
  show i ∈ ((View.whole main_v1).slice (win0_2.rect t)).set ↔ _
  rw [View.set_slice_whole, Rect.mem_set_unit]
  exact Iff.rfl

/-- The 32 blocks cover the result: entry (b, ch, h, w) is in the block of point (b, ch / 16). -/
theorem cover (i : S8x64x256x256.Idx) : ∃ t : Fin cfg0.N, (cfg0.win 2).flush t = true ∧ i ∈ ((cfg0.win 2).blk t).view.set := by
  have hi0 : (i 0).val < 8 := (i 0).isLt
  have hi1 : (i 1).val < 64 := (i 1).isLt
  have hi2 : (i 2).val < 256 := (i 2).isLt
  have hi3 : (i 3).val < 256 := (i 3).isLt
  obtain ⟨t, ht⟩ := idx_onto ⟨(i 0).val, hi0⟩ ⟨(i 1).val / 16, by omega⟩
  have q0 : win0_2.index t (0 : Fin 4) = (i 0).val := congrFun ht 0
  have q1 : win0_2.index t (1 : Fin 4) = (i 1).val / 16 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 16 ≤ (i 1).val ∧ (i 1).val < win0_2.index t (1 : Fin 4) * 16 + 16; omega
  | ⟨2, _⟩ => show win0_2.index t (2 : Fin 4) * 256 ≤ (i 2).val ∧ (i 2).val < win0_2.index t (2 : Fin 4) * 256 + 256; omega
  | ⟨3, _⟩ => show win0_2.index t (3 : Fin 4) * 256 ≤ (i 3).val ∧ (i 3).val < win0_2.index t (3 : Fin 4) * 256 + 256; omega

/-- So the result array ends holding the convolution. -/
theorem final (c : Dev nD) : (dats m 0 c).arrAt 2 cfg0.N = result m c :=
  (dats m 0 c).arrAt_eq_of_cover 2 (result m c) (fun t _ => flushed_eq m c t) cover

/-- The kernel's run, read: the result array at the convolution, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Conv

end
-- ==== Proof.HostTap.lean ====
/-
  The reference's spelling of one tap, and of its starting value, read at an entry over the extended reals.

  The reference takes the [8, 64, 256, 256] slice of the padded image that starts at row dh, column dw, and the
  slice [k : k + 1] of the weights' first axis, viewed as [8, 1, 256, 256] and repeated along the 64 channels, and
  multiplies them entry by entry: at (b, c, h, w) that is xp (b, c, h + dh, w + dw) · wt (k, b, 0, h, w), the tap of
  the specification when k = 5·dh + dw. Its running sum starts from an array of zeros.
-/
import proofs.«117650_j18502719111479_2_alg».proof.Proof.Spec
import Idealize.ShloMosaic.Lib.Pipeline.Value
import Idealize.ShloMosaic.PureOps.Ideal.Laws

noncomputable section

open Idealize.ShloMosaic Idealize.ShloMosaic.ValueIdx

namespace Cert.Conv5x5

/-- One plane of the weights as sliced, -/
abbrev S1 : Shape := ⟨5, ![1, 8, 1, 256, 256]⟩
/-- and without its leading unit axis. -/
abbrev S2 : Shape := ⟨4, ![8, 1, 256, 256]⟩

/-- The reference's product for tap (dh, dw), k = 5·dh + dw, at (b, c, h, w). -/
theorem host_tap (xp : Pad.Idx → EReal) (wt : Wts.Idx → EReal) (dh dw k : Nat) (hdh : dh ≤ 4) (hdw : dw ≤ 4)
    (hk : k = 5 * dh + dw) (hs : Pad.Slices ![0, 0, dh, dw] Img) (hs' : Wts.Slices ![k, 0, 0, 0, 0] S1)
    (hc : S1.ShapeCasts S2) (dims : Fin S2.rank → Fin Img.rank) (hd : dims = ![0, 1, 2, 3])
    (hb : S2.BroadcastsInDim Img dims) (b : Fin 8) (c : Fin 64) (h w : Fin 256) :
    mulf (F := Ideal) (φ := .f32) (extractStridedSlice Img ![0, 0, dh, dw] xp hs)
        (broadcastInDim Img dims hb (shapeCast S2 (extractStridedSlice S1 ![k, 0, 0, 0, 0] wt hs') hc)) (ix4 b c h w)
      = tap xp wt b c h w dh dw hdh hdw := by
  subst hk hd
  rw [mulf_apply]
  unfold tap
  congr 1
  · exact extractStridedSlice_apply _ xp hs (ix4 b c h w)
      (ix4 b c (⟨h.val + dh, by omega⟩ : Fin 260) (⟨w.val + dw, by omega⟩ : Fin 260)) (fun a => match a with
        | ⟨0, _⟩ => by show b.val = 0 + b.val; omega
        | ⟨1, _⟩ => by show c.val = 0 + c.val; omega
        | ⟨2, _⟩ => by show h.val + dh = dh + h.val; omega
        | ⟨3, _⟩ => by show w.val + dw = dw + w.val; omega)
  · refine (broadcastInDim_apply _ hb _ (ix4 b c h w) (ix4 b (0 : Fin 1) h w) (fun a => match a with
        | ⟨0, _⟩ => by show b.val = if (8 : Nat) = 1 then 0 else b.val; rw [if_neg (by decide)]
        | ⟨1, _⟩ => by show 0 = if (1 : Nat) = 1 then 0 else c.val; rw [if_pos rfl]
        | ⟨2, _⟩ => by show h.val = if (256 : Nat) = 1 then 0 else h.val; rw [if_neg (by decide)]
        | ⟨3, _⟩ => by show w.val = if (256 : Nat) = 1 then 0 else w.val; rw [if_neg (by decide)])).trans ?_
    refine (shapeCast_apply _ hc (ix4 b (0 : Fin 1) h w) (ix5 (0 : Fin 1) b (0 : Fin 1) h w) ?_).trans ?_
    · rw [Shape.rowMajor_val_five, Shape.rowMajor_val_four]
      show (((0 * 8 + b.val) * 1 + 0) * 256 + h.val) * 256 + w.val = ((b.val * 1 + 0) * 256 + h.val) * 256 + w.val
      omega
    exact extractStridedSlice_apply _ wt hs' (ix5 (0 : Fin 1) b (0 : Fin 1) h w)
      (ix5 (⟨5 * dh + dw, by omega⟩ : Fin 25) b (0 : Fin 1) h w) (fun a => match a with
        | ⟨0, _⟩ => by show 5 * dh + dw = 5 * dh + dw + 0; omega
        | ⟨1, _⟩ => by show b.val = 0 + b.val; omega
        | ⟨2, _⟩ => by show 0 = 0 + 0; rfl
        | ⟨3, _⟩ => by show h.val = 0 + h.val; omega
        | ⟨4, _⟩ => by show w.val = 0 + w.val; omega)

/-- The array of zeros the reference's sum starts from reads 0. -/
theorem host_zeros (dims : Fin (⟨0, ![]⟩ : Shape).rank → Fin Img.rank) (hb : (⟨0, ![]⟩ : Shape).BroadcastsInDim Img dims)
    (i : Img.Idx) :
    broadcastInDim Img dims hb (constant (F := Ideal) (⟨0, ![]⟩ : Shape) .f32 0x00000000#32) i = (0 : EReal) := by
  unfold broadcastInDim
  rw [constant_apply]
  exact Ideal.ofBits_zero_f32

end Cert.Conv5x5

end
-- ==== Proof.HostSum.lean ====
/-
  The reference's 25 products and their running sums as whole arrays, over the extended reals.

  Tap j = 5·dh + dw of the reference multiplies the slice of the padded image that starts at row dh, column dw by
  plane j of the weights repeated along the channels (`prod j`), and adds the product to the running sum, which
  starts from an array of zeros (`hsum j`). Read at an entry, `hsum j` is `hsum (j-1)` plus tap j of the
  specification, and the last one is 0 + the specification's 25-term sum: the convolution, since 0 + a = a on
  the extended reals (no finiteness is needed: +∞ and −∞ are left alone by adding 0).
-/
import proofs.«117650_j18502719111479_2_alg».proof.Proof.Gen.ReferenceIdeal
import proofs.«117650_j18502719111479_2_alg».proof.Proof.Spec
import proofs.«117650_j18502719111479_2_alg».proof.Proof.HostTap
import Idealize.ShloMosaic.Lib.ValueIdx

noncomputable section

open Idealize.ShloMosaic Idealize.ShloMosaic.ValueIdx

namespace Cert.ReferenceIdeal.Sum

open Cert.ReferenceIdeal Cert.ReferenceIdeal.Gen Cert.Conv5x5

/-- The array of zeros the sum starts from. -/
def zeros : FVec Ideal S8x64x256x256 .f32 :=
  broadcastInDim S8x64x256x256 ![] bcast_S_S8x64x256x256 (constant (F := Ideal) S_ .f32 0x00000000#32)

theorem zeros_apply (i : S8x64x256x256.Idx) : zeros i = (0 : EReal) :=
  host_zeros _ bcast_S_S8x64x256x256 i

/-- The padded image as the reference computes it. -/
abbrev xpad (x0 : FVec Ideal S8x64x256x256 .f32) : FVec Ideal S8x64x260x260 .f32 :=
  padded x0 pads_S8x64x256x256_S8x64x260x260_000_000_220_220 h_S_

section
variable (xp : FVec Ideal S8x64x260x260 .f32) (wt : FVec Ideal S25x8x1x256x256 .f32)

/-- The product of tap 0: rows from 0, columns from 0, plane 0. -/
def prod0 : FVec Ideal S8x64x256x256 .f32 :=
  mulf (extractStridedSlice S8x64x256x256 ![0, 0, 0, 0] xp slices_S8x64x260x260_S8x64x256x256_0_0_0_0)
    (broadcastInDim S8x64x256x256 ![0, 1, 2, 3] bcast_S8x1x256x256_S8x64x256x256_0_1_2_3
      (shapeCast _ (extractStridedSlice S1x8x1x256x256 ![0, 0, 0, 0, 0] wt slices_S25x8x1x256x256_S1x8x1x256x256_0_0_0_0_0)
        shapeCasts_S1x8x1x256x256_S8x1x256x256))

/-- The product of tap 1: rows from 0, columns from 1, plane 1. -/
def prod1 : FVec Ideal S8x64x256x256 .f32 :=
  mulf (extractStridedSlice S8x64x256x256 ![0, 0, 0, 1] xp slices_S8x64x260x260_S8x64x256x256_0_0_0_1)
    (broadcastInDim S8x64x256x256 ![0, 1, 2, 3] bcast_S8x1x256x256_S8x64x256x256_0_1_2_3
      (shapeCast _ (extractStridedSlice S1x8x1x256x256 ![1, 0, 0, 0, 0] wt slices_S25x8x1x256x256_S1x8x1x256x256_1_0_0_0_0)
        shapeCasts_S1x8x1x256x256_S8x1x256x256))

/-- The product of tap 2: rows from 0, columns from 2, plane 2. -/
def prod2 : FVec Ideal S8x64x256x256 .f32 :=
  mulf (extractStridedSlice S8x64x256x256 ![0, 0, 0, 2] xp slices_S8x64x260x260_S8x64x256x256_0_0_0_2)
    (broadcastInDim S8x64x256x256 ![0, 1, 2, 3] bcast_S8x1x256x256_S8x64x256x256_0_1_2_3
      (shapeCast _ (extractStridedSlice S1x8x1x256x256 ![2, 0, 0, 0, 0] wt slices_S25x8x1x256x256_S1x8x1x256x256_2_0_0_0_0)
        shapeCasts_S1x8x1x256x256_S8x1x256x256))

/-- The product of tap 3: rows from 0, columns from 3, plane 3. -/
def prod3 : FVec Ideal S8x64x256x256 .f32 :=
  mulf (extractStridedSlice S8x64x256x256 ![0, 0, 0, 3] xp slices_S8x64x260x260_S8x64x256x256_0_0_0_3)
    (broadcastInDim S8x64x256x256 ![0, 1, 2, 3] bcast_S8x1x256x256_S8x64x256x256_0_1_2_3
      (shapeCast _ (extractStridedSlice S1x8x1x256x256 ![3, 0, 0, 0, 0] wt slices_S25x8x1x256x256_S1x8x1x256x256_3_0_0_0_0)
        shapeCasts_S1x8x1x256x256_S8x1x256x256))

/-- The product of tap 4: rows from 0, columns from 4, plane 4. -/
def prod4 : FVec Ideal S8x64x256x256 .f32 :=
  mulf (extractStridedSlice S8x64x256x256 ![0, 0, 0, 4] xp slices_S8x64x260x260_S8x64x256x256_0_0_0_4)
    (broadcastInDim S8x64x256x256 ![0, 1, 2, 3] bcast_S8x1x256x256_S8x64x256x256_0_1_2_3
      (shapeCast _ (extractStridedSlice S1x8x1x256x256 ![4, 0, 0, 0, 0] wt slices_S25x8x1x256x256_S1x8x1x256x256_4_0_0_0_0)
        shapeCasts_S1x8x1x256x256_S8x1x256x256))

/-- The product of tap 5: rows from 1, columns from 0, plane 5. -/
def prod5 : FVec Ideal S8x64x256x256 .f32 :=
  mulf (extractStridedSlice S8x64x256x256 ![0, 0, 1, 0] xp slices_S8x64x260x260_S8x64x256x256_0_0_1_0)
    (broadcastInDim S8x64x256x256 ![0, 1, 2, 3] bcast_S8x1x256x256_S8x64x256x256_0_1_2_3
      (shapeCast _ (extractStridedSlice S1x8x1x256x256 ![5, 0, 0, 0, 0] wt slices_S25x8x1x256x256_S1x8x1x256x256_5_0_0_0_0)
        shapeCasts_S1x8x1x256x256_S8x1x256x256))

/-- The product of tap 6: rows from 1, columns from 1, plane 6. -/
def prod6 : FVec Ideal S8x64x256x256 .f32 :=
  mulf (extractStridedSlice S8x64x256x256 ![0, 0, 1, 1] xp slices_S8x64x260x260_S8x64x256x256_0_0_1_1)
    (broadcastInDim S8x64x256x256 ![0, 1, 2, 3] bcast_S8x1x256x256_S8x64x256x256_0_1_2_3
      (shapeCast _ (extractStridedSlice S1x8x1x256x256 ![6, 0, 0, 0, 0] wt slices_S25x8x1x256x256_S1x8x1x256x256_6_0_0_0_0)
        shapeCasts_S1x8x1x256x256_S8x1x256x256))

/-- The product of tap 7: rows from 1, columns from 2, plane 7. -/
def prod7 : FVec Ideal S8x64x256x256 .f32 :=
  mulf (extractStridedSlice S8x64x256x256 ![0, 0, 1, 2] xp slices_S8x64x260x260_S8x64x256x256_0_0_1_2)
    (broadcastInDim S8x64x256x256 ![0, 1, 2, 3] bcast_S8x1x256x256_S8x64x256x256_0_1_2_3
      (shapeCast _ (extractStridedSlice S1x8x1x256x256 ![7, 0, 0, 0, 0] wt slices_S25x8x1x256x256_S1x8x1x256x256_7_0_0_0_0)
        shapeCasts_S1x8x1x256x256_S8x1x256x256))

/-- The product of tap 8: rows from 1, columns from 3, plane 8. -/
def prod8 : FVec Ideal S8x64x256x256 .f32 :=
  mulf (extractStridedSlice S8x64x256x256 ![0, 0, 1, 3] xp slices_S8x64x260x260_S8x64x256x256_0_0_1_3)
    (broadcastInDim S8x64x256x256 ![0, 1, 2, 3] bcast_S8x1x256x256_S8x64x256x256_0_1_2_3
      (shapeCast _ (extractStridedSlice S1x8x1x256x256 ![8, 0, 0, 0, 0] wt slices_S25x8x1x256x256_S1x8x1x256x256_8_0_0_0_0)
        shapeCasts_S1x8x1x256x256_S8x1x256x256))

/-- The product of tap 9: rows from 1, columns from 4, plane 9. -/
def prod9 : FVec Ideal S8x64x256x256 .f32 :=
  mulf (extractStridedSlice S8x64x256x256 ![0, 0, 1, 4] xp slices_S8x64x260x260_S8x64x256x256_0_0_1_4)
    (broadcastInDim S8x64x256x256 ![0, 1, 2, 3] bcast_S8x1x256x256_S8x64x256x256_0_1_2_3
      (shapeCast _ (extractStridedSlice S1x8x1x256x256 ![9, 0, 0, 0, 0] wt slices_S25x8x1x256x256_S1x8x1x256x256_9_0_0_0_0)
        shapeCasts_S1x8x1x256x256_S8x1x256x256))

/-- The product of tap 10: rows from 2, columns from 0, plane 10. -/
def prod10 : FVec Ideal S8x64x256x256 .f32 :=
  mulf (extractStridedSlice S8x64x256x256 ![0, 0, 2, 0] xp slices_S8x64x260x260_S8x64x256x256_0_0_2_0)
    (broadcastInDim S8x64x256x256 ![0, 1, 2, 3] bcast_S8x1x256x256_S8x64x256x256_0_1_2_3
      (shapeCast _ (extractStridedSlice S1x8x1x256x256 ![10, 0, 0, 0, 0] wt slices_S25x8x1x256x256_S1x8x1x256x256_10_0_0_0_0)
        shapeCasts_S1x8x1x256x256_S8x1x256x256))

/-- The product of tap 11: rows from 2, columns from 1, plane 11. -/
def prod11 : FVec Ideal S8x64x256x256 .f32 :=
  mulf (extractStridedSlice S8x64x256x256 ![0, 0, 2, 1] xp slices_S8x64x260x260_S8x64x256x256_0_0_2_1)
    (broadcastInDim S8x64x256x256 ![0, 1, 2, 3] bcast_S8x1x256x256_S8x64x256x256_0_1_2_3
      (shapeCast _ (extractStridedSlice S1x8x1x256x256 ![11, 0, 0, 0, 0] wt slices_S25x8x1x256x256_S1x8x1x256x256_11_0_0_0_0)
        shapeCasts_S1x8x1x256x256_S8x1x256x256))

/-- The product of tap 12: rows from 2, columns from 2, plane 12. -/
def prod12 : FVec Ideal S8x64x256x256 .f32 :=
  mulf (extractStridedSlice S8x64x256x256 ![0, 0, 2, 2] xp slices_S8x64x260x260_S8x64x256x256_0_0_2_2)
    (broadcastInDim S8x64x256x256 ![0, 1, 2, 3] bcast_S8x1x256x256_S8x64x256x256_0_1_2_3
      (shapeCast _ (extractStridedSlice S1x8x1x256x256 ![12, 0, 0, 0, 0] wt slices_S25x8x1x256x256_S1x8x1x256x256_12_0_0_0_0)
        shapeCasts_S1x8x1x256x256_S8x1x256x256))

/-- The product of tap 13: rows from 2, columns from 3, plane 13. -/
def prod13 : FVec Ideal S8x64x256x256 .f32 :=
  mulf (extractStridedSlice S8x64x256x256 ![0, 0, 2, 3] xp slices_S8x64x260x260_S8x64x256x256_0_0_2_3)
    (broadcastInDim S8x64x256x256 ![0, 1, 2, 3] bcast_S8x1x256x256_S8x64x256x256_0_1_2_3
      (shapeCast _ (extractStridedSlice S1x8x1x256x256 ![13, 0, 0, 0, 0] wt slices_S25x8x1x256x256_S1x8x1x256x256_13_0_0_0_0)
        shapeCasts_S1x8x1x256x256_S8x1x256x256))

/-- The product of tap 14: rows from 2, columns from 4, plane 14. -/
def prod14 : FVec Ideal S8x64x256x256 .f32 :=
  mulf (extractStridedSlice S8x64x256x256 ![0, 0, 2, 4] xp slices_S8x64x260x260_S8x64x256x256_0_0_2_4)
    (broadcastInDim S8x64x256x256 ![0, 1, 2, 3] bcast_S8x1x256x256_S8x64x256x256_0_1_2_3
      (shapeCast _ (extractStridedSlice S1x8x1x256x256 ![14, 0, 0, 0, 0] wt slices_S25x8x1x256x256_S1x8x1x256x256_14_0_0_0_0)
        shapeCasts_S1x8x1x256x256_S8x1x256x256))

/-- The product of tap 15: rows from 3, columns from 0, plane 15. -/
def prod15 : FVec Ideal S8x64x256x256 .f32 :=
  mulf (extractStridedSlice S8x64x256x256 ![0, 0, 3, 0] xp slices_S8x64x260x260_S8x64x256x256_0_0_3_0)
    (broadcastInDim S8x64x256x256 ![0, 1, 2, 3] bcast_S8x1x256x256_S8x64x256x256_0_1_2_3
      (shapeCast _ (extractStridedSlice S1x8x1x256x256 ![15, 0, 0, 0, 0] wt slices_S25x8x1x256x256_S1x8x1x256x256_15_0_0_0_0)
        shapeCasts_S1x8x1x256x256_S8x1x256x256))

/-- The product of tap 16: rows from 3, columns from 1, plane 16. -/
def prod16 : FVec Ideal S8x64x256x256 .f32 :=
  mulf (extractStridedSlice S8x64x256x256 ![0, 0, 3, 1] xp slices_S8x64x260x260_S8x64x256x256_0_0_3_1)
    (broadcastInDim S8x64x256x256 ![0, 1, 2, 3] bcast_S8x1x256x256_S8x64x256x256_0_1_2_3
      (shapeCast _ (extractStridedSlice S1x8x1x256x256 ![16, 0, 0, 0, 0] wt slices_S25x8x1x256x256_S1x8x1x256x256_16_0_0_0_0)
        shapeCasts_S1x8x1x256x256_S8x1x256x256))

/-- The product of tap 17: rows from 3, columns from 2, plane 17. -/
def prod17 : FVec Ideal S8x64x256x256 .f32 :=
  mulf (extractStridedSlice S8x64x256x256 ![0, 0, 3, 2] xp slices_S8x64x260x260_S8x64x256x256_0_0_3_2)
    (broadcastInDim S8x64x256x256 ![0, 1, 2, 3] bcast_S8x1x256x256_S8x64x256x256_0_1_2_3
      (shapeCast _ (extractStridedSlice S1x8x1x256x256 ![17, 0, 0, 0, 0] wt slices_S25x8x1x256x256_S1x8x1x256x256_17_0_0_0_0)
        shapeCasts_S1x8x1x256x256_S8x1x256x256))

/-- The product of tap 18: rows from 3, columns from 3, plane 18. -/
def prod18 : FVec Ideal S8x64x256x256 .f32 :=
  mulf (extractStridedSlice S8x64x256x256 ![0, 0, 3, 3] xp slices_S8x64x260x260_S8x64x256x256_0_0_3_3)
    (broadcastInDim S8x64x256x256 ![0, 1, 2, 3] bcast_S8x1x256x256_S8x64x256x256_0_1_2_3
      (shapeCast _ (extractStridedSlice S1x8x1x256x256 ![18, 0, 0, 0, 0] wt slices_S25x8x1x256x256_S1x8x1x256x256_18_0_0_0_0)
        shapeCasts_S1x8x1x256x256_S8x1x256x256))

/-- The product of tap 19: rows from 3, columns from 4, plane 19. -/
def prod19 : FVec Ideal S8x64x256x256 .f32 :=
  mulf (extractStridedSlice S8x64x256x256 ![0, 0, 3, 4] xp slices_S8x64x260x260_S8x64x256x256_0_0_3_4)
    (broadcastInDim S8x64x256x256 ![0, 1, 2, 3] bcast_S8x1x256x256_S8x64x256x256_0_1_2_3
      (shapeCast _ (extractStridedSlice S1x8x1x256x256 ![19, 0, 0, 0, 0] wt slices_S25x8x1x256x256_S1x8x1x256x256_19_0_0_0_0)
        shapeCasts_S1x8x1x256x256_S8x1x256x256))

/-- The product of tap 20: rows from 4, columns from 0, plane 20. -/
def prod20 : FVec Ideal S8x64x256x256 .f32 :=
  mulf (extractStridedSlice S8x64x256x256 ![0, 0, 4, 0] xp slices_S8x64x260x260_S8x64x256x256_0_0_4_0)
    (broadcastInDim S8x64x256x256 ![0, 1, 2, 3] bcast_S8x1x256x256_S8x64x256x256_0_1_2_3
      (shapeCast _ (extractStridedSlice S1x8x1x256x256 ![20, 0, 0, 0, 0] wt slices_S25x8x1x256x256_S1x8x1x256x256_20_0_0_0_0)
        shapeCasts_S1x8x1x256x256_S8x1x256x256))

/-- The product of tap 21: rows from 4, columns from 1, plane 21. -/
def prod21 : FVec Ideal S8x64x256x256 .f32 :=
  mulf (extractStridedSlice S8x64x256x256 ![0, 0, 4, 1] xp slices_S8x64x260x260_S8x64x256x256_0_0_4_1)
    (broadcastInDim S8x64x256x256 ![0, 1, 2, 3] bcast_S8x1x256x256_S8x64x256x256_0_1_2_3
      (shapeCast _ (extractStridedSlice S1x8x1x256x256 ![21, 0, 0, 0, 0] wt slices_S25x8x1x256x256_S1x8x1x256x256_21_0_0_0_0)
        shapeCasts_S1x8x1x256x256_S8x1x256x256))

/-- The product of tap 22: rows from 4, columns from 2, plane 22. -/
def prod22 : FVec Ideal S8x64x256x256 .f32 :=
  mulf (extractStridedSlice S8x64x256x256 ![0, 0, 4, 2] xp slices_S8x64x260x260_S8x64x256x256_0_0_4_2)
    (broadcastInDim S8x64x256x256 ![0, 1, 2, 3] bcast_S8x1x256x256_S8x64x256x256_0_1_2_3
      (shapeCast _ (extractStridedSlice S1x8x1x256x256 ![22, 0, 0, 0, 0] wt slices_S25x8x1x256x256_S1x8x1x256x256_22_0_0_0_0)
        shapeCasts_S1x8x1x256x256_S8x1x256x256))

/-- The product of tap 23: rows from 4, columns from 3, plane 23. -/
def prod23 : FVec Ideal S8x64x256x256 .f32 :=
  mulf (extractStridedSlice S8x64x256x256 ![0, 0, 4, 3] xp slices_S8x64x260x260_S8x64x256x256_0_0_4_3)
    (broadcastInDim S8x64x256x256 ![0, 1, 2, 3] bcast_S8x1x256x256_S8x64x256x256_0_1_2_3
      (shapeCast _ (extractStridedSlice S1x8x1x256x256 ![23, 0, 0, 0, 0] wt slices_S25x8x1x256x256_S1x8x1x256x256_23_0_0_0_0)
        shapeCasts_S1x8x1x256x256_S8x1x256x256))

/-- The product of tap 24: rows from 4, columns from 4, plane 24. -/
def prod24 : FVec Ideal S8x64x256x256 .f32 :=
  mulf (extractStridedSlice S8x64x256x256 ![0, 0, 4, 4] xp slices_S8x64x260x260_S8x64x256x256_0_0_4_4)
    (broadcastInDim S8x64x256x256 ![0, 1, 2, 3] bcast_S8x1x256x256_S8x64x256x256_0_1_2_3
      (shapeCast _ (extractStridedSlice S1x8x1x256x256 ![24, 0, 0, 0, 0] wt slices_S25x8x1x256x256_S1x8x1x256x256_24_0_0_0_0)
        shapeCasts_S1x8x1x256x256_S8x1x256x256))

/-- The running sum after tap 0. -/
def hsum0 : FVec Ideal S8x64x256x256 .f32 := addf zeros (prod0 xp wt)

/-- The running sum after tap 1. -/
def hsum1 : FVec Ideal S8x64x256x256 .f32 := addf (hsum0 xp wt) (prod1 xp wt)

/-- The running sum after tap 2. -/
def hsum2 : FVec Ideal S8x64x256x256 .f32 := addf (hsum1 xp wt) (prod2 xp wt)

/-- The running sum after tap 3. -/
def hsum3 : FVec Ideal S8x64x256x256 .f32 := addf (hsum2 xp wt) (prod3 xp wt)

/-- The running sum after tap 4. -/
def hsum4 : FVec Ideal S8x64x256x256 .f32 := addf (hsum3 xp wt) (prod4 xp wt)

/-- The running sum after tap 5. -/
def hsum5 : FVec Ideal S8x64x256x256 .f32 := addf (hsum4 xp wt) (prod5 xp wt)

/-- The running sum after tap 6. -/
def hsum6 : FVec Ideal S8x64x256x256 .f32 := addf (hsum5 xp wt) (prod6 xp wt)

/-- The running sum after tap 7. -/
def hsum7 : FVec Ideal S8x64x256x256 .f32 := addf (hsum6 xp wt) (prod7 xp wt)

/-- The running sum after tap 8. -/
def hsum8 : FVec Ideal S8x64x256x256 .f32 := addf (hsum7 xp wt) (prod8 xp wt)

/-- The running sum after tap 9. -/
def hsum9 : FVec Ideal S8x64x256x256 .f32 := addf (hsum8 xp wt) (prod9 xp wt)

/-- The running sum after tap 10. -/
def hsum10 : FVec Ideal S8x64x256x256 .f32 := addf (hsum9 xp wt) (prod10 xp wt)

/-- The running sum after tap 11. -/
def hsum11 : FVec Ideal S8x64x256x256 .f32 := addf (hsum10 xp wt) (prod11 xp wt)

/-- The running sum after tap 12. -/
def hsum12 : FVec Ideal S8x64x256x256 .f32 := addf (hsum11 xp wt) (prod12 xp wt)

/-- The running sum after tap 13. -/
def hsum13 : FVec Ideal S8x64x256x256 .f32 := addf (hsum12 xp wt) (prod13 xp wt)

/-- The running sum after tap 14. -/
def hsum14 : FVec Ideal S8x64x256x256 .f32 := addf (hsum13 xp wt) (prod14 xp wt)

/-- The running sum after tap 15. -/
def hsum15 : FVec Ideal S8x64x256x256 .f32 := addf (hsum14 xp wt) (prod15 xp wt)

/-- The running sum after tap 16. -/
def hsum16 : FVec Ideal S8x64x256x256 .f32 := addf (hsum15 xp wt) (prod16 xp wt)

/-- The running sum after tap 17. -/
def hsum17 : FVec Ideal S8x64x256x256 .f32 := addf (hsum16 xp wt) (prod17 xp wt)

/-- The running sum after tap 18. -/
def hsum18 : FVec Ideal S8x64x256x256 .f32 := addf (hsum17 xp wt) (prod18 xp wt)

/-- The running sum after tap 19. -/
def hsum19 : FVec Ideal S8x64x256x256 .f32 := addf (hsum18 xp wt) (prod19 xp wt)

/-- The running sum after tap 20. -/
def hsum20 : FVec Ideal S8x64x256x256 .f32 := addf (hsum19 xp wt) (prod20 xp wt)

/-- The running sum after tap 21. -/
def hsum21 : FVec Ideal S8x64x256x256 .f32 := addf (hsum20 xp wt) (prod21 xp wt)

/-- The running sum after tap 22. -/
def hsum22 : FVec Ideal S8x64x256x256 .f32 := addf (hsum21 xp wt) (prod22 xp wt)

/-- The running sum after tap 23. -/
def hsum23 : FVec Ideal S8x64x256x256 .f32 := addf (hsum22 xp wt) (prod23 xp wt)

/-- The running sum after tap 24. -/
def hsum24 : FVec Ideal S8x64x256x256 .f32 := addf (hsum23 xp wt) (prod24 xp wt)

variable (b : Fin 8) (c : Fin 64) (h w : Fin 256)

theorem prod0_apply : prod0 xp wt (ix4 b c h w) = tap xp wt b c h w 0 0 := by
  unfold prod0
  exact host_tap xp wt 0 0 0 (by decide) (by decide) rfl _ _ _ _ rfl _ b c h w

theorem prod1_apply : prod1 xp wt (ix4 b c h w) = tap xp wt b c h w 0 1 := by
  unfold prod1
  exact host_tap xp wt 0 1 1 (by decide) (by decide) rfl _ _ _ _ rfl _ b c h w

theorem prod2_apply : prod2 xp wt (ix4 b c h w) = tap xp wt b c h w 0 2 := by
  unfold prod2
  exact host_tap xp wt 0 2 2 (by decide) (by decide) rfl _ _ _ _ rfl _ b c h w

theorem prod3_apply : prod3 xp wt (ix4 b c h w) = tap xp wt b c h w 0 3 := by
  unfold prod3
  exact host_tap xp wt 0 3 3 (by decide) (by decide) rfl _ _ _ _ rfl _ b c h w

theorem prod4_apply : prod4 xp wt (ix4 b c h w) = tap xp wt b c h w 0 4 := by
  unfold prod4
  exact host_tap xp wt 0 4 4 (by decide) (by decide) rfl _ _ _ _ rfl _ b c h w

theorem prod5_apply : prod5 xp wt (ix4 b c h w) = tap xp wt b c h w 1 0 := by
  unfold prod5
  exact host_tap xp wt 1 0 5 (by decide) (by decide) rfl _ _ _ _ rfl _ b c h w

theorem prod6_apply : prod6 xp wt (ix4 b c h w) = tap xp wt b c h w 1 1 := by
  unfold prod6
  exact host_tap xp wt 1 1 6 (by decide) (by decide) rfl _ _ _ _ rfl _ b c h w

theorem prod7_apply : prod7 xp wt (ix4 b c h w) = tap xp wt b c h w 1 2 := by
  unfold prod7
  exact host_tap xp wt 1 2 7 (by decide) (by decide) rfl _ _ _ _ rfl _ b c h w

theorem prod8_apply : prod8 xp wt (ix4 b c h w) = tap xp wt b c h w 1 3 := by
  unfold prod8
  exact host_tap xp wt 1 3 8 (by decide) (by decide) rfl _ _ _ _ rfl _ b c h w

theorem prod9_apply : prod9 xp wt (ix4 b c h w) = tap xp wt b c h w 1 4 := by
  unfold prod9
  exact host_tap xp wt 1 4 9 (by decide) (by decide) rfl _ _ _ _ rfl _ b c h w

theorem prod10_apply : prod10 xp wt (ix4 b c h w) = tap xp wt b c h w 2 0 := by
  unfold prod10
  exact host_tap xp wt 2 0 10 (by decide) (by decide) rfl _ _ _ _ rfl _ b c h w

theorem prod11_apply : prod11 xp wt (ix4 b c h w) = tap xp wt b c h w 2 1 := by
  unfold prod11
  exact host_tap xp wt 2 1 11 (by decide) (by decide) rfl _ _ _ _ rfl _ b c h w

theorem prod12_apply : prod12 xp wt (ix4 b c h w) = tap xp wt b c h w 2 2 := by
  unfold prod12
  exact host_tap xp wt 2 2 12 (by decide) (by decide) rfl _ _ _ _ rfl _ b c h w

theorem prod13_apply : prod13 xp wt (ix4 b c h w) = tap xp wt b c h w 2 3 := by
  unfold prod13
  exact host_tap xp wt 2 3 13 (by decide) (by decide) rfl _ _ _ _ rfl _ b c h w

theorem prod14_apply : prod14 xp wt (ix4 b c h w) = tap xp wt b c h w 2 4 := by
  unfold prod14
  exact host_tap xp wt 2 4 14 (by decide) (by decide) rfl _ _ _ _ rfl _ b c h w

theorem prod15_apply : prod15 xp wt (ix4 b c h w) = tap xp wt b c h w 3 0 := by
  unfold prod15
  exact host_tap xp wt 3 0 15 (by decide) (by decide) rfl _ _ _ _ rfl _ b c h w

theorem prod16_apply : prod16 xp wt (ix4 b c h w) = tap xp wt b c h w 3 1 := by
  unfold prod16
  exact host_tap xp wt 3 1 16 (by decide) (by decide) rfl _ _ _ _ rfl _ b c h w

theorem prod17_apply : prod17 xp wt (ix4 b c h w) = tap xp wt b c h w 3 2 := by
  unfold prod17
  exact host_tap xp wt 3 2 17 (by decide) (by decide) rfl _ _ _ _ rfl _ b c h w

theorem prod18_apply : prod18 xp wt (ix4 b c h w) = tap xp wt b c h w 3 3 := by
  unfold prod18
  exact host_tap xp wt 3 3 18 (by decide) (by decide) rfl _ _ _ _ rfl _ b c h w

theorem prod19_apply : prod19 xp wt (ix4 b c h w) = tap xp wt b c h w 3 4 := by
  unfold prod19
  exact host_tap xp wt 3 4 19 (by decide) (by decide) rfl _ _ _ _ rfl _ b c h w

theorem prod20_apply : prod20 xp wt (ix4 b c h w) = tap xp wt b c h w 4 0 := by
  unfold prod20
  exact host_tap xp wt 4 0 20 (by decide) (by decide) rfl _ _ _ _ rfl _ b c h w

theorem prod21_apply : prod21 xp wt (ix4 b c h w) = tap xp wt b c h w 4 1 := by
  unfold prod21
  exact host_tap xp wt 4 1 21 (by decide) (by decide) rfl _ _ _ _ rfl _ b c h w

theorem prod22_apply : prod22 xp wt (ix4 b c h w) = tap xp wt b c h w 4 2 := by
  unfold prod22
  exact host_tap xp wt 4 2 22 (by decide) (by decide) rfl _ _ _ _ rfl _ b c h w

theorem prod23_apply : prod23 xp wt (ix4 b c h w) = tap xp wt b c h w 4 3 := by
  unfold prod23
  exact host_tap xp wt 4 3 23 (by decide) (by decide) rfl _ _ _ _ rfl _ b c h w

theorem prod24_apply : prod24 xp wt (ix4 b c h w) = tap xp wt b c h w 4 4 := by
  unfold prod24
  exact host_tap xp wt 4 4 24 (by decide) (by decide) rfl _ _ _ _ rfl _ b c h w

theorem hsum0_apply : hsum0 xp wt (ix4 b c h w) = 0 + tap xp wt b c h w 0 0 := by
  unfold hsum0
  rw [addf_apply, prod0_apply, zeros_apply]

theorem hsum1_apply : hsum1 xp wt (ix4 b c h w) = hsum0 xp wt (ix4 b c h w) + tap xp wt b c h w 0 1 := by
  unfold hsum1
  rw [addf_apply, prod1_apply]

theorem hsum2_apply : hsum2 xp wt (ix4 b c h w) = hsum1 xp wt (ix4 b c h w) + tap xp wt b c h w 0 2 := by
  unfold hsum2
  rw [addf_apply, prod2_apply]

theorem hsum3_apply : hsum3 xp wt (ix4 b c h w) = hsum2 xp wt (ix4 b c h w) + tap xp wt b c h w 0 3 := by
  unfold hsum3
  rw [addf_apply, prod3_apply]

theorem hsum4_apply : hsum4 xp wt (ix4 b c h w) = hsum3 xp wt (ix4 b c h w) + tap xp wt b c h w 0 4 := by
  unfold hsum4
  rw [addf_apply, prod4_apply]

theorem hsum5_apply : hsum5 xp wt (ix4 b c h w) = hsum4 xp wt (ix4 b c h w) + tap xp wt b c h w 1 0 := by
  unfold hsum5
  rw [addf_apply, prod5_apply]

theorem hsum6_apply : hsum6 xp wt (ix4 b c h w) = hsum5 xp wt (ix4 b c h w) + tap xp wt b c h w 1 1 := by
  unfold hsum6
  rw [addf_apply, prod6_apply]

theorem hsum7_apply : hsum7 xp wt (ix4 b c h w) = hsum6 xp wt (ix4 b c h w) + tap xp wt b c h w 1 2 := by
  unfold hsum7
  rw [addf_apply, prod7_apply]

theorem hsum8_apply : hsum8 xp wt (ix4 b c h w) = hsum7 xp wt (ix4 b c h w) + tap xp wt b c h w 1 3 := by
  unfold hsum8
  rw [addf_apply, prod8_apply]

theorem hsum9_apply : hsum9 xp wt (ix4 b c h w) = hsum8 xp wt (ix4 b c h w) + tap xp wt b c h w 1 4 := by
  unfold hsum9
  rw [addf_apply, prod9_apply]

theorem hsum10_apply : hsum10 xp wt (ix4 b c h w) = hsum9 xp wt (ix4 b c h w) + tap xp wt b c h w 2 0 := by
  unfold hsum10
  rw [addf_apply, prod10_apply]

theorem hsum11_apply : hsum11 xp wt (ix4 b c h w) = hsum10 xp wt (ix4 b c h w) + tap xp wt b c h w 2 1 := by
  unfold hsum11
  rw [addf_apply, prod11_apply]

theorem hsum12_apply : hsum12 xp wt (ix4 b c h w) = hsum11 xp wt (ix4 b c h w) + tap xp wt b c h w 2 2 := by
  unfold hsum12
  rw [addf_apply, prod12_apply]

theorem hsum13_apply : hsum13 xp wt (ix4 b c h w) = hsum12 xp wt (ix4 b c h w) + tap xp wt b c h w 2 3 := by
  unfold hsum13
  rw [addf_apply, prod13_apply]

theorem hsum14_apply : hsum14 xp wt (ix4 b c h w) = hsum13 xp wt (ix4 b c h w) + tap xp wt b c h w 2 4 := by
  unfold hsum14
  rw [addf_apply, prod14_apply]

theorem hsum15_apply : hsum15 xp wt (ix4 b c h w) = hsum14 xp wt (ix4 b c h w) + tap xp wt b c h w 3 0 := by
  unfold hsum15
  rw [addf_apply, prod15_apply]

theorem hsum16_apply : hsum16 xp wt (ix4 b c h w) = hsum15 xp wt (ix4 b c h w) + tap xp wt b c h w 3 1 := by
  unfold hsum16
  rw [addf_apply, prod16_apply]

theorem hsum17_apply : hsum17 xp wt (ix4 b c h w) = hsum16 xp wt (ix4 b c h w) + tap xp wt b c h w 3 2 := by
  unfold hsum17
  rw [addf_apply, prod17_apply]

theorem hsum18_apply : hsum18 xp wt (ix4 b c h w) = hsum17 xp wt (ix4 b c h w) + tap xp wt b c h w 3 3 := by
  unfold hsum18
  rw [addf_apply, prod18_apply]

theorem hsum19_apply : hsum19 xp wt (ix4 b c h w) = hsum18 xp wt (ix4 b c h w) + tap xp wt b c h w 3 4 := by
  unfold hsum19
  rw [addf_apply, prod19_apply]

theorem hsum20_apply : hsum20 xp wt (ix4 b c h w) = hsum19 xp wt (ix4 b c h w) + tap xp wt b c h w 4 0 := by
  unfold hsum20
  rw [addf_apply, prod20_apply]

theorem hsum21_apply : hsum21 xp wt (ix4 b c h w) = hsum20 xp wt (ix4 b c h w) + tap xp wt b c h w 4 1 := by
  unfold hsum21
  rw [addf_apply, prod21_apply]

theorem hsum22_apply : hsum22 xp wt (ix4 b c h w) = hsum21 xp wt (ix4 b c h w) + tap xp wt b c h w 4 2 := by
  unfold hsum22
  rw [addf_apply, prod22_apply]

theorem hsum23_apply : hsum23 xp wt (ix4 b c h w) = hsum22 xp wt (ix4 b c h w) + tap xp wt b c h w 4 3 := by
  unfold hsum23
  rw [addf_apply, prod23_apply]

theorem hsum24_apply : hsum24 xp wt (ix4 b c h w) = hsum23 xp wt (ix4 b c h w) + tap xp wt b c h w 4 4 := by
  unfold hsum24
  rw [addf_apply, prod24_apply]

end

/-- The last running sum is the convolution. -/
theorem hsum24_eq (xp : FVec Ideal S8x64x260x260 .f32) (wt : FVec Ideal S25x8x1x256x256 .f32) :
    hsum24 xp wt = conv xp wt := by
  funext i
  obtain ⟨b, c, h, w, rfl⟩ : ∃ (b : Fin 8) (c : Fin 64) (h w : Fin 256), i = ix4 b c h w :=
    ⟨i 0, i 1, i 2, i 3, eq_ix4 i⟩
  rw [hsum24_apply, hsum23_apply, hsum22_apply, hsum21_apply, hsum20_apply, hsum19_apply, hsum18_apply, hsum17_apply, hsum16_apply, hsum15_apply, hsum14_apply, hsum13_apply, hsum12_apply, hsum11_apply, hsum10_apply, hsum9_apply, hsum8_apply, hsum7_apply, hsum6_apply, hsum5_apply, hsum4_apply, hsum3_apply, hsum2_apply, hsum1_apply, hsum0_apply, zero_add, conv_apply]
  rfl

end Cert.ReferenceIdeal.Sum

end
-- ==== Proof.RefOps.lean ====
/-
  The reference's @main as a line of host operations, cut into short stretches.

  @main is 155 operations in a row: the padding of the image (an integer zero, its conversion to a float, the pad),
  an array of zeros, and then 25 times the same six — a slice of the padded image, a slice of the weights, its
  reshape, its broadcast along the channels, the product, the sum with what was accumulated. The stretches below
  are those pieces in order; `ops` is their concatenation, and @main is the operations of `ops` run one after
  the other (`main_eq`): @main is the chain of the stretches by unfolding, and a chain of stretches is the one
  line of their concatenation.
-/
import proofs.«117650_j18502719111479_2_alg».proof.Proof.Gen.ReferenceIdeal
import Idealize.ShloMosaic.Lib.StableHlo.Run
import Idealize.ShloMosaic.Lib.Pipeline.Regions
import proofs.«117650_j18502719111479_2_alg».proof.Proof.LibStretches

noncomputable section

namespace Cert.ReferenceIdeal.Hand

open Cert.ReferenceIdeal Cert.ReferenceIdeal.Gen Cert.StretchLib Idealize.ShloMosaic Idealize.ShloMosaic.TcCoe Idealize.SL.Sem Idealize.ShloMosaic.StableHlo

variable {F : FTy → Type} [FloatOps F]

/-! ## The stretches -/

/-- The integer zero the padding value is converted from. -/
def opsA : List (HloOp τ sig (Elt F)) :=
  [ nullary main_c (constantI S_ 32 0#32) ]

/-- The two operations of the outlined padding function: the padding value, then the pad. -/
def opsPad : List (HloOp τ sig (Elt F)) :=
  [ TRef.unary (TRef.of (T := ⟨S_, .i32⟩) main_c) (TRef.of (T := ⟨S_, .f32⟩) main_call0_v0) (sitofp .f32),
    TRef.binary (TRef.of (T := ⟨S8x64x256x256, .f32⟩) main_arg0) (TRef.of (T := ⟨S_, .f32⟩) main_call0_v0) (TRef.of (T := ⟨S8x64x260x260, .f32⟩) main_v0) (fun x v => pad S8x64x260x260 ![0, 0, 2, 2] ![0, 0, 2, 2] ![0, 0, 0, 0] x v pads_S8x64x256x256_S8x64x260x260_000_000_220_220 h_S_) ]

/-- The array of zeros the sum starts from. -/
def opsB : List (HloOp τ sig (Elt F)) :=
  [ nullary main_cst (constant S_ .f32 0x00000000#32),
    unary main_cst main_v1 (broadcastInDim S8x64x256x256 ![] bcast_S_S8x64x256x256 : (⟨S_, .f32⟩ : BufTy).Contents (Elt F) → (⟨S8x64x256x256, .f32⟩ : BufTy).Contents (Elt F)) ]

/-- Tap 0: two slices, the plane's reshape and broadcast, the product, the sum. -/
def opsT0 : List (HloOp τ sig (Elt F)) :=
  [ unary main_v0 main_v2 ((extractStridedSlice S8x64x256x256 ![0, 0, 0, 0] · slices_S8x64x260x260_S8x64x256x256_0_0_0_0) : (⟨S8x64x260x260, .f32⟩ : BufTy).Contents (Elt F) → (⟨S8x64x256x256, .f32⟩ : BufTy).Contents (Elt F)),
    unary main_arg1 main_v3 ((extractStridedSlice S1x8x1x256x256 ![0, 0, 0, 0, 0] · slices_S25x8x1x256x256_S1x8x1x256x256_0_0_0_0_0) : (⟨S25x8x1x256x256, .f32⟩ : BufTy).Contents (Elt F) → (⟨S1x8x1x256x256, .f32⟩ : BufTy).Contents (Elt F)),
    reshape main_v3 main_v4 rfl shapeCasts_S1x8x1x256x256_S8x1x256x256,
    unary main_v4 main_v5 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v2 main_v5 main_v6 (mulf : (⟨S8x64x256x256, .f32⟩ : BufTy).Contents (Elt F) → (⟨S8x64x256x256, .f32⟩ : BufTy).Contents (Elt F) → (⟨S8x64x256x256, .f32⟩ : BufTy).Contents (Elt F)),
    binary main_v1 main_v6 main_v7 (addf : (⟨S8x64x256x256, .f32⟩ : BufTy).Contents (Elt F) → (⟨S8x64x256x256, .f32⟩ : BufTy).Contents (Elt F) → (⟨S8x64x256x256, .f32⟩ : BufTy).Contents (Elt F)) ]

/-- Tap 1: two slices, the plane's reshape and broadcast, the product, the sum. -/
def opsT1 : List (HloOp τ sig (Elt F)) :=
  [ unary main_v0 main_v8 ((extractStridedSlice S8x64x256x256 ![0, 0, 0, 1] · slices_S8x64x260x260_S8x64x256x256_0_0_0_1) : (⟨S8x64x260x260, .f32⟩ : BufTy).Contents (Elt F) → (⟨S8x64x256x256, .f32⟩ : BufTy).Contents (Elt F)),
    unary main_arg1 main_v9 ((extractStridedSlice S1x8x1x256x256 ![1, 0, 0, 0, 0] · slices_S25x8x1x256x256_S1x8x1x256x256_1_0_0_0_0) : (⟨S25x8x1x256x256, .f32⟩ : BufTy).Contents (Elt F) → (⟨S1x8x1x256x256, .f32⟩ : BufTy).Contents (Elt F)),
    reshape main_v9 main_v10 rfl shapeCasts_S1x8x1x256x256_S8x1x256x256,
    unary main_v10 main_v11 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v8 main_v11 main_v12 (mulf : (⟨S8x64x256x256, .f32⟩ : BufTy).Contents (Elt F) → (⟨S8x64x256x256, .f32⟩ : BufTy).Contents (Elt F) → (⟨S8x64x256x256, .f32⟩ : BufTy).Contents (Elt F)),
    binary main_v7 main_v12 main_v13 (addf : (⟨S8x64x256x256, .f32⟩ : BufTy).Contents (Elt F) → (⟨S8x64x256x256, .f32⟩ : BufTy).Contents (Elt F) → (⟨S8x64x256x256, .f32⟩ : BufTy).Contents (Elt F)) ]

/-- Tap 2: two slices, the plane's reshape and broadcast, the product, the sum. -/
def opsT2 : List (HloOp τ sig (Elt F)) :=
  [ unary main_v0 main_v14 ((extractStridedSlice S8x64x256x256 ![0, 0, 0, 2] · slices_S8x64x260x260_S8x64x256x256_0_0_0_2) : (⟨S8x64x260x260, .f32⟩ : BufTy).Contents (Elt F) → (⟨S8x64x256x256, .f32⟩ : BufTy).Contents (Elt F)),
    unary main_arg1 main_v15 ((extractStridedSlice S1x8x1x256x256 ![2, 0, 0, 0, 0] · slices_S25x8x1x256x256_S1x8x1x256x256_2_0_0_0_0) : (⟨S25x8x1x256x256, .f32⟩ : BufTy).Contents (Elt F) → (⟨S1x8x1x256x256, .f32⟩ : BufTy).Contents (Elt F)),
    reshape main_v15 main_v16 rfl shapeCasts_S1x8x1x256x256_S8x1x256x256,
    unary main_v16 main_v17 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v14 main_v17 main_v18 (mulf : (⟨S8x64x256x256, .f32⟩ : BufTy).Contents (Elt F) → (⟨S8x64x256x256, .f32⟩ : BufTy).Contents (Elt F) → (⟨S8x64x256x256, .f32⟩ : BufTy).Contents (Elt F)),
    binary main_v13 main_v18 main_v19 (addf : (⟨S8x64x256x256, .f32⟩ : BufTy).Contents (Elt F) → (⟨S8x64x256x256, .f32⟩ : BufTy).Contents (Elt F) → (⟨S8x64x256x256, .f32⟩ : BufTy).Contents (Elt F)) ]

/-- Tap 3: two slices, the plane's reshape and broadcast, the product, the sum. -/
def opsT3 : List (HloOp τ sig (Elt F)) :=
  [ unary main_v0 main_v20 ((extractStridedSlice S8x64x256x256 ![0, 0, 0, 3] · slices_S8x64x260x260_S8x64x256x256_0_0_0_3) : (⟨S8x64x260x260, .f32⟩ : BufTy).Contents (Elt F) → (⟨S8x64x256x256, .f32⟩ : BufTy).Contents (Elt F)),
    unary main_arg1 main_v21 ((extractStridedSlice S1x8x1x256x256 ![3, 0, 0, 0, 0] · slices_S25x8x1x256x256_S1x8x1x256x256_3_0_0_0_0) : (⟨S25x8x1x256x256, .f32⟩ : BufTy).Contents (Elt F) → (⟨S1x8x1x256x256, .f32⟩ : BufTy).Contents (Elt F)),
    reshape main_v21 main_v22 rfl shapeCasts_S1x8x1x256x256_S8x1x256x256,
    unary main_v22 main_v23 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v20 main_v23 main_v24 (mulf : (⟨S8x64x256x256, .f32⟩ : BufTy).Contents (Elt F) → (⟨S8x64x256x256, .f32⟩ : BufTy).Contents (Elt F) → (⟨S8x64x256x256, .f32⟩ : BufTy).Contents (Elt F)),
    binary main_v19 main_v24 main_v25 (addf : (⟨S8x64x256x256, .f32⟩ : BufTy).Contents (Elt F) → (⟨S8x64x256x256, .f32⟩ : BufTy).Contents (Elt F) → (⟨S8x64x256x256, .f32⟩ : BufTy).Contents (Elt F)) ]

/-- Tap 4: two slices, the plane's reshape and broadcast, the product, the sum. -/
def opsT4 : List (HloOp τ sig (Elt F)) :=
  [ unary main_v0 main_v26 ((extractStridedSlice S8x64x256x256 ![0, 0, 0, 4] · slices_S8x64x260x260_S8x64x256x256_0_0_0_4) : (⟨S8x64x260x260, .f32⟩ : BufTy).Contents (Elt F) → (⟨S8x64x256x256, .f32⟩ : BufTy).Contents (Elt F)),
    unary main_arg1 main_v27 ((extractStridedSlice S1x8x1x256x256 ![4, 0, 0, 0, 0] · slices_S25x8x1x256x256_S1x8x1x256x256_4_0_0_0_0) : (⟨S25x8x1x256x256, .f32⟩ : BufTy).Contents (Elt F) → (⟨S1x8x1x256x256, .f32⟩ : BufTy).Contents (Elt F)),
    reshape main_v27 main_v28 rfl shapeCasts_S1x8x1x256x256_S8x1x256x256,
    unary main_v28 main_v29 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v26 main_v29 main_v30 (mulf : (⟨S8x64x256x256, .f32⟩ : BufTy).Contents (Elt F) → (⟨S8x64x256x256, .f32⟩ : BufTy).Contents (Elt F) → (⟨S8x64x256x256, .f32⟩ : BufTy).Contents (Elt F)),
    binary main_v25 main_v30 main_v31 (addf : (⟨S8x64x256x256, .f32⟩ : BufTy).Contents (Elt F) → (⟨S8x64x256x256, .f32⟩ : BufTy).Contents (Elt F) → (⟨S8x64x256x256, .f32⟩ : BufTy).Contents (Elt F)) ]

/-- Tap 5: two slices, the plane's reshape and broadcast, the product, the sum. -/
def opsT5 : List (HloOp τ sig (Elt F)) :=
  [ unary main_v0 main_v32 ((extractStridedSlice S8x64x256x256 ![0, 0, 1, 0] · slices_S8x64x260x260_S8x64x256x256_0_0_1_0) : (⟨S8x64x260x260, .f32⟩ : BufTy).Contents (Elt F) → (⟨S8x64x256x256, .f32⟩ : BufTy).Contents (Elt F)),
    unary main_arg1 main_v33 ((extractStridedSlice S1x8x1x256x256 ![5, 0, 0, 0, 0] · slices_S25x8x1x256x256_S1x8x1x256x256_5_0_0_0_0) : (⟨S25x8x1x256x256, .f32⟩ : BufTy).Contents (Elt F) → (⟨S1x8x1x256x256, .f32⟩ : BufTy).Contents (Elt F)),
    reshape main_v33 main_v34 rfl shapeCasts_S1x8x1x256x256_S8x1x256x256,
    unary main_v34 main_v35 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v32 main_v35 main_v36 (mulf : (⟨S8x64x256x256, .f32⟩ : BufTy).Contents (Elt F) → (⟨S8x64x256x256, .f32⟩ : BufTy).Contents (Elt F) → (⟨S8x64x256x256, .f32⟩ : BufTy).Contents (Elt F)),
    binary main_v31 main_v36 main_v37 (addf : (⟨S8x64x256x256, .f32⟩ : BufTy).Contents (Elt F) → (⟨S8x64x256x256, .f32⟩ : BufTy).Contents (Elt F) → (⟨S8x64x256x256, .f32⟩ : BufTy).Contents (Elt F)) ]

/-- Tap 6: two slices, the plane's reshape and broadcast, the product, the sum. -/
def opsT6 : List (HloOp τ sig (Elt F)) :=
  [ unary main_v0 main_v38 ((extractStridedSlice S8x64x256x256 ![0, 0, 1, 1] · slices_S8x64x260x260_S8x64x256x256_0_0_1_1) : (⟨S8x64x260x260, .f32⟩ : BufTy).Contents (Elt F) → (⟨S8x64x256x256, .f32⟩ : BufTy).Contents (Elt F)),
    unary main_arg1 main_v39 ((extractStridedSlice S1x8x1x256x256 ![6, 0, 0, 0, 0] · slices_S25x8x1x256x256_S1x8x1x256x256_6_0_0_0_0) : (⟨S25x8x1x256x256, .f32⟩ : BufTy).Contents (Elt F) → (⟨S1x8x1x256x256, .f32⟩ : BufTy).Contents (Elt F)),
    reshape main_v39 main_v40 rfl shapeCasts_S1x8x1x256x256_S8x1x256x256,
    unary main_v40 main_v41 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v38 main_v41 main_v42 (mulf : (⟨S8x64x256x256, .f32⟩ : BufTy).Contents (Elt F) → (⟨S8x64x256x256, .f32⟩ : BufTy).Contents (Elt F) → (⟨S8x64x256x256, .f32⟩ : BufTy).Contents (Elt F)),
    binary main_v37 main_v42 main_v43 (addf : (⟨S8x64x256x256, .f32⟩ : BufTy).Contents (Elt F) → (⟨S8x64x256x256, .f32⟩ : BufTy).Contents (Elt F) → (⟨S8x64x256x256, .f32⟩ : BufTy).Contents (Elt F)) ]

/-- Tap 7: two slices, the plane's reshape and broadcast, the product, the sum. -/
def opsT7 : List (HloOp τ sig (Elt F)) :=
  [ unary main_v0 main_v44 ((extractStridedSlice S8x64x256x256 ![0, 0, 1, 2] · slices_S8x64x260x260_S8x64x256x256_0_0_1_2) : (⟨S8x64x260x260, .f32⟩ : BufTy).Contents (Elt F) → (⟨S8x64x256x256, .f32⟩ : BufTy).Contents (Elt F)),
    unary main_arg1 main_v45 ((extractStridedSlice S1x8x1x256x256 ![7, 0, 0, 0, 0] · slices_S25x8x1x256x256_S1x8x1x256x256_7_0_0_0_0) : (⟨S25x8x1x256x256, .f32⟩ : BufTy).Contents (Elt F) → (⟨S1x8x1x256x256, .f32⟩ : BufTy).Contents (Elt F)),
    reshape main_v45 main_v46 rfl shapeCasts_S1x8x1x256x256_S8x1x256x256,
    unary main_v46 main_v47 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v44 main_v47 main_v48 (mulf : (⟨S8x64x256x256, .f32⟩ : BufTy).Contents (Elt F) → (⟨S8x64x256x256, .f32⟩ : BufTy).Contents (Elt F) → (⟨S8x64x256x256, .f32⟩ : BufTy).Contents (Elt F)),
    binary main_v43 main_v48 main_v49 (addf : (⟨S8x64x256x256, .f32⟩ : BufTy).Contents (Elt F) → (⟨S8x64x256x256, .f32⟩ : BufTy).Contents (Elt F) → (⟨S8x64x256x256, .f32⟩ : BufTy).Contents (Elt F)) ]

/-- Tap 8: two slices, the plane's reshape and broadcast, the product, the sum. -/
def opsT8 : List (HloOp τ sig (Elt F)) :=
  [ unary main_v0 main_v50 ((extractStridedSlice S8x64x256x256 ![0, 0, 1, 3] · slices_S8x64x260x260_S8x64x256x256_0_0_1_3) : (⟨S8x64x260x260, .f32⟩ : BufTy).Contents (Elt F) → (⟨S8x64x256x256, .f32⟩ : BufTy).Contents (Elt F)),
    unary main_arg1 main_v51 ((extractStridedSlice S1x8x1x256x256 ![8, 0, 0, 0, 0] · slices_S25x8x1x256x256_S1x8x1x256x256_8_0_0_0_0) : (⟨S25x8x1x256x256, .f32⟩ : BufTy).Contents (Elt F) → (⟨S1x8x1x256x256, .f32⟩ : BufTy).Contents (Elt F)),
    reshape main_v51 main_v52 rfl shapeCasts_S1x8x1x256x256_S8x1x256x256,
    unary main_v52 main_v53 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v50 main_v53 main_v54 (mulf : (⟨S8x64x256x256, .f32⟩ : BufTy).Contents (Elt F) → (⟨S8x64x256x256, .f32⟩ : BufTy).Contents (Elt F) → (⟨S8x64x256x256, .f32⟩ : BufTy).Contents (Elt F)),
    binary main_v49 main_v54 main_v55 (addf : (⟨S8x64x256x256, .f32⟩ : BufTy).Contents (Elt F) → (⟨S8x64x256x256, .f32⟩ : BufTy).Contents (Elt F) → (⟨S8x64x256x256, .f32⟩ : BufTy).Contents (Elt F)) ]

/-- Tap 9: two slices, the plane's reshape and broadcast, the product, the sum. -/
def opsT9 : List (HloOp τ sig (Elt F)) :=
  [ unary main_v0 main_v56 ((extractStridedSlice S8x64x256x256 ![0, 0, 1, 4] · slices_S8x64x260x260_S8x64x256x256_0_0_1_4) : (⟨S8x64x260x260, .f32⟩ : BufTy).Contents (Elt F) → (⟨S8x64x256x256, .f32⟩ : BufTy).Contents (Elt F)),
    unary main_arg1 main_v57 ((extractStridedSlice S1x8x1x256x256 ![9, 0, 0, 0, 0] · slices_S25x8x1x256x256_S1x8x1x256x256_9_0_0_0_0) : (⟨S25x8x1x256x256, .f32⟩ : BufTy).Contents (Elt F) → (⟨S1x8x1x256x256, .f32⟩ : BufTy).Contents (Elt F)),
    reshape main_v57 main_v58 rfl shapeCasts_S1x8x1x256x256_S8x1x256x256,
    unary main_v58 main_v59 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v56 main_v59 main_v60 (mulf : (⟨S8x64x256x256, .f32⟩ : BufTy).Contents (Elt F) → (⟨S8x64x256x256, .f32⟩ : BufTy).Contents (Elt F) → (⟨S8x64x256x256, .f32⟩ : BufTy).Contents (Elt F)),
    binary main_v55 main_v60 main_v61 (addf : (⟨S8x64x256x256, .f32⟩ : BufTy).Contents (Elt F) → (⟨S8x64x256x256, .f32⟩ : BufTy).Contents (Elt F) → (⟨S8x64x256x256, .f32⟩ : BufTy).Contents (Elt F)) ]

/-- Tap 10: two slices, the plane's reshape and broadcast, the product, the sum. -/
def opsT10 : List (HloOp τ sig (Elt F)) :=
  [ unary main_v0 main_v62 ((extractStridedSlice S8x64x256x256 ![0, 0, 2, 0] · slices_S8x64x260x260_S8x64x256x256_0_0_2_0) : (⟨S8x64x260x260, .f32⟩ : BufTy).Contents (Elt F) → (⟨S8x64x256x256, .f32⟩ : BufTy).Contents (Elt F)),
    unary main_arg1 main_v63 ((extractStridedSlice S1x8x1x256x256 ![10, 0, 0, 0, 0] · slices_S25x8x1x256x256_S1x8x1x256x256_10_0_0_0_0) : (⟨S25x8x1x256x256, .f32⟩ : BufTy).Contents (Elt F) → (⟨S1x8x1x256x256, .f32⟩ : BufTy).Contents (Elt F)),
    reshape main_v63 main_v64 rfl shapeCasts_S1x8x1x256x256_S8x1x256x256,
    unary main_v64 main_v65 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v62 main_v65 main_v66 (mulf : (⟨S8x64x256x256, .f32⟩ : BufTy).Contents (Elt F) → (⟨S8x64x256x256, .f32⟩ : BufTy).Contents (Elt F) → (⟨S8x64x256x256, .f32⟩ : BufTy).Contents (Elt F)),
    binary main_v61 main_v66 main_v67 (addf : (⟨S8x64x256x256, .f32⟩ : BufTy).Contents (Elt F) → (⟨S8x64x256x256, .f32⟩ : BufTy).Contents (Elt F) → (⟨S8x64x256x256, .f32⟩ : BufTy).Contents (Elt F)) ]

/-- Tap 11: two slices, the plane's reshape and broadcast, the product, the sum. -/
def opsT11 : List (HloOp τ sig (Elt F)) :=
  [ unary main_v0 main_v68 ((extractStridedSlice S8x64x256x256 ![0, 0, 2, 1] · slices_S8x64x260x260_S8x64x256x256_0_0_2_1) : (⟨S8x64x260x260, .f32⟩ : BufTy).Contents (Elt F) → (⟨S8x64x256x256, .f32⟩ : BufTy).Contents (Elt F)),
    unary main_arg1 main_v69 ((extractStridedSlice S1x8x1x256x256 ![11, 0, 0, 0, 0] · slices_S25x8x1x256x256_S1x8x1x256x256_11_0_0_0_0) : (⟨S25x8x1x256x256, .f32⟩ : BufTy).Contents (Elt F) → (⟨S1x8x1x256x256, .f32⟩ : BufTy).Contents (Elt F)),
    reshape main_v69 main_v70 rfl shapeCasts_S1x8x1x256x256_S8x1x256x256,
    unary main_v70 main_v71 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v68 main_v71 main_v72 (mulf : (⟨S8x64x256x256, .f32⟩ : BufTy).Contents (Elt F) → (⟨S8x64x256x256, .f32⟩ : BufTy).Contents (Elt F) → (⟨S8x64x256x256, .f32⟩ : BufTy).Contents (Elt F)),
    binary main_v67 main_v72 main_v73 (addf : (⟨S8x64x256x256, .f32⟩ : BufTy).Contents (Elt F) → (⟨S8x64x256x256, .f32⟩ : BufTy).Contents (Elt F) → (⟨S8x64x256x256, .f32⟩ : BufTy).Contents (Elt F)) ]

/-- Tap 12: two slices, the plane's reshape and broadcast, the product, the sum. -/
def opsT12 : List (HloOp τ sig (Elt F)) :=
  [ unary main_v0 main_v74 ((extractStridedSlice S8x64x256x256 ![0, 0, 2, 2] · slices_S8x64x260x260_S8x64x256x256_0_0_2_2) : (⟨S8x64x260x260, .f32⟩ : BufTy).Contents (Elt F) → (⟨S8x64x256x256, .f32⟩ : BufTy).Contents (Elt F)),
    unary main_arg1 main_v75 ((extractStridedSlice S1x8x1x256x256 ![12, 0, 0, 0, 0] · slices_S25x8x1x256x256_S1x8x1x256x256_12_0_0_0_0) : (⟨S25x8x1x256x256, .f32⟩ : BufTy).Contents (Elt F) → (⟨S1x8x1x256x256, .f32⟩ : BufTy).Contents (Elt F)),
    reshape main_v75 main_v76 rfl shapeCasts_S1x8x1x256x256_S8x1x256x256,
    unary main_v76 main_v77 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v74 main_v77 main_v78 (mulf : (⟨S8x64x256x256, .f32⟩ : BufTy).Contents (Elt F) → (⟨S8x64x256x256, .f32⟩ : BufTy).Contents (Elt F) → (⟨S8x64x256x256, .f32⟩ : BufTy).Contents (Elt F)),
    binary main_v73 main_v78 main_v79 (addf : (⟨S8x64x256x256, .f32⟩ : BufTy).Contents (Elt F) → (⟨S8x64x256x256, .f32⟩ : BufTy).Contents (Elt F) → (⟨S8x64x256x256, .f32⟩ : BufTy).Contents (Elt F)) ]

/-- Tap 13: two slices, the plane's reshape and broadcast, the product, the sum. -/
def opsT13 : List (HloOp τ sig (Elt F)) :=
  [ unary main_v0 main_v80 ((extractStridedSlice S8x64x256x256 ![0, 0, 2, 3] · slices_S8x64x260x260_S8x64x256x256_0_0_2_3) : (⟨S8x64x260x260, .f32⟩ : BufTy).Contents (Elt F) → (⟨S8x64x256x256, .f32⟩ : BufTy).Contents (Elt F)),
    unary main_arg1 main_v81 ((extractStridedSlice S1x8x1x256x256 ![13, 0, 0, 0, 0] · slices_S25x8x1x256x256_S1x8x1x256x256_13_0_0_0_0) : (⟨S25x8x1x256x256, .f32⟩ : BufTy).Contents (Elt F) → (⟨S1x8x1x256x256, .f32⟩ : BufTy).Contents (Elt F)),
    reshape main_v81 main_v82 rfl shapeCasts_S1x8x1x256x256_S8x1x256x256,
    unary main_v82 main_v83 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v80 main_v83 main_v84 (mulf : (⟨S8x64x256x256, .f32⟩ : BufTy).Contents (Elt F) → (⟨S8x64x256x256, .f32⟩ : BufTy).Contents (Elt F) → (⟨S8x64x256x256, .f32⟩ : BufTy).Contents (Elt F)),
    binary main_v79 main_v84 main_v85 (addf : (⟨S8x64x256x256, .f32⟩ : BufTy).Contents (Elt F) → (⟨S8x64x256x256, .f32⟩ : BufTy).Contents (Elt F) → (⟨S8x64x256x256, .f32⟩ : BufTy).Contents (Elt F)) ]

/-- Tap 14: two slices, the plane's reshape and broadcast, the product, the sum. -/
def opsT14 : List (HloOp τ sig (Elt F)) :=
  [ unary main_v0 main_v86 ((extractStridedSlice S8x64x256x256 ![0, 0, 2, 4] · slices_S8x64x260x260_S8x64x256x256_0_0_2_4) : (⟨S8x64x260x260, .f32⟩ : BufTy).Contents (Elt F) → (⟨S8x64x256x256, .f32⟩ : BufTy).Contents (Elt F)),
    unary main_arg1 main_v87 ((extractStridedSlice S1x8x1x256x256 ![14, 0, 0, 0, 0] · slices_S25x8x1x256x256_S1x8x1x256x256_14_0_0_0_0) : (⟨S25x8x1x256x256, .f32⟩ : BufTy).Contents (Elt F) → (⟨S1x8x1x256x256, .f32⟩ : BufTy).Contents (Elt F)),
    reshape main_v87 main_v88 rfl shapeCasts_S1x8x1x256x256_S8x1x256x256,
    unary main_v88 main_v89 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v86 main_v89 main_v90 (mulf : (⟨S8x64x256x256, .f32⟩ : BufTy).Contents (Elt F) → (⟨S8x64x256x256, .f32⟩ : BufTy).Contents (Elt F) → (⟨S8x64x256x256, .f32⟩ : BufTy).Contents (Elt F)),
    binary main_v85 main_v90 main_v91 (addf : (⟨S8x64x256x256, .f32⟩ : BufTy).Contents (Elt F) → (⟨S8x64x256x256, .f32⟩ : BufTy).Contents (Elt F) → (⟨S8x64x256x256, .f32⟩ : BufTy).Contents (Elt F)) ]

/-- Tap 15: two slices, the plane's reshape and broadcast, the product, the sum. -/
def opsT15 : List (HloOp τ sig (Elt F)) :=
  [ unary main_v0 main_v92 ((extractStridedSlice S8x64x256x256 ![0, 0, 3, 0] · slices_S8x64x260x260_S8x64x256x256_0_0_3_0) : (⟨S8x64x260x260, .f32⟩ : BufTy).Contents (Elt F) → (⟨S8x64x256x256, .f32⟩ : BufTy).Contents (Elt F)),
    unary main_arg1 main_v93 ((extractStridedSlice S1x8x1x256x256 ![15, 0, 0, 0, 0] · slices_S25x8x1x256x256_S1x8x1x256x256_15_0_0_0_0) : (⟨S25x8x1x256x256, .f32⟩ : BufTy).Contents (Elt F) → (⟨S1x8x1x256x256, .f32⟩ : BufTy).Contents (Elt F)),
    reshape main_v93 main_v94 rfl shapeCasts_S1x8x1x256x256_S8x1x256x256,
    unary main_v94 main_v95 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v92 main_v95 main_v96 (mulf : (⟨S8x64x256x256, .f32⟩ : BufTy).Contents (Elt F) → (⟨S8x64x256x256, .f32⟩ : BufTy).Contents (Elt F) → (⟨S8x64x256x256, .f32⟩ : BufTy).Contents (Elt F)),
    binary main_v91 main_v96 main_v97 (addf : (⟨S8x64x256x256, .f32⟩ : BufTy).Contents (Elt F) → (⟨S8x64x256x256, .f32⟩ : BufTy).Contents (Elt F) → (⟨S8x64x256x256, .f32⟩ : BufTy).Contents (Elt F)) ]

/-- Tap 16: two slices, the plane's reshape and broadcast, the product, the sum. -/
def opsT16 : List (HloOp τ sig (Elt F)) :=
  [ unary main_v0 main_v98 ((extractStridedSlice S8x64x256x256 ![0, 0, 3, 1] · slices_S8x64x260x260_S8x64x256x256_0_0_3_1) : (⟨S8x64x260x260, .f32⟩ : BufTy).Contents (Elt F) → (⟨S8x64x256x256, .f32⟩ : BufTy).Contents (Elt F)),
    unary main_arg1 main_v99 ((extractStridedSlice S1x8x1x256x256 ![16, 0, 0, 0, 0] · slices_S25x8x1x256x256_S1x8x1x256x256_16_0_0_0_0) : (⟨S25x8x1x256x256, .f32⟩ : BufTy).Contents (Elt F) → (⟨S1x8x1x256x256, .f32⟩ : BufTy).Contents (Elt F)),
    reshape main_v99 main_v100 rfl shapeCasts_S1x8x1x256x256_S8x1x256x256,
    unary main_v100 main_v101 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v98 main_v101 main_v102 (mulf : (⟨S8x64x256x256, .f32⟩ : BufTy).Contents (Elt F) → (⟨S8x64x256x256, .f32⟩ : BufTy).Contents (Elt F) → (⟨S8x64x256x256, .f32⟩ : BufTy).Contents (Elt F)),
    binary main_v97 main_v102 main_v103 (addf : (⟨S8x64x256x256, .f32⟩ : BufTy).Contents (Elt F) → (⟨S8x64x256x256, .f32⟩ : BufTy).Contents (Elt F) → (⟨S8x64x256x256, .f32⟩ : BufTy).Contents (Elt F)) ]

/-- Tap 17: two slices, the plane's reshape and broadcast, the product, the sum. -/
def opsT17 : List (HloOp τ sig (Elt F)) :=
  [ unary main_v0 main_v104 ((extractStridedSlice S8x64x256x256 ![0, 0, 3, 2] · slices_S8x64x260x260_S8x64x256x256_0_0_3_2) : (⟨S8x64x260x260, .f32⟩ : BufTy).Contents (Elt F) → (⟨S8x64x256x256, .f32⟩ : BufTy).Contents (Elt F)),
    unary main_arg1 main_v105 ((extractStridedSlice S1x8x1x256x256 ![17, 0, 0, 0, 0] · slices_S25x8x1x256x256_S1x8x1x256x256_17_0_0_0_0) : (⟨S25x8x1x256x256, .f32⟩ : BufTy).Contents (Elt F) → (⟨S1x8x1x256x256, .f32⟩ : BufTy).Contents (Elt F)),
    reshape main_v105 main_v106 rfl shapeCasts_S1x8x1x256x256_S8x1x256x256,
    unary main_v106 main_v107 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v104 main_v107 main_v108 (mulf : (⟨S8x64x256x256, .f32⟩ : BufTy).Contents (Elt F) → (⟨S8x64x256x256, .f32⟩ : BufTy).Contents (Elt F) → (⟨S8x64x256x256, .f32⟩ : BufTy).Contents (Elt F)),
    binary main_v103 main_v108 main_v109 (addf : (⟨S8x64x256x256, .f32⟩ : BufTy).Contents (Elt F) → (⟨S8x64x256x256, .f32⟩ : BufTy).Contents (Elt F) → (⟨S8x64x256x256, .f32⟩ : BufTy).Contents (Elt F)) ]

/-- Tap 18: two slices, the plane's reshape and broadcast, the product, the sum. -/
def opsT18 : List (HloOp τ sig (Elt F)) :=
  [ unary main_v0 main_v110 ((extractStridedSlice S8x64x256x256 ![0, 0, 3, 3] · slices_S8x64x260x260_S8x64x256x256_0_0_3_3) : (⟨S8x64x260x260, .f32⟩ : BufTy).Contents (Elt F) → (⟨S8x64x256x256, .f32⟩ : BufTy).Contents (Elt F)),
    unary main_arg1 main_v111 ((extractStridedSlice S1x8x1x256x256 ![18, 0, 0, 0, 0] · slices_S25x8x1x256x256_S1x8x1x256x256_18_0_0_0_0) : (⟨S25x8x1x256x256, .f32⟩ : BufTy).Contents (Elt F) → (⟨S1x8x1x256x256, .f32⟩ : BufTy).Contents (Elt F)),
    reshape main_v111 main_v112 rfl shapeCasts_S1x8x1x256x256_S8x1x256x256,
    unary main_v112 main_v113 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v110 main_v113 main_v114 (mulf : (⟨S8x64x256x256, .f32⟩ : BufTy).Contents (Elt F) → (⟨S8x64x256x256, .f32⟩ : BufTy).Contents (Elt F) → (⟨S8x64x256x256, .f32⟩ : BufTy).Contents (Elt F)),
    binary main_v109 main_v114 main_v115 (addf : (⟨S8x64x256x256, .f32⟩ : BufTy).Contents (Elt F) → (⟨S8x64x256x256, .f32⟩ : BufTy).Contents (Elt F) → (⟨S8x64x256x256, .f32⟩ : BufTy).Contents (Elt F)) ]

/-- Tap 19: two slices, the plane's reshape and broadcast, the product, the sum. -/
def opsT19 : List (HloOp τ sig (Elt F)) :=
  [ unary main_v0 main_v116 ((extractStridedSlice S8x64x256x256 ![0, 0, 3, 4] · slices_S8x64x260x260_S8x64x256x256_0_0_3_4) : (⟨S8x64x260x260, .f32⟩ : BufTy).Contents (Elt F) → (⟨S8x64x256x256, .f32⟩ : BufTy).Contents (Elt F)),
    unary main_arg1 main_v117 ((extractStridedSlice S1x8x1x256x256 ![19, 0, 0, 0, 0] · slices_S25x8x1x256x256_S1x8x1x256x256_19_0_0_0_0) : (⟨S25x8x1x256x256, .f32⟩ : BufTy).Contents (Elt F) → (⟨S1x8x1x256x256, .f32⟩ : BufTy).Contents (Elt F)),
    reshape main_v117 main_v118 rfl shapeCasts_S1x8x1x256x256_S8x1x256x256,
    unary main_v118 main_v119 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v116 main_v119 main_v120 (mulf : (⟨S8x64x256x256, .f32⟩ : BufTy).Contents (Elt F) → (⟨S8x64x256x256, .f32⟩ : BufTy).Contents (Elt F) → (⟨S8x64x256x256, .f32⟩ : BufTy).Contents (Elt F)),
    binary main_v115 main_v120 main_v121 (addf : (⟨S8x64x256x256, .f32⟩ : BufTy).Contents (Elt F) → (⟨S8x64x256x256, .f32⟩ : BufTy).Contents (Elt F) → (⟨S8x64x256x256, .f32⟩ : BufTy).Contents (Elt F)) ]

/-- Tap 20: two slices, the plane's reshape and broadcast, the product, the sum. -/
def opsT20 : List (HloOp τ sig (Elt F)) :=
  [ unary main_v0 main_v122 ((extractStridedSlice S8x64x256x256 ![0, 0, 4, 0] · slices_S8x64x260x260_S8x64x256x256_0_0_4_0) : (⟨S8x64x260x260, .f32⟩ : BufTy).Contents (Elt F) → (⟨S8x64x256x256, .f32⟩ : BufTy).Contents (Elt F)),
    unary main_arg1 main_v123 ((extractStridedSlice S1x8x1x256x256 ![20, 0, 0, 0, 0] · slices_S25x8x1x256x256_S1x8x1x256x256_20_0_0_0_0) : (⟨S25x8x1x256x256, .f32⟩ : BufTy).Contents (Elt F) → (⟨S1x8x1x256x256, .f32⟩ : BufTy).Contents (Elt F)),
    reshape main_v123 main_v124 rfl shapeCasts_S1x8x1x256x256_S8x1x256x256,
    unary main_v124 main_v125 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v122 main_v125 main_v126 (mulf : (⟨S8x64x256x256, .f32⟩ : BufTy).Contents (Elt F) → (⟨S8x64x256x256, .f32⟩ : BufTy).Contents (Elt F) → (⟨S8x64x256x256, .f32⟩ : BufTy).Contents (Elt F)),
    binary main_v121 main_v126 main_v127 (addf : (⟨S8x64x256x256, .f32⟩ : BufTy).Contents (Elt F) → (⟨S8x64x256x256, .f32⟩ : BufTy).Contents (Elt F) → (⟨S8x64x256x256, .f32⟩ : BufTy).Contents (Elt F)) ]

/-- Tap 21: two slices, the plane's reshape and broadcast, the product, the sum. -/
def opsT21 : List (HloOp τ sig (Elt F)) :=
  [ unary main_v0 main_v128 ((extractStridedSlice S8x64x256x256 ![0, 0, 4, 1] · slices_S8x64x260x260_S8x64x256x256_0_0_4_1) : (⟨S8x64x260x260, .f32⟩ : BufTy).Contents (Elt F) → (⟨S8x64x256x256, .f32⟩ : BufTy).Contents (Elt F)),
    unary main_arg1 main_v129 ((extractStridedSlice S1x8x1x256x256 ![21, 0, 0, 0, 0] · slices_S25x8x1x256x256_S1x8x1x256x256_21_0_0_0_0) : (⟨S25x8x1x256x256, .f32⟩ : BufTy).Contents (Elt F) → (⟨S1x8x1x256x256, .f32⟩ : BufTy).Contents (Elt F)),
    reshape main_v129 main_v130 rfl shapeCasts_S1x8x1x256x256_S8x1x256x256,
    unary main_v130 main_v131 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v128 main_v131 main_v132 (mulf : (⟨S8x64x256x256, .f32⟩ : BufTy).Contents (Elt F) → (⟨S8x64x256x256, .f32⟩ : BufTy).Contents (Elt F) → (⟨S8x64x256x256, .f32⟩ : BufTy).Contents (Elt F)),
    binary main_v127 main_v132 main_v133 (addf : (⟨S8x64x256x256, .f32⟩ : BufTy).Contents (Elt F) → (⟨S8x64x256x256, .f32⟩ : BufTy).Contents (Elt F) → (⟨S8x64x256x256, .f32⟩ : BufTy).Contents (Elt F)) ]

/-- Tap 22: two slices, the plane's reshape and broadcast, the product, the sum. -/
def opsT22 : List (HloOp τ sig (Elt F)) :=
  [ unary main_v0 main_v134 ((extractStridedSlice S8x64x256x256 ![0, 0, 4, 2] · slices_S8x64x260x260_S8x64x256x256_0_0_4_2) : (⟨S8x64x260x260, .f32⟩ : BufTy).Contents (Elt F) → (⟨S8x64x256x256, .f32⟩ : BufTy).Contents (Elt F)),
    unary main_arg1 main_v135 ((extractStridedSlice S1x8x1x256x256 ![22, 0, 0, 0, 0] · slices_S25x8x1x256x256_S1x8x1x256x256_22_0_0_0_0) : (⟨S25x8x1x256x256, .f32⟩ : BufTy).Contents (Elt F) → (⟨S1x8x1x256x256, .f32⟩ : BufTy).Contents (Elt F)),
    reshape main_v135 main_v136 rfl shapeCasts_S1x8x1x256x256_S8x1x256x256,
    unary main_v136 main_v137 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v134 main_v137 main_v138 (mulf : (⟨S8x64x256x256, .f32⟩ : BufTy).Contents (Elt F) → (⟨S8x64x256x256, .f32⟩ : BufTy).Contents (Elt F) → (⟨S8x64x256x256, .f32⟩ : BufTy).Contents (Elt F)),
    binary main_v133 main_v138 main_v139 (addf : (⟨S8x64x256x256, .f32⟩ : BufTy).Contents (Elt F) → (⟨S8x64x256x256, .f32⟩ : BufTy).Contents (Elt F) → (⟨S8x64x256x256, .f32⟩ : BufTy).Contents (Elt F)) ]

/-- Tap 23: two slices, the plane's reshape and broadcast, the product, the sum. -/
def opsT23 : List (HloOp τ sig (Elt F)) :=
  [ unary main_v0 main_v140 ((extractStridedSlice S8x64x256x256 ![0, 0, 4, 3] · slices_S8x64x260x260_S8x64x256x256_0_0_4_3) : (⟨S8x64x260x260, .f32⟩ : BufTy).Contents (Elt F) → (⟨S8x64x256x256, .f32⟩ : BufTy).Contents (Elt F)),
    unary main_arg1 main_v141 ((extractStridedSlice S1x8x1x256x256 ![23, 0, 0, 0, 0] · slices_S25x8x1x256x256_S1x8x1x256x256_23_0_0_0_0) : (⟨S25x8x1x256x256, .f32⟩ : BufTy).Contents (Elt F) → (⟨S1x8x1x256x256, .f32⟩ : BufTy).Contents (Elt F)),
    reshape main_v141 main_v142 rfl shapeCasts_S1x8x1x256x256_S8x1x256x256,
    unary main_v142 main_v143 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v140 main_v143 main_v144 (mulf : (⟨S8x64x256x256, .f32⟩ : BufTy).Contents (Elt F) → (⟨S8x64x256x256, .f32⟩ : BufTy).Contents (Elt F) → (⟨S8x64x256x256, .f32⟩ : BufTy).Contents (Elt F)),
    binary main_v139 main_v144 main_v145 (addf : (⟨S8x64x256x256, .f32⟩ : BufTy).Contents (Elt F) → (⟨S8x64x256x256, .f32⟩ : BufTy).Contents (Elt F) → (⟨S8x64x256x256, .f32⟩ : BufTy).Contents (Elt F)) ]

/-- Tap 24: two slices, the plane's reshape and broadcast, the product, the sum. -/
def opsT24 : List (HloOp τ sig (Elt F)) :=
  [ unary main_v0 main_v146 ((extractStridedSlice S8x64x256x256 ![0, 0, 4, 4] · slices_S8x64x260x260_S8x64x256x256_0_0_4_4) : (⟨S8x64x260x260, .f32⟩ : BufTy).Contents (Elt F) → (⟨S8x64x256x256, .f32⟩ : BufTy).Contents (Elt F)),
    unary main_arg1 main_v147 ((extractStridedSlice S1x8x1x256x256 ![24, 0, 0, 0, 0] · slices_S25x8x1x256x256_S1x8x1x256x256_24_0_0_0_0) : (⟨S25x8x1x256x256, .f32⟩ : BufTy).Contents (Elt F) → (⟨S1x8x1x256x256, .f32⟩ : BufTy).Contents (Elt F)),
    reshape main_v147 main_v148 rfl shapeCasts_S1x8x1x256x256_S8x1x256x256,
    unary main_v148 main_v149 (broadcastInDim S8x64x256x256 ![0, 1, 2, 3] bcast_S8x1x256x256_S8x64x256x256_0_1_2_3 : (⟨S8x1x256x256, .f32⟩ : BufTy).Contents (Elt F) → (⟨S8x64x256x256, .f32⟩ : BufTy).Contents (Elt F)),
    binary main_v146 main_v149 main_v150 (mulf : (⟨S8x64x256x256, .f32⟩ : BufTy).Contents (Elt F) → (⟨S8x64x256x256, .f32⟩ : BufTy).Contents (Elt F) → (⟨S8x64x256x256, .f32⟩ : BufTy).Contents (Elt F)),
    binary main_v145 main_v150 main_v151 (addf : (⟨S8x64x256x256, .f32⟩ : BufTy).Contents (Elt F) → (⟨S8x64x256x256, .f32⟩ : BufTy).Contents (Elt F) → (⟨S8x64x256x256, .f32⟩ : BufTy).Contents (Elt F)) ]

/-- The stretches, in order. -/
def chunks : List (List (HloOp τ sig (Elt F))) :=
  [opsA, opsPad, opsB, opsT0, opsT1, opsT2, opsT3, opsT4, opsT5, opsT6, opsT7, opsT8, opsT9, opsT10, opsT11, opsT12, opsT13, opsT14, opsT15, opsT16, opsT17, opsT18, opsT19, opsT20, opsT21, opsT22, opsT23, opsT24]

/-- The whole line. -/
def ops : List (HloOp τ sig (Elt F)) := (chunks (F := F)).flatten

/-! ## Each stretch touches TensorCore buffers only, and allocates nothing -/

theorem opsA_sub : (opsA (F := F)).Forall fun op => op.bufs ⊆ tcRefs τ sig := by
  unfold opsA
  exact nullary_bufs_sub ..
theorem opsA_fresh : (opsA (F := F)).Forall fun op => op.fresh = ∅ := by
  unfold opsA
  simp only [List.Forall]; repeat' constructor

theorem opsPad_sub : (opsPad (F := F)).Forall fun op => op.bufs ⊆ tcRefs τ sig := by
  unfold opsPad
  exact ⟨unary_bufs_sub .., binary_bufs_sub ..⟩
theorem opsPad_fresh : (opsPad (F := F)).Forall fun op => op.fresh = ∅ := by
  unfold opsPad
  simp only [List.Forall]; repeat' constructor

theorem opsB_sub : (opsB (F := F)).Forall fun op => op.bufs ⊆ tcRefs τ sig := by
  unfold opsB
  exact ⟨nullary_bufs_sub .., unary_bufs_sub ..⟩
theorem opsB_fresh : (opsB (F := F)).Forall fun op => op.fresh = ∅ := by
  unfold opsB
  simp only [List.Forall]; repeat' constructor

theorem opsT0_sub : (opsT0 (F := F)).Forall fun op => op.bufs ⊆ tcRefs τ sig := by
  unfold opsT0
  exact ⟨unary_bufs_sub .., unary_bufs_sub .., reshape_bufs_sub .., unary_bufs_sub .., binary_bufs_sub .., binary_bufs_sub ..⟩
theorem opsT0_fresh : (opsT0 (F := F)).Forall fun op => op.fresh = ∅ := by
  unfold opsT0
  simp only [List.Forall]; repeat' constructor

theorem opsT1_sub : (opsT1 (F := F)).Forall fun op => op.bufs ⊆ tcRefs τ sig := by
  unfold opsT1
  exact ⟨unary_bufs_sub .., unary_bufs_sub .., reshape_bufs_sub .., unary_bufs_sub .., binary_bufs_sub .., binary_bufs_sub ..⟩
theorem opsT1_fresh : (opsT1 (F := F)).Forall fun op => op.fresh = ∅ := by
  unfold opsT1
  simp only [List.Forall]; repeat' constructor

theorem opsT2_sub : (opsT2 (F := F)).Forall fun op => op.bufs ⊆ tcRefs τ sig := by
  unfold opsT2
  exact ⟨unary_bufs_sub .., unary_bufs_sub .., reshape_bufs_sub .., unary_bufs_sub .., binary_bufs_sub .., binary_bufs_sub ..⟩
theorem opsT2_fresh : (opsT2 (F := F)).Forall fun op => op.fresh = ∅ := by
  unfold opsT2
  simp only [List.Forall]; repeat' constructor

theorem opsT3_sub : (opsT3 (F := F)).Forall fun op => op.bufs ⊆ tcRefs τ sig := by
  unfold opsT3
  exact ⟨unary_bufs_sub .., unary_bufs_sub .., reshape_bufs_sub .., unary_bufs_sub .., binary_bufs_sub .., binary_bufs_sub ..⟩
theorem opsT3_fresh : (opsT3 (F := F)).Forall fun op => op.fresh = ∅ := by
  unfold opsT3
  simp only [List.Forall]; repeat' constructor

theorem opsT4_sub : (opsT4 (F := F)).Forall fun op => op.bufs ⊆ tcRefs τ sig := by
  unfold opsT4
  exact ⟨unary_bufs_sub .., unary_bufs_sub .., reshape_bufs_sub .., unary_bufs_sub .., binary_bufs_sub .., binary_bufs_sub ..⟩
theorem opsT4_fresh : (opsT4 (F := F)).Forall fun op => op.fresh = ∅ := by
  unfold opsT4
  simp only [List.Forall]; repeat' constructor

theorem opsT5_sub : (opsT5 (F := F)).Forall fun op => op.bufs ⊆ tcRefs τ sig := by
  unfold opsT5
  exact ⟨unary_bufs_sub .., unary_bufs_sub .., reshape_bufs_sub .., unary_bufs_sub .., binary_bufs_sub .., binary_bufs_sub ..⟩
theorem opsT5_fresh : (opsT5 (F := F)).Forall fun op => op.fresh = ∅ := by
  unfold opsT5
  simp only [List.Forall]; repeat' constructor

theorem opsT6_sub : (opsT6 (F := F)).Forall fun op => op.bufs ⊆ tcRefs τ sig := by
  unfold opsT6
  exact ⟨unary_bufs_sub .., unary_bufs_sub .., reshape_bufs_sub .., unary_bufs_sub .., binary_bufs_sub .., binary_bufs_sub ..⟩
theorem opsT6_fresh : (opsT6 (F := F)).Forall fun op => op.fresh = ∅ := by
  unfold opsT6
  simp only [List.Forall]; repeat' constructor

theorem opsT7_sub : (opsT7 (F := F)).Forall fun op => op.bufs ⊆ tcRefs τ sig := by
  unfold opsT7
  exact ⟨unary_bufs_sub .., unary_bufs_sub .., reshape_bufs_sub .., unary_bufs_sub .., binary_bufs_sub .., binary_bufs_sub ..⟩
theorem opsT7_fresh : (opsT7 (F := F)).Forall fun op => op.fresh = ∅ := by
  unfold opsT7
  simp only [List.Forall]; repeat' constructor

theorem opsT8_sub : (opsT8 (F := F)).Forall fun op => op.bufs ⊆ tcRefs τ sig := by
  unfold opsT8
  exact ⟨unary_bufs_sub .., unary_bufs_sub .., reshape_bufs_sub .., unary_bufs_sub .., binary_bufs_sub .., binary_bufs_sub ..⟩
theorem opsT8_fresh : (opsT8 (F := F)).Forall fun op => op.fresh = ∅ := by
  unfold opsT8
  simp only [List.Forall]; repeat' constructor

theorem opsT9_sub : (opsT9 (F := F)).Forall fun op => op.bufs ⊆ tcRefs τ sig := by
  unfold opsT9
  exact ⟨unary_bufs_sub .., unary_bufs_sub .., reshape_bufs_sub .., unary_bufs_sub .., binary_bufs_sub .., binary_bufs_sub ..⟩
theorem opsT9_fresh : (opsT9 (F := F)).Forall fun op => op.fresh = ∅ := by
  unfold opsT9
  simp only [List.Forall]; repeat' constructor

theorem opsT10_sub : (opsT10 (F := F)).Forall fun op => op.bufs ⊆ tcRefs τ sig := by
  unfold opsT10
  exact ⟨unary_bufs_sub .., unary_bufs_sub .., reshape_bufs_sub .., unary_bufs_sub .., binary_bufs_sub .., binary_bufs_sub ..⟩
theorem opsT10_fresh : (opsT10 (F := F)).Forall fun op => op.fresh = ∅ := by
  unfold opsT10
  simp only [List.Forall]; repeat' constructor

theorem opsT11_sub : (opsT11 (F := F)).Forall fun op => op.bufs ⊆ tcRefs τ sig := by
  unfold opsT11
  exact ⟨unary_bufs_sub .., unary_bufs_sub .., reshape_bufs_sub .., unary_bufs_sub .., binary_bufs_sub .., binary_bufs_sub ..⟩
theorem opsT11_fresh : (opsT11 (F := F)).Forall fun op => op.fresh = ∅ := by
  unfold opsT11
  simp only [List.Forall]; repeat' constructor

theorem opsT12_sub : (opsT12 (F := F)).Forall fun op => op.bufs ⊆ tcRefs τ sig := by
  unfold opsT12
  exact ⟨unary_bufs_sub .., unary_bufs_sub .., reshape_bufs_sub .., unary_bufs_sub .., binary_bufs_sub .., binary_bufs_sub ..⟩
theorem opsT12_fresh : (opsT12 (F := F)).Forall fun op => op.fresh = ∅ := by
  unfold opsT12
  simp only [List.Forall]; repeat' constructor

theorem opsT13_sub : (opsT13 (F := F)).Forall fun op => op.bufs ⊆ tcRefs τ sig := by
  unfold opsT13
  exact ⟨unary_bufs_sub .., unary_bufs_sub .., reshape_bufs_sub .., unary_bufs_sub .., binary_bufs_sub .., binary_bufs_sub ..⟩
theorem opsT13_fresh : (opsT13 (F := F)).Forall fun op => op.fresh = ∅ := by
  unfold opsT13
  simp only [List.Forall]; repeat' constructor

theorem opsT14_sub : (opsT14 (F := F)).Forall fun op => op.bufs ⊆ tcRefs τ sig := by
  unfold opsT14
  exact ⟨unary_bufs_sub .., unary_bufs_sub .., reshape_bufs_sub .., unary_bufs_sub .., binary_bufs_sub .., binary_bufs_sub ..⟩
theorem opsT14_fresh : (opsT14 (F := F)).Forall fun op => op.fresh = ∅ := by
  unfold opsT14
  simp only [List.Forall]; repeat' constructor

theorem opsT15_sub : (opsT15 (F := F)).Forall fun op => op.bufs ⊆ tcRefs τ sig := by
  unfold opsT15
  exact ⟨unary_bufs_sub .., unary_bufs_sub .., reshape_bufs_sub .., unary_bufs_sub .., binary_bufs_sub .., binary_bufs_sub ..⟩
theorem opsT15_fresh : (opsT15 (F := F)).Forall fun op => op.fresh = ∅ := by
  unfold opsT15
  simp only [List.Forall]; repeat' constructor

theorem opsT16_sub : (opsT16 (F := F)).Forall fun op => op.bufs ⊆ tcRefs τ sig := by
  unfold opsT16
  exact ⟨unary_bufs_sub .., unary_bufs_sub .., reshape_bufs_sub .., unary_bufs_sub .., binary_bufs_sub .., binary_bufs_sub ..⟩
theorem opsT16_fresh : (opsT16 (F := F)).Forall fun op => op.fresh = ∅ := by
  unfold opsT16
  simp only [List.Forall]; repeat' constructor

theorem opsT17_sub : (opsT17 (F := F)).Forall fun op => op.bufs ⊆ tcRefs τ sig := by
  unfold opsT17
  exact ⟨unary_bufs_sub .., unary_bufs_sub .., reshape_bufs_sub .., unary_bufs_sub .., binary_bufs_sub .., binary_bufs_sub ..⟩
theorem opsT17_fresh : (opsT17 (F := F)).Forall fun op => op.fresh = ∅ := by
  unfold opsT17
  simp only [List.Forall]; repeat' constructor

theorem opsT18_sub : (opsT18 (F := F)).Forall fun op => op.bufs ⊆ tcRefs τ sig := by
  unfold opsT18
  exact ⟨unary_bufs_sub .., unary_bufs_sub .., reshape_bufs_sub .., unary_bufs_sub .., binary_bufs_sub .., binary_bufs_sub ..⟩
theorem opsT18_fresh : (opsT18 (F := F)).Forall fun op => op.fresh = ∅ := by
  unfold opsT18
  simp only [List.Forall]; repeat' constructor

theorem opsT19_sub : (opsT19 (F := F)).Forall fun op => op.bufs ⊆ tcRefs τ sig := by
  unfold opsT19
  exact ⟨unary_bufs_sub .., unary_bufs_sub .., reshape_bufs_sub .., unary_bufs_sub .., binary_bufs_sub .., binary_bufs_sub ..⟩
theorem opsT19_fresh : (opsT19 (F := F)).Forall fun op => op.fresh = ∅ := by
  unfold opsT19
  simp only [List.Forall]; repeat' constructor

theorem opsT20_sub : (opsT20 (F := F)).Forall fun op => op.bufs ⊆ tcRefs τ sig := by
  unfold opsT20
  exact ⟨unary_bufs_sub .., unary_bufs_sub .., reshape_bufs_sub .., unary_bufs_sub .., binary_bufs_sub .., binary_bufs_sub ..⟩
theorem opsT20_fresh : (opsT20 (F := F)).Forall fun op => op.fresh = ∅ := by
  unfold opsT20
  simp only [List.Forall]; repeat' constructor

theorem opsT21_sub : (opsT21 (F := F)).Forall fun op => op.bufs ⊆ tcRefs τ sig := by
  unfold opsT21
  exact ⟨unary_bufs_sub .., unary_bufs_sub .., reshape_bufs_sub .., unary_bufs_sub .., binary_bufs_sub .., binary_bufs_sub ..⟩
theorem opsT21_fresh : (opsT21 (F := F)).Forall fun op => op.fresh = ∅ := by
  unfold opsT21
  simp only [List.Forall]; repeat' constructor

theorem opsT22_sub : (opsT22 (F := F)).Forall fun op => op.bufs ⊆ tcRefs τ sig := by
  unfold opsT22
  exact ⟨unary_bufs_sub .., unary_bufs_sub .., reshape_bufs_sub .., unary_bufs_sub .., binary_bufs_sub .., binary_bufs_sub ..⟩
theorem opsT22_fresh : (opsT22 (F := F)).Forall fun op => op.fresh = ∅ := by
  unfold opsT22
  simp only [List.Forall]; repeat' constructor

theorem opsT23_sub : (opsT23 (F := F)).Forall fun op => op.bufs ⊆ tcRefs τ sig := by
  unfold opsT23
  exact ⟨unary_bufs_sub .., unary_bufs_sub .., reshape_bufs_sub .., unary_bufs_sub .., binary_bufs_sub .., binary_bufs_sub ..⟩
theorem opsT23_fresh : (opsT23 (F := F)).Forall fun op => op.fresh = ∅ := by
  unfold opsT23
  simp only [List.Forall]; repeat' constructor

theorem opsT24_sub : (opsT24 (F := F)).Forall fun op => op.bufs ⊆ tcRefs τ sig := by
  unfold opsT24
  exact ⟨unary_bufs_sub .., unary_bufs_sub .., reshape_bufs_sub .., unary_bufs_sub .., binary_bufs_sub .., binary_bufs_sub ..⟩
theorem opsT24_fresh : (opsT24 (F := F)).Forall fun op => op.fresh = ∅ := by
  unfold opsT24
  simp only [List.Forall]; repeat' constructor

theorem ops_sub : (ops (F := F)).Forall fun op => op.bufs ⊆ tcRefs τ sig := by
  refine forall_flatten ?_
  unfold chunks
  exact ⟨opsA_sub, opsPad_sub, opsB_sub, opsT0_sub, opsT1_sub, opsT2_sub, opsT3_sub, opsT4_sub, opsT5_sub, opsT6_sub, opsT7_sub, opsT8_sub, opsT9_sub, opsT10_sub, opsT11_sub, opsT12_sub, opsT13_sub, opsT14_sub, opsT15_sub, opsT16_sub, opsT17_sub, opsT18_sub, opsT19_sub, opsT20_sub, opsT21_sub, opsT22_sub, opsT23_sub, opsT24_sub⟩

theorem ops_fresh : ∀ op ∈ (ops (F := F)), op.fresh = ∅ := by
  refine List.forall_iff_forall_mem.mp (forall_flatten ?_)
  unfold chunks
  exact ⟨opsA_fresh, opsPad_fresh, opsB_fresh, opsT0_fresh, opsT1_fresh, opsT2_fresh, opsT3_fresh, opsT4_fresh, opsT5_fresh, opsT6_fresh, opsT7_fresh, opsT8_fresh, opsT9_fresh, opsT10_fresh, opsT11_fresh, opsT12_fresh, opsT13_fresh, opsT14_fresh, opsT15_fresh, opsT16_fresh, opsT17_fresh, opsT18_fresh, opsT19_fresh, opsT20_fresh, opsT21_fresh, opsT22_fresh, opsT23_fresh, opsT24_fresh⟩

/-! ## @main is the line -/

/-- @main is the chain of the stretches: both sides unfold to the same sequence of operations. -/
theorem main_chain (c : Dev nD) : main (F := F) c = (Pipeline.chain ((chunks (F := F)).map seq) :
    Prog (TpuEff nD τ sig (Elt F) (Pipeline.Sig Λ₀ (Fin 0) fun p => (pcfgs (F := F) p).Adm) .tc) PUnit) := by
  chain_rfl

theorem main_eq (c : Dev nD) : main (F := F) c = seq ops := (main_chain c).trans (chain_map_seq _)

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.LibSsaLine.lean ====
/-
  Reading a straight line of host operations in single-assignment form.

  When every operation of a line writes exactly one buffer (the list `outs`, in order), a buffer that no operation from
  position k on writes holds, at the end, what it held after the first k operations.  So the buffer written by operation k
  ends at that operation's function of its operands' final contents, provided no later operation writes it and no operation
  from k on writes an operand.  Both provisos are membership questions about the list of written buffers.
-/
import Idealize.ShloMosaic.Lib.StableHlo.Run

noncomputable section

namespace Cert.RunLib

open Idealize.ShloMosaic Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

theorem forall_append' {α : Type*} {p : α → Prop} {l₁ l₂ : List α} (h₁ : l₁.Forall p) (h₂ : l₂.Forall p) :
    (l₁ ++ l₂).Forall p :=
  List.forall_iff_forall_mem.mpr fun a ha =>
    (List.mem_append.mp ha).elim (List.forall_iff_forall_mem.mp h₁ a) (List.forall_iff_forall_mem.mp h₂ a)

/-- `outs` lists, in order, the one buffer each operation writes. -/
def Writes (ops : List (HloOp τ sig Val)) (outs : List (Ref sig .tc)) : Prop :=
  List.Forall₂ (fun op y => op.writes = {Proc.devRef (τ := τ) .tc y}) ops outs

theorem Writes.append {l₁ l₂ : List (HloOp τ sig Val)} {o₁ o₂ : List (Ref sig .tc)}
    (h₁ : Writes l₁ o₁) (h₂ : Writes l₂ o₂) : Writes (l₁ ++ l₂) (o₁ ++ o₂) := by
  unfold Writes at *
  induction h₁ with
  | nil => exact h₂
  | cons hab _ ih => exact List.Forall₂.cons hab ih

/-- A buffer the line never writes keeps its contents. -/
theorem Writes.not_written {ops : List (HloOp τ sig Val)} {outs : List (Ref sig .tc)} (h : Writes ops outs)
    {r : Ref sig .tc} (hr : r ∉ outs) (V : Valuation τ sig Val) :
    after ops V (Proc.devRef .tc r) = V (Proc.devRef .tc r) := by
  unfold Writes at h
  induction h generalizing V with
  | nil => rfl
  | @cons op y ops' outs' hab _ ih =>
    rw [after_cons, ih (fun hm => hr (List.mem_cons_of_mem _ hm))]
    refine HloOp.result_of_not_mem _ _ ?_
    rw [hab, Finset.mem_singleton]
    exact devRef_ne_of_ne (fun e => hr (e ▸ List.mem_cons_self))

/-- A buffer no operation from position `k` on writes ends as it was after the first `k` operations. -/
theorem Writes.after_take {ops : List (HloOp τ sig Val)} {outs : List (Ref sig .tc)} (h : Writes ops outs) (k : Nat)
    {r : Ref sig .tc} (hr : r ∉ outs.drop k) (V : Valuation τ sig Val) :
    after ops V (Proc.devRef .tc r) = after (ops.take k) V (Proc.devRef .tc r) := by
  have hd : Writes (ops.drop k) (outs.drop k) := List.forall₂_drop k h
  conv_lhs => rw [← List.take_append_drop k ops]
  rw [after_append]
  exact hd.not_written hr _

theorem after_take_succ {ops : List (HloOp τ sig Val)} (k : Nat) (op : HloOp τ sig Val) (hk : ops[k]? = some op)
    (V : Valuation τ sig Val) : after (ops.take (k + 1)) V = op.result (after (ops.take k) V) := by
  rw [List.take_succ, hk, after_append]
  rfl

section At

variable {ops : List (HloOp τ sig Val)} {outs : List (Ref sig .tc)} (h : Writes ops outs) (k : Nat)
include h

theorem Writes.nullary_at (y : Ref sig .tc) (v : y.ty.Contents Val) (hy)
    (hk : ops[k]? = some (nullary y v hy)) (hy' : y ∉ outs.drop (k + 1)) (V : Valuation τ sig Val) :
    after ops V (Proc.devRef .tc y) = v := by
  rw [h.after_take (k + 1) hy', after_take_succ k _ hk]
  exact nullary_result y v hy _

theorem Writes.unary_at (x y : Ref sig .tc) (f : x.ty.Contents Val → y.ty.Contents Val) (hx hy)
    (hk : ops[k]? = some (unary x y f hx hy)) (hy' : y ∉ outs.drop (k + 1)) (hx' : x ∉ outs.drop k)
    (V : Valuation τ sig Val) :
    after ops V (Proc.devRef .tc y) = f (after ops V (Proc.devRef .tc x)) := by
  rw [h.after_take (k + 1) hy', after_take_succ k _ hk, h.after_take k hx']
  exact unary_result x y f hx hy _

theorem Writes.binary_at (a b y : Ref sig .tc) (f : a.ty.Contents Val → b.ty.Contents Val → y.ty.Contents Val) (ha hb hy)
    (hk : ops[k]? = some (binary a b y f ha hb hy)) (hy' : y ∉ outs.drop (k + 1))
    (ha' : a ∉ outs.drop k) (hb' : b ∉ outs.drop k) (V : Valuation τ sig Val) :
    after ops V (Proc.devRef .tc y) = f (after ops V (Proc.devRef .tc a)) (after ops V (Proc.devRef .tc b)) := by
  rw [h.after_take (k + 1) hy', after_take_succ k _ hk, h.after_take k ha', h.after_take k hb']
  exact binary_result a b y f ha hb hy _

theorem Writes.ternary_at (c a b y : Ref sig .tc)
    (f : c.ty.Contents Val → a.ty.Contents Val → b.ty.Contents Val → y.ty.Contents Val) (hc ha hb hy)
    (hk : ops[k]? = some (ternary c a b y f hc ha hb hy)) (hy' : y ∉ outs.drop (k + 1))
    (hc' : c ∉ outs.drop k) (ha' : a ∉ outs.drop k) (hb' : b ∉ outs.drop k) (V : Valuation τ sig Val) :
    after ops V (Proc.devRef .tc y)
      = f (after ops V (Proc.devRef .tc c)) (after ops V (Proc.devRef .tc a)) (after ops V (Proc.devRef .tc b)) := by
  rw [h.after_take (k + 1) hy', after_take_succ k _ hk, h.after_take k hc', h.after_take k ha', h.after_take k hb']
  exact ternary_result c a b y f hc ha hb hy _

theorem Writes.nary_at {n : Nat} (xs : Fin n → Ref sig .tc) (y : Ref sig .tc)
    (f : ((j : Fin n) → (xs j).ty.Contents Val) → y.ty.Contents Val) (hxs hy)
    (hk : ops[k]? = some (nary xs y f hxs hy)) (hy' : y ∉ outs.drop (k + 1))
    (hx' : ∀ j, xs j ∉ outs.drop k) (V : Valuation τ sig Val) :
    after ops V (Proc.devRef .tc y) = f (fun j => after ops V (Proc.devRef .tc (xs j))) := by
  rw [h.after_take (k + 1) hy', after_take_succ k _ hk]
  have e : (fun j => after ops V (Proc.devRef .tc (xs j))) = fun j => after (ops.take k) V (Proc.devRef .tc (xs j)) :=
    funext fun j => h.after_take k (hx' j) V
  rw [e]
  exact nary_result xs y f hxs hy _

end At

/-! ### Single assignment by increasing buffer numbers

When the written buffers' numbers increase along the line, the two provisos reduce to comparisons of numbers: the buffer
written at position `k` is not written again, and a buffer with a smaller number is not written from position `k` on. -/

/-- A buffer's number within its memory space. -/
def key (r : Ref sig .tc) : Nat := r.idx.val

theorem sorted_split {outs : List (Ref sig .tc)} (hs : (outs.map key).Pairwise (· < ·)) (k : Nat) (y : Ref sig .tc)
    (hy : outs[k]? = some y) : ∀ z ∈ outs.drop (k + 1), key y < key z := by
  have hk : k < outs.length := by
    rcases Nat.lt_or_ge k outs.length with h | h
    · exact h
    · rw [List.getElem?_eq_none h] at hy; exact absurd hy (by simp)
  have hyk : outs[k] = y := by
    rw [List.getElem?_eq_getElem hk] at hy; exact Option.some.inj hy
  have e : outs = outs.take k ++ y :: outs.drop (k + 1) := by
    rw [← hyk, List.getElem_cons_drop_succ_eq_drop hk, List.take_append_drop]
  intro z hz
  rw [e, List.map_append, List.map_cons, List.pairwise_append] at hs
  have h2 := hs.2.1
  rw [List.pairwise_cons] at h2
  exact h2.1 (key z) (List.mem_map_of_mem hz)

theorem not_mem_drop_succ {outs : List (Ref sig .tc)} (hs : (outs.map key).Pairwise (· < ·)) (k : Nat) (y : Ref sig .tc)
    (hy : outs[k]? = some y) : y ∉ outs.drop (k + 1) :=
  fun hm => Nat.lt_irrefl _ (sorted_split hs k y hy y hm)

theorem not_mem_drop_of_lt {outs : List (Ref sig .tc)} (hs : (outs.map key).Pairwise (· < ·)) (k : Nat) (y : Ref sig .tc)
    (hy : outs[k]? = some y) (x : Ref sig .tc) (hx : key x < key y) : x ∉ outs.drop k := by
  have hk : k < outs.length := by
    rcases Nat.lt_or_ge k outs.length with h | h
    · exact h
    · rw [List.getElem?_eq_none h] at hy; exact absurd hy (by simp)
  have hyk : outs[k] = y := by
    rw [List.getElem?_eq_getElem hk] at hy; exact Option.some.inj hy
  intro hm
  rw [← List.getElem_cons_drop_succ_eq_drop hk, hyk, List.mem_cons] at hm
  rcases hm with rfl | hm
  · exact Nat.lt_irrefl _ hx
  · exact Nat.lt_asymm hx (sorted_split hs k y hy x hm)

/-- Consecutive entries increase. -/
def increasing : List Nat → Bool
  | [] => true
  | [_] => true
  | a :: b :: l => decide (a < b) && increasing (b :: l)

theorem pairwise_of_increasing : ∀ (l : List Nat), increasing l = true → l.Pairwise (· < ·)
  | [], _ => List.Pairwise.nil
  | [_], _ => List.pairwise_singleton _ _
  | a :: b :: l, h => by
    simp only [increasing, Bool.and_eq_true, decide_eq_true_eq] at h
    have ih := pairwise_of_increasing (b :: l) h.2
    refine List.Pairwise.cons ?_ ih
    intro z hz
    rcases List.mem_cons.mp hz with rfl | hz
    · exact h.1
    · exact Nat.lt_trans h.1 ((List.pairwise_cons.mp ih).1 z hz)

/-- A line in single-assignment form with increasing buffer numbers. -/
structure Ssa (ops : List (HloOp τ sig Val)) (outs : List (Ref sig .tc)) : Prop where
  writes : Writes ops outs
  sorted : (outs.map key).Pairwise (· < ·)

section SsaAt

variable {ops : List (HloOp τ sig Val)} {outs : List (Ref sig .tc)} (h : Ssa ops outs) (k : Nat)
include h

theorem Ssa.nullary_at (y : Ref sig .tc) (v : y.ty.Contents Val) (hy)
    (hk : ops[k]? = some (nullary y v hy)) (ho : outs[k]? = some y) (V : Valuation τ sig Val) :
    after ops V (Proc.devRef .tc y) = v :=
  h.writes.nullary_at k y v hy hk (not_mem_drop_succ h.sorted k y ho) V

theorem Ssa.unary_at (x y : Ref sig .tc) (f : x.ty.Contents Val → y.ty.Contents Val) (hx hy)
    (hk : ops[k]? = some (unary x y f hx hy)) (ho : outs[k]? = some y) (hx' : key x < key y)
    (V : Valuation τ sig Val) :
    after ops V (Proc.devRef .tc y) = f (after ops V (Proc.devRef .tc x)) :=
  h.writes.unary_at k x y f hx hy hk (not_mem_drop_succ h.sorted k y ho) (not_mem_drop_of_lt h.sorted k y ho x hx') V

theorem Ssa.binary_at (a b y : Ref sig .tc) (f : a.ty.Contents Val → b.ty.Contents Val → y.ty.Contents Val) (ha hb hy)
    (hk : ops[k]? = some (binary a b y f ha hb hy)) (ho : outs[k]? = some y)
    (ha' : key a < key y) (hb' : key b < key y) (V : Valuation τ sig Val) :
    after ops V (Proc.devRef .tc y) = f (after ops V (Proc.devRef .tc a)) (after ops V (Proc.devRef .tc b)) :=
  h.writes.binary_at k a b y f ha hb hy hk (not_mem_drop_succ h.sorted k y ho)
    (not_mem_drop_of_lt h.sorted k y ho a ha') (not_mem_drop_of_lt h.sorted k y ho b hb') V

theorem Ssa.ternary_at (c a b y : Ref sig .tc)
    (f : c.ty.Contents Val → a.ty.Contents Val → b.ty.Contents Val → y.ty.Contents Val) (hc ha hb hy)
    (hk : ops[k]? = some (ternary c a b y f hc ha hb hy)) (ho : outs[k]? = some y)
    (hc' : key c < key y) (ha' : key a < key y) (hb' : key b < key y) (V : Valuation τ sig Val) :
    after ops V (Proc.devRef .tc y)
      = f (after ops V (Proc.devRef .tc c)) (after ops V (Proc.devRef .tc a)) (after ops V (Proc.devRef .tc b)) :=
  h.writes.ternary_at k c a b y f hc ha hb hy hk (not_mem_drop_succ h.sorted k y ho)
    (not_mem_drop_of_lt h.sorted k y ho c hc') (not_mem_drop_of_lt h.sorted k y ho a ha')
    (not_mem_drop_of_lt h.sorted k y ho b hb') V

theorem Ssa.nary_at {n : Nat} (xs : Fin n → Ref sig .tc) (y : Ref sig .tc)
    (f : ((j : Fin n) → (xs j).ty.Contents Val) → y.ty.Contents Val) (hxs hy)
    (hk : ops[k]? = some (nary xs y f hxs hy)) (ho : outs[k]? = some y)
    (hx' : ∀ j, key (xs j) < key y) (V : Valuation τ sig Val) :
    after ops V (Proc.devRef .tc y) = f (fun j => after ops V (Proc.devRef .tc (xs j))) :=
  h.writes.nary_at k xs y f hxs hy hk (not_mem_drop_succ h.sorted k y ho)
    (fun j => not_mem_drop_of_lt h.sorted k y ho (xs j) (hx' j)) V

end SsaAt

end Cert.RunLib

end
-- ==== Proof.RefRun.lean ====
/-
  The reference's run, read: its result buffer ends holding the last running sum, its arguments unchanged.

  Each stretch of the line is read by itself, from any contents `W` of the buffers: the head leaves the padded
  image, the array of zeros, and the arguments as they were; a tap's six operations leave, in the buffer of their
  sum, the accumulated buffer plus the tap's product of the padded image's and the weights' buffers, and leave
  every buffer they do not write as it was (each operation writes one buffer, so that is a question of membership
  in the list of written buffers). Carried along the 25 taps this gives the result buffer at `hsum24` of the
  padded first argument and the second; and no operation of the line writes an argument.
-/
import proofs.«117650_j18502719111479_2_alg».proof.Proof.RefOps
import proofs.«117650_j18502719111479_2_alg».proof.Proof.HostSum
import proofs.«117650_j18502719111479_2_alg».proof.Proof.LibSsaLine
import Idealize.ShloMosaic.Lib.StableHlo.Run

noncomputable section

namespace Cert.ReferenceIdeal.Hand

open Cert.ReferenceIdeal Cert.ReferenceIdeal.Gen Cert.ReferenceIdeal.Sum Cert.RunLib
open Idealize.ShloMosaic Idealize.ShloMosaic.TcCoe Idealize.SL.Sem Idealize.ShloMosaic.StableHlo

/-! ## The buffers each stretch writes -/

def outsA : List (Ref sig .tc) := [main_c]
theorem opsA_writes : Writes (τ := τ) (opsA (F := Ideal)) outsA := by
  unfold Writes opsA outsA
  exact .cons rfl (.nil)

def outsPad : List (Ref sig .tc) := [main_call0_v0, main_v0]
theorem opsPad_writes : Writes (τ := τ) (opsPad (F := Ideal)) outsPad := by
  unfold Writes opsPad outsPad
  exact .cons rfl (.cons rfl (.nil))

def outsB : List (Ref sig .tc) := [main_cst, main_v1]
theorem opsB_writes : Writes (τ := τ) (opsB (F := Ideal)) outsB := by
  unfold Writes opsB outsB
  exact .cons rfl (.cons rfl (.nil))

def outsT0 : List (Ref sig .tc) := [main_v2, main_v3, main_v4, main_v5, main_v6, main_v7]
theorem opsT0_writes : Writes (τ := τ) (opsT0 (F := Ideal)) outsT0 := by
  unfold Writes opsT0 outsT0
  exact .cons rfl (.cons rfl (.cons rfl (.cons rfl (.cons rfl (.cons rfl (.nil))))))

def outsT1 : List (Ref sig .tc) := [main_v8, main_v9, main_v10, main_v11, main_v12, main_v13]
theorem opsT1_writes : Writes (τ := τ) (opsT1 (F := Ideal)) outsT1 := by
  unfold Writes opsT1 outsT1
  exact .cons rfl (.cons rfl (.cons rfl (.cons rfl (.cons rfl (.cons rfl (.nil))))))

def outsT2 : List (Ref sig .tc) := [main_v14, main_v15, main_v16, main_v17, main_v18, main_v19]
theorem opsT2_writes : Writes (τ := τ) (opsT2 (F := Ideal)) outsT2 := by
  unfold Writes opsT2 outsT2
  exact .cons rfl (.cons rfl (.cons rfl (.cons rfl (.cons rfl (.cons rfl (.nil))))))

def outsT3 : List (Ref sig .tc) := [main_v20, main_v21, main_v22, main_v23, main_v24, main_v25]
theorem opsT3_writes : Writes (τ := τ) (opsT3 (F := Ideal)) outsT3 := by
  unfold Writes opsT3 outsT3
  exact .cons rfl (.cons rfl (.cons rfl (.cons rfl (.cons rfl (.cons rfl (.nil))))))

def outsT4 : List (Ref sig .tc) := [main_v26, main_v27, main_v28, main_v29, main_v30, main_v31]
theorem opsT4_writes : Writes (τ := τ) (opsT4 (F := Ideal)) outsT4 := by
  unfold Writes opsT4 outsT4
  exact .cons rfl (.cons rfl (.cons rfl (.cons rfl (.cons rfl (.cons rfl (.nil))))))

def outsT5 : List (Ref sig .tc) := [main_v32, main_v33, main_v34, main_v35, main_v36, main_v37]
theorem opsT5_writes : Writes (τ := τ) (opsT5 (F := Ideal)) outsT5 := by
  unfold Writes opsT5 outsT5
  exact .cons rfl (.cons rfl (.cons rfl (.cons rfl (.cons rfl (.cons rfl (.nil))))))

def outsT6 : List (Ref sig .tc) := [main_v38, main_v39, main_v40, main_v41, main_v42, main_v43]
theorem opsT6_writes : Writes (τ := τ) (opsT6 (F := Ideal)) outsT6 := by
  unfold Writes opsT6 outsT6
  exact .cons rfl (.cons rfl (.cons rfl (.cons rfl (.cons rfl (.cons rfl (.nil))))))

def outsT7 : List (Ref sig .tc) := [main_v44, main_v45, main_v46, main_v47, main_v48, main_v49]
theorem opsT7_writes : Writes (τ := τ) (opsT7 (F := Ideal)) outsT7 := by
  unfold Writes opsT7 outsT7
  exact .cons rfl (.cons rfl (.cons rfl (.cons rfl (.cons rfl (.cons rfl (.nil))))))

def outsT8 : List (Ref sig .tc) := [main_v50, main_v51, main_v52, main_v53, main_v54, main_v55]
theorem opsT8_writes : Writes (τ := τ) (opsT8 (F := Ideal)) outsT8 := by
  unfold Writes opsT8 outsT8
  exact .cons rfl (.cons rfl (.cons rfl (.cons rfl (.cons rfl (.cons rfl (.nil))))))

def outsT9 : List (Ref sig .tc) := [main_v56, main_v57, main_v58, main_v59, main_v60, main_v61]
theorem opsT9_writes : Writes (τ := τ) (opsT9 (F := Ideal)) outsT9 := by
  unfold Writes opsT9 outsT9
  exact .cons rfl (.cons rfl (.cons rfl (.cons rfl (.cons rfl (.cons rfl (.nil))))))

def outsT10 : List (Ref sig .tc) := [main_v62, main_v63, main_v64, main_v65, main_v66, main_v67]
theorem opsT10_writes : Writes (τ := τ) (opsT10 (F := Ideal)) outsT10 := by
  unfold Writes opsT10 outsT10
  exact .cons rfl (.cons rfl (.cons rfl (.cons rfl (.cons rfl (.cons rfl (.nil))))))

def outsT11 : List (Ref sig .tc) := [main_v68, main_v69, main_v70, main_v71, main_v72, main_v73]
theorem opsT11_writes : Writes (τ := τ) (opsT11 (F := Ideal)) outsT11 := by
  unfold Writes opsT11 outsT11
  exact .cons rfl (.cons rfl (.cons rfl (.cons rfl (.cons rfl (.cons rfl (.nil))))))

def outsT12 : List (Ref sig .tc) := [main_v74, main_v75, main_v76, main_v77, main_v78, main_v79]
theorem opsT12_writes : Writes (τ := τ) (opsT12 (F := Ideal)) outsT12 := by
  unfold Writes opsT12 outsT12
  exact .cons rfl (.cons rfl (.cons rfl (.cons rfl (.cons rfl (.cons rfl (.nil))))))

def outsT13 : List (Ref sig .tc) := [main_v80, main_v81, main_v82, main_v83, main_v84, main_v85]
theorem opsT13_writes : Writes (τ := τ) (opsT13 (F := Ideal)) outsT13 := by
  unfold Writes opsT13 outsT13
  exact .cons rfl (.cons rfl (.cons rfl (.cons rfl (.cons rfl (.cons rfl (.nil))))))

def outsT14 : List (Ref sig .tc) := [main_v86, main_v87, main_v88, main_v89, main_v90, main_v91]
theorem opsT14_writes : Writes (τ := τ) (opsT14 (F := Ideal)) outsT14 := by
  unfold Writes opsT14 outsT14
  exact .cons rfl (.cons rfl (.cons rfl (.cons rfl (.cons rfl (.cons rfl (.nil))))))

def outsT15 : List (Ref sig .tc) := [main_v92, main_v93, main_v94, main_v95, main_v96, main_v97]
theorem opsT15_writes : Writes (τ := τ) (opsT15 (F := Ideal)) outsT15 := by
  unfold Writes opsT15 outsT15
  exact .cons rfl (.cons rfl (.cons rfl (.cons rfl (.cons rfl (.cons rfl (.nil))))))

def outsT16 : List (Ref sig .tc) := [main_v98, main_v99, main_v100, main_v101, main_v102, main_v103]
theorem opsT16_writes : Writes (τ := τ) (opsT16 (F := Ideal)) outsT16 := by
  unfold Writes opsT16 outsT16
  exact .cons rfl (.cons rfl (.cons rfl (.cons rfl (.cons rfl (.cons rfl (.nil))))))

def outsT17 : List (Ref sig .tc) := [main_v104, main_v105, main_v106, main_v107, main_v108, main_v109]
theorem opsT17_writes : Writes (τ := τ) (opsT17 (F := Ideal)) outsT17 := by
  unfold Writes opsT17 outsT17
  exact .cons rfl (.cons rfl (.cons rfl (.cons rfl (.cons rfl (.cons rfl (.nil))))))

def outsT18 : List (Ref sig .tc) := [main_v110, main_v111, main_v112, main_v113, main_v114, main_v115]
theorem opsT18_writes : Writes (τ := τ) (opsT18 (F := Ideal)) outsT18 := by
  unfold Writes opsT18 outsT18
  exact .cons rfl (.cons rfl (.cons rfl (.cons rfl (.cons rfl (.cons rfl (.nil))))))

def outsT19 : List (Ref sig .tc) := [main_v116, main_v117, main_v118, main_v119, main_v120, main_v121]
theorem opsT19_writes : Writes (τ := τ) (opsT19 (F := Ideal)) outsT19 := by
  unfold Writes opsT19 outsT19
  exact .cons rfl (.cons rfl (.cons rfl (.cons rfl (.cons rfl (.cons rfl (.nil))))))

def outsT20 : List (Ref sig .tc) := [main_v122, main_v123, main_v124, main_v125, main_v126, main_v127]
theorem opsT20_writes : Writes (τ := τ) (opsT20 (F := Ideal)) outsT20 := by
  unfold Writes opsT20 outsT20
  exact .cons rfl (.cons rfl (.cons rfl (.cons rfl (.cons rfl (.cons rfl (.nil))))))

def outsT21 : List (Ref sig .tc) := [main_v128, main_v129, main_v130, main_v131, main_v132, main_v133]
theorem opsT21_writes : Writes (τ := τ) (opsT21 (F := Ideal)) outsT21 := by
  unfold Writes opsT21 outsT21
  exact .cons rfl (.cons rfl (.cons rfl (.cons rfl (.cons rfl (.cons rfl (.nil))))))

def outsT22 : List (Ref sig .tc) := [main_v134, main_v135, main_v136, main_v137, main_v138, main_v139]
theorem opsT22_writes : Writes (τ := τ) (opsT22 (F := Ideal)) outsT22 := by
  unfold Writes opsT22 outsT22
  exact .cons rfl (.cons rfl (.cons rfl (.cons rfl (.cons rfl (.cons rfl (.nil))))))

def outsT23 : List (Ref sig .tc) := [main_v140, main_v141, main_v142, main_v143, main_v144, main_v145]
theorem opsT23_writes : Writes (τ := τ) (opsT23 (F := Ideal)) outsT23 := by
  unfold Writes opsT23 outsT23
  exact .cons rfl (.cons rfl (.cons rfl (.cons rfl (.cons rfl (.cons rfl (.nil))))))

def outsT24 : List (Ref sig .tc) := [main_v146, main_v147, main_v148, main_v149, main_v150, main_v151]
theorem opsT24_writes : Writes (τ := τ) (opsT24 (F := Ideal)) outsT24 := by
  unfold Writes opsT24 outsT24
  exact .cons rfl (.cons rfl (.cons rfl (.cons rfl (.cons rfl (.cons rfl (.nil))))))

/-- The buffers the whole line writes, in order. -/
def outs : List (Ref sig .tc) :=
  List.flatten [outsA, outsPad, outsB, outsT0, outsT1, outsT2, outsT3, outsT4, outsT5, outsT6, outsT7, outsT8, outsT9, outsT10, outsT11, outsT12, outsT13, outsT14, outsT15, outsT16, outsT17, outsT18, outsT19, outsT20, outsT21, outsT22, outsT23, outsT24]

theorem ops_writes : Writes (τ := τ) (ops (F := Ideal)) outs := by
  unfold ops chunks outs
  simp only [List.flatten_cons, List.flatten_nil]
  exact Writes.append opsA_writes (Writes.append opsPad_writes (Writes.append opsB_writes (Writes.append opsT0_writes (Writes.append opsT1_writes (Writes.append opsT2_writes (Writes.append opsT3_writes (Writes.append opsT4_writes (Writes.append opsT5_writes (Writes.append opsT6_writes (Writes.append opsT7_writes (Writes.append opsT8_writes (Writes.append opsT9_writes (Writes.append opsT10_writes (Writes.append opsT11_writes (Writes.append opsT12_writes (Writes.append opsT13_writes (Writes.append opsT14_writes (Writes.append opsT15_writes (Writes.append opsT16_writes (Writes.append opsT17_writes (Writes.append opsT18_writes (Writes.append opsT19_writes (Writes.append opsT20_writes (Writes.append opsT21_writes (Writes.append opsT22_writes (Writes.append opsT23_writes (Writes.append opsT24_writes (List.Forall₂.nil))))))))))))))))))))))))))))

/-- No operation writes the first argument, -/
theorem kept0 (V : Valuation τ sig (Elt Ideal)) :
    after (ops (F := Ideal)) V (Proc.devRef .tc main_arg0) = V (Proc.devRef .tc main_arg0) :=
  ops_writes.not_written (by decide) V

/-- nor the second. -/
theorem kept1 (V : Valuation τ sig (Elt Ideal)) :
    after (ops (F := Ideal)) V (Proc.devRef .tc main_arg1) = V (Proc.devRef .tc main_arg1) :=
  ops_writes.not_written (by decide) V

/-! ## The head: the padded image and the array of zeros -/

section Head
variable (V : Valuation τ sig (Elt Ideal))

theorem head_v0 : after (opsB (F := Ideal)) (after opsPad (after opsA V)) (Proc.devRef .tc main_v0) = xpad (V (Proc.devRef .tc main_arg0)) := by
  unfold opsB opsPad opsA
  after_results
  rfl

theorem head_v1 : after (opsB (F := Ideal)) (after opsPad (after opsA V)) (Proc.devRef .tc main_v1) = zeros := by
  unfold opsB opsPad opsA
  after_results
  rfl

theorem head_arg1 : after (opsB (F := Ideal)) (after opsPad (after opsA V)) (Proc.devRef .tc main_arg1) = V (Proc.devRef .tc main_arg1) := by
  rw [opsB_writes.not_written (by decide), opsPad_writes.not_written (by decide), opsA_writes.not_written (by decide)]

end Head

/-! ## One tap: the sum's buffer after the six operations -/

section Taps
variable (W : Valuation τ sig (Elt Ideal))

theorem T0_res : after (opsT0 (F := Ideal)) W (Proc.devRef .tc main_v7)
    = addf (W (Proc.devRef .tc main_v1)) (prod0 (W (Proc.devRef .tc main_v0)) (W (Proc.devRef .tc main_arg1))) := by
  unfold opsT0
  after_results
  rfl

theorem T1_res : after (opsT1 (F := Ideal)) W (Proc.devRef .tc main_v13)
    = addf (W (Proc.devRef .tc main_v7)) (prod1 (W (Proc.devRef .tc main_v0)) (W (Proc.devRef .tc main_arg1))) := by
  unfold opsT1
  after_results
  rfl

theorem T2_res : after (opsT2 (F := Ideal)) W (Proc.devRef .tc main_v19)
    = addf (W (Proc.devRef .tc main_v13)) (prod2 (W (Proc.devRef .tc main_v0)) (W (Proc.devRef .tc main_arg1))) := by
  unfold opsT2
  after_results
  rfl

theorem T3_res : after (opsT3 (F := Ideal)) W (Proc.devRef .tc main_v25)
    = addf (W (Proc.devRef .tc main_v19)) (prod3 (W (Proc.devRef .tc main_v0)) (W (Proc.devRef .tc main_arg1))) := by
  unfold opsT3
  after_results
  rfl

theorem T4_res : after (opsT4 (F := Ideal)) W (Proc.devRef .tc main_v31)
    = addf (W (Proc.devRef .tc main_v25)) (prod4 (W (Proc.devRef .tc main_v0)) (W (Proc.devRef .tc main_arg1))) := by
  unfold opsT4
  after_results
  rfl

theorem T5_res : after (opsT5 (F := Ideal)) W (Proc.devRef .tc main_v37)
    = addf (W (Proc.devRef .tc main_v31)) (prod5 (W (Proc.devRef .tc main_v0)) (W (Proc.devRef .tc main_arg1))) := by
  unfold opsT5
  after_results
  rfl

theorem T6_res : after (opsT6 (F := Ideal)) W (Proc.devRef .tc main_v43)
    = addf (W (Proc.devRef .tc main_v37)) (prod6 (W (Proc.devRef .tc main_v0)) (W (Proc.devRef .tc main_arg1))) := by
  unfold opsT6
  after_results
  rfl

theorem T7_res : after (opsT7 (F := Ideal)) W (Proc.devRef .tc main_v49)
    = addf (W (Proc.devRef .tc main_v43)) (prod7 (W (Proc.devRef .tc main_v0)) (W (Proc.devRef .tc main_arg1))) := by
  unfold opsT7
  after_results
  rfl

theorem T8_res : after (opsT8 (F := Ideal)) W (Proc.devRef .tc main_v55)
    = addf (W (Proc.devRef .tc main_v49)) (prod8 (W (Proc.devRef .tc main_v0)) (W (Proc.devRef .tc main_arg1))) := by
  unfold opsT8
  after_results
  rfl

theorem T9_res : after (opsT9 (F := Ideal)) W (Proc.devRef .tc main_v61)
    = addf (W (Proc.devRef .tc main_v55)) (prod9 (W (Proc.devRef .tc main_v0)) (W (Proc.devRef .tc main_arg1))) := by
  unfold opsT9
  after_results
  rfl

theorem T10_res : after (opsT10 (F := Ideal)) W (Proc.devRef .tc main_v67)
    = addf (W (Proc.devRef .tc main_v61)) (prod10 (W (Proc.devRef .tc main_v0)) (W (Proc.devRef .tc main_arg1))) := by
  unfold opsT10
  after_results
  rfl

theorem T11_res : after (opsT11 (F := Ideal)) W (Proc.devRef .tc main_v73)
    = addf (W (Proc.devRef .tc main_v67)) (prod11 (W (Proc.devRef .tc main_v0)) (W (Proc.devRef .tc main_arg1))) := by
  unfold opsT11
  after_results
  rfl

theorem T12_res : after (opsT12 (F := Ideal)) W (Proc.devRef .tc main_v79)
    = addf (W (Proc.devRef .tc main_v73)) (prod12 (W (Proc.devRef .tc main_v0)) (W (Proc.devRef .tc main_arg1))) := by
  unfold opsT12
  after_results
  rfl

theorem T13_res : after (opsT13 (F := Ideal)) W (Proc.devRef .tc main_v85)
    = addf (W (Proc.devRef .tc main_v79)) (prod13 (W (Proc.devRef .tc main_v0)) (W (Proc.devRef .tc main_arg1))) := by
  unfold opsT13
  after_results
  rfl

theorem T14_res : after (opsT14 (F := Ideal)) W (Proc.devRef .tc main_v91)
    = addf (W (Proc.devRef .tc main_v85)) (prod14 (W (Proc.devRef .tc main_v0)) (W (Proc.devRef .tc main_arg1))) := by
  unfold opsT14
  after_results
  rfl

theorem T15_res : after (opsT15 (F := Ideal)) W (Proc.devRef .tc main_v97)
    = addf (W (Proc.devRef .tc main_v91)) (prod15 (W (Proc.devRef .tc main_v0)) (W (Proc.devRef .tc main_arg1))) := by
  unfold opsT15
  after_results
  rfl

theorem T16_res : after (opsT16 (F := Ideal)) W (Proc.devRef .tc main_v103)
    = addf (W (Proc.devRef .tc main_v97)) (prod16 (W (Proc.devRef .tc main_v0)) (W (Proc.devRef .tc main_arg1))) := by
  unfold opsT16
  after_results
  rfl

theorem T17_res : after (opsT17 (F := Ideal)) W (Proc.devRef .tc main_v109)
    = addf (W (Proc.devRef .tc main_v103)) (prod17 (W (Proc.devRef .tc main_v0)) (W (Proc.devRef .tc main_arg1))) := by
  unfold opsT17
  after_results
  rfl

theorem T18_res : after (opsT18 (F := Ideal)) W (Proc.devRef .tc main_v115)
    = addf (W (Proc.devRef .tc main_v109)) (prod18 (W (Proc.devRef .tc main_v0)) (W (Proc.devRef .tc main_arg1))) := by
  unfold opsT18
  after_results
  rfl

theorem T19_res : after (opsT19 (F := Ideal)) W (Proc.devRef .tc main_v121)
    = addf (W (Proc.devRef .tc main_v115)) (prod19 (W (Proc.devRef .tc main_v0)) (W (Proc.devRef .tc main_arg1))) := by
  unfold opsT19
  after_results
  rfl

theorem T20_res : after (opsT20 (F := Ideal)) W (Proc.devRef .tc main_v127)
    = addf (W (Proc.devRef .tc main_v121)) (prod20 (W (Proc.devRef .tc main_v0)) (W (Proc.devRef .tc main_arg1))) := by
  unfold opsT20
  after_results
  rfl

theorem T21_res : after (opsT21 (F := Ideal)) W (Proc.devRef .tc main_v133)
    = addf (W (Proc.devRef .tc main_v127)) (prod21 (W (Proc.devRef .tc main_v0)) (W (Proc.devRef .tc main_arg1))) := by
  unfold opsT21
  after_results
  rfl

theorem T22_res : after (opsT22 (F := Ideal)) W (Proc.devRef .tc main_v139)
    = addf (W (Proc.devRef .tc main_v133)) (prod22 (W (Proc.devRef .tc main_v0)) (W (Proc.devRef .tc main_arg1))) := by
  unfold opsT22
  after_results
  rfl

theorem T23_res : after (opsT23 (F := Ideal)) W (Proc.devRef .tc main_v145)
    = addf (W (Proc.devRef .tc main_v139)) (prod23 (W (Proc.devRef .tc main_v0)) (W (Proc.devRef .tc main_arg1))) := by
  unfold opsT23
  after_results
  rfl

theorem T24_res : after (opsT24 (F := Ideal)) W (Proc.devRef .tc main_v151)
    = addf (W (Proc.devRef .tc main_v145)) (prod24 (W (Proc.devRef .tc main_v0)) (W (Proc.devRef .tc main_arg1))) := by
  unfold opsT24
  after_results
  rfl

end Taps

/-! ## Along the line -/

/-- The result buffer ends holding the last running sum of the padded first argument and the second. -/
theorem res_eq (V : Valuation τ sig (Elt Ideal)) :
    after (ops (F := Ideal)) V (Proc.devRef .tc main_v151)
      = hsum24 (xpad (V (Proc.devRef .tc main_arg0))) (V (Proc.devRef .tc main_arg1)) := by
  unfold ops chunks
  simp only [List.flatten_cons, List.flatten_nil, StableHlo.after_append, after_nil]
  generalize hW0 : after (opsB (F := Ideal)) (after opsPad (after opsA V)) = W0
  have a0 : W0 (Proc.devRef .tc main_v0) = xpad (V (Proc.devRef .tc main_arg0)) := by rw [← hW0]; exact head_v0 V
  have b0 : W0 (Proc.devRef .tc main_arg1) = V (Proc.devRef .tc main_arg1) := by rw [← hW0]; exact head_arg1 V
  have c0 : W0 (Proc.devRef .tc main_v1) = zeros := by rw [← hW0]; exact head_v1 V
  clear hW0
  generalize hW1 : after (opsT0 (F := Ideal)) W0 = W1
  have a1 : W1 (Proc.devRef .tc main_v0) = xpad (V (Proc.devRef .tc main_arg0)) := by
    rw [← hW1, opsT0_writes.not_written (by decide) W0]; exact a0
  have b1 : W1 (Proc.devRef .tc main_arg1) = V (Proc.devRef .tc main_arg1) := by
    rw [← hW1, opsT0_writes.not_written (by decide) W0]; exact b0
  have c1 : W1 (Proc.devRef .tc main_v7) = hsum0 (xpad (V (Proc.devRef .tc main_arg0))) (V (Proc.devRef .tc main_arg1)) := by
    rw [← hW1, T0_res W0, c0, a0, b0]; rfl
  clear hW1 a0 b0 c0
  generalize hW2 : after (opsT1 (F := Ideal)) W1 = W2
  have a2 : W2 (Proc.devRef .tc main_v0) = xpad (V (Proc.devRef .tc main_arg0)) := by
    rw [← hW2, opsT1_writes.not_written (by decide) W1]; exact a1
  have b2 : W2 (Proc.devRef .tc main_arg1) = V (Proc.devRef .tc main_arg1) := by
    rw [← hW2, opsT1_writes.not_written (by decide) W1]; exact b1
  have c2 : W2 (Proc.devRef .tc main_v13) = hsum1 (xpad (V (Proc.devRef .tc main_arg0))) (V (Proc.devRef .tc main_arg1)) := by
    rw [← hW2, T1_res W1, c1, a1, b1]; rfl
  clear hW2 a1 b1 c1
  generalize hW3 : after (opsT2 (F := Ideal)) W2 = W3
  have a3 : W3 (Proc.devRef .tc main_v0) = xpad (V (Proc.devRef .tc main_arg0)) := by
    rw [← hW3, opsT2_writes.not_written (by decide) W2]; exact a2
  have b3 : W3 (Proc.devRef .tc main_arg1) = V (Proc.devRef .tc main_arg1) := by
    rw [← hW3, opsT2_writes.not_written (by decide) W2]; exact b2
  have c3 : W3 (Proc.devRef .tc main_v19) = hsum2 (xpad (V (Proc.devRef .tc main_arg0))) (V (Proc.devRef .tc main_arg1)) := by
    rw [← hW3, T2_res W2, c2, a2, b2]; rfl
  clear hW3 a2 b2 c2
  generalize hW4 : after (opsT3 (F := Ideal)) W3 = W4
  have a4 : W4 (Proc.devRef .tc main_v0) = xpad (V (Proc.devRef .tc main_arg0)) := by
    rw [← hW4, opsT3_writes.not_written (by decide) W3]; exact a3
  have b4 : W4 (Proc.devRef .tc main_arg1) = V (Proc.devRef .tc main_arg1) := by
    rw [← hW4, opsT3_writes.not_written (by decide) W3]; exact b3
  have c4 : W4 (Proc.devRef .tc main_v25) = hsum3 (xpad (V (Proc.devRef .tc main_arg0))) (V (Proc.devRef .tc main_arg1)) := by
    rw [← hW4, T3_res W3, c3, a3, b3]; rfl
  clear hW4 a3 b3 c3
  generalize hW5 : after (opsT4 (F := Ideal)) W4 = W5
  have a5 : W5 (Proc.devRef .tc main_v0) = xpad (V (Proc.devRef .tc main_arg0)) := by
    rw [← hW5, opsT4_writes.not_written (by decide) W4]; exact a4
  have b5 : W5 (Proc.devRef .tc main_arg1) = V (Proc.devRef .tc main_arg1) := by
    rw [← hW5, opsT4_writes.not_written (by decide) W4]; exact b4
  have c5 : W5 (Proc.devRef .tc main_v31) = hsum4 (xpad (V (Proc.devRef .tc main_arg0))) (V (Proc.devRef .tc main_arg1)) := by
    rw [← hW5, T4_res W4, c4, a4, b4]; rfl
  clear hW5 a4 b4 c4
  generalize hW6 : after (opsT5 (F := Ideal)) W5 = W6
  have a6 : W6 (Proc.devRef .tc main_v0) = xpad (V (Proc.devRef .tc main_arg0)) := by
    rw [← hW6, opsT5_writes.not_written (by decide) W5]; exact a5
  have b6 : W6 (Proc.devRef .tc main_arg1) = V (Proc.devRef .tc main_arg1) := by
    rw [← hW6, opsT5_writes.not_written (by decide) W5]; exact b5
  have c6 : W6 (Proc.devRef .tc main_v37) = hsum5 (xpad (V (Proc.devRef .tc main_arg0))) (V (Proc.devRef .tc main_arg1)) := by
    rw [← hW6, T5_res W5, c5, a5, b5]; rfl
  clear hW6 a5 b5 c5
  generalize hW7 : after (opsT6 (F := Ideal)) W6 = W7
  have a7 : W7 (Proc.devRef .tc main_v0) = xpad (V (Proc.devRef .tc main_arg0)) := by
    rw [← hW7, opsT6_writes.not_written (by decide) W6]; exact a6
  have b7 : W7 (Proc.devRef .tc main_arg1) = V (Proc.devRef .tc main_arg1) := by
    rw [← hW7, opsT6_writes.not_written (by decide) W6]; exact b6
  have c7 : W7 (Proc.devRef .tc main_v43) = hsum6 (xpad (V (Proc.devRef .tc main_arg0))) (V (Proc.devRef .tc main_arg1)) := by
    rw [← hW7, T6_res W6, c6, a6, b6]; rfl
  clear hW7 a6 b6 c6
  generalize hW8 : after (opsT7 (F := Ideal)) W7 = W8
  have a8 : W8 (Proc.devRef .tc main_v0) = xpad (V (Proc.devRef .tc main_arg0)) := by
    rw [← hW8, opsT7_writes.not_written (by decide) W7]; exact a7
  have b8 : W8 (Proc.devRef .tc main_arg1) = V (Proc.devRef .tc main_arg1) := by
    rw [← hW8, opsT7_writes.not_written (by decide) W7]; exact b7
  have c8 : W8 (Proc.devRef .tc main_v49) = hsum7 (xpad (V (Proc.devRef .tc main_arg0))) (V (Proc.devRef .tc main_arg1)) := by
    rw [← hW8, T7_res W7, c7, a7, b7]; rfl
  clear hW8 a7 b7 c7
  generalize hW9 : after (opsT8 (F := Ideal)) W8 = W9
  have a9 : W9 (Proc.devRef .tc main_v0) = xpad (V (Proc.devRef .tc main_arg0)) := by
    rw [← hW9, opsT8_writes.not_written (by decide) W8]; exact a8
  have b9 : W9 (Proc.devRef .tc main_arg1) = V (Proc.devRef .tc main_arg1) := by
    rw [← hW9, opsT8_writes.not_written (by decide) W8]; exact b8
  have c9 : W9 (Proc.devRef .tc main_v55) = hsum8 (xpad (V (Proc.devRef .tc main_arg0))) (V (Proc.devRef .tc main_arg1)) := by
    rw [← hW9, T8_res W8, c8, a8, b8]; rfl
  clear hW9 a8 b8 c8
  generalize hW10 : after (opsT9 (F := Ideal)) W9 = W10
  have a10 : W10 (Proc.devRef .tc main_v0) = xpad (V (Proc.devRef .tc main_arg0)) := by
    rw [← hW10, opsT9_writes.not_written (by decide) W9]; exact a9
  have b10 : W10 (Proc.devRef .tc main_arg1) = V (Proc.devRef .tc main_arg1) := by
    rw [← hW10, opsT9_writes.not_written (by decide) W9]; exact b9
  have c10 : W10 (Proc.devRef .tc main_v61) = hsum9 (xpad (V (Proc.devRef .tc main_arg0))) (V (Proc.devRef .tc main_arg1)) := by
    rw [← hW10, T9_res W9, c9, a9, b9]; rfl
  clear hW10 a9 b9 c9
  generalize hW11 : after (opsT10 (F := Ideal)) W10 = W11
  have a11 : W11 (Proc.devRef .tc main_v0) = xpad (V (Proc.devRef .tc main_arg0)) := by
    rw [← hW11, opsT10_writes.not_written (by decide) W10]; exact a10
  have b11 : W11 (Proc.devRef .tc main_arg1) = V (Proc.devRef .tc main_arg1) := by
    rw [← hW11, opsT10_writes.not_written (by decide) W10]; exact b10
  have c11 : W11 (Proc.devRef .tc main_v67) = hsum10 (xpad (V (Proc.devRef .tc main_arg0))) (V (Proc.devRef .tc main_arg1)) := by
    rw [← hW11, T10_res W10, c10, a10, b10]; rfl
  clear hW11 a10 b10 c10
  generalize hW12 : after (opsT11 (F := Ideal)) W11 = W12
  have a12 : W12 (Proc.devRef .tc main_v0) = xpad (V (Proc.devRef .tc main_arg0)) := by
    rw [← hW12, opsT11_writes.not_written (by decide) W11]; exact a11
  have b12 : W12 (Proc.devRef .tc main_arg1) = V (Proc.devRef .tc main_arg1) := by
    rw [← hW12, opsT11_writes.not_written (by decide) W11]; exact b11
  have c12 : W12 (Proc.devRef .tc main_v73) = hsum11 (xpad (V (Proc.devRef .tc main_arg0))) (V (Proc.devRef .tc main_arg1)) := by
    rw [← hW12, T11_res W11, c11, a11, b11]; rfl
  clear hW12 a11 b11 c11
  generalize hW13 : after (opsT12 (F := Ideal)) W12 = W13
  have a13 : W13 (Proc.devRef .tc main_v0) = xpad (V (Proc.devRef .tc main_arg0)) := by
    rw [← hW13, opsT12_writes.not_written (by decide) W12]; exact a12
  have b13 : W13 (Proc.devRef .tc main_arg1) = V (Proc.devRef .tc main_arg1) := by
    rw [← hW13, opsT12_writes.not_written (by decide) W12]; exact b12
  have c13 : W13 (Proc.devRef .tc main_v79) = hsum12 (xpad (V (Proc.devRef .tc main_arg0))) (V (Proc.devRef .tc main_arg1)) := by
    rw [← hW13, T12_res W12, c12, a12, b12]; rfl
  clear hW13 a12 b12 c12
  generalize hW14 : after (opsT13 (F := Ideal)) W13 = W14
  have a14 : W14 (Proc.devRef .tc main_v0) = xpad (V (Proc.devRef .tc main_arg0)) := by
    rw [← hW14, opsT13_writes.not_written (by decide) W13]; exact a13
  have b14 : W14 (Proc.devRef .tc main_arg1) = V (Proc.devRef .tc main_arg1) := by
    rw [← hW14, opsT13_writes.not_written (by decide) W13]; exact b13
  have c14 : W14 (Proc.devRef .tc main_v85) = hsum13 (xpad (V (Proc.devRef .tc main_arg0))) (V (Proc.devRef .tc main_arg1)) := by
    rw [← hW14, T13_res W13, c13, a13, b13]; rfl
  clear hW14 a13 b13 c13
  generalize hW15 : after (opsT14 (F := Ideal)) W14 = W15
  have a15 : W15 (Proc.devRef .tc main_v0) = xpad (V (Proc.devRef .tc main_arg0)) := by
    rw [← hW15, opsT14_writes.not_written (by decide) W14]; exact a14
  have b15 : W15 (Proc.devRef .tc main_arg1) = V (Proc.devRef .tc main_arg1) := by
    rw [← hW15, opsT14_writes.not_written (by decide) W14]; exact b14
  have c15 : W15 (Proc.devRef .tc main_v91) = hsum14 (xpad (V (Proc.devRef .tc main_arg0))) (V (Proc.devRef .tc main_arg1)) := by
    rw [← hW15, T14_res W14, c14, a14, b14]; rfl
  clear hW15 a14 b14 c14
  generalize hW16 : after (opsT15 (F := Ideal)) W15 = W16
  have a16 : W16 (Proc.devRef .tc main_v0) = xpad (V (Proc.devRef .tc main_arg0)) := by
    rw [← hW16, opsT15_writes.not_written (by decide) W15]; exact a15
  have b16 : W16 (Proc.devRef .tc main_arg1) = V (Proc.devRef .tc main_arg1) := by
    rw [← hW16, opsT15_writes.not_written (by decide) W15]; exact b15
  have c16 : W16 (Proc.devRef .tc main_v97) = hsum15 (xpad (V (Proc.devRef .tc main_arg0))) (V (Proc.devRef .tc main_arg1)) := by
    rw [← hW16, T15_res W15, c15, a15, b15]; rfl
  clear hW16 a15 b15 c15
  generalize hW17 : after (opsT16 (F := Ideal)) W16 = W17
  have a17 : W17 (Proc.devRef .tc main_v0) = xpad (V (Proc.devRef .tc main_arg0)) := by
    rw [← hW17, opsT16_writes.not_written (by decide) W16]; exact a16
  have b17 : W17 (Proc.devRef .tc main_arg1) = V (Proc.devRef .tc main_arg1) := by
    rw [← hW17, opsT16_writes.not_written (by decide) W16]; exact b16
  have c17 : W17 (Proc.devRef .tc main_v103) = hsum16 (xpad (V (Proc.devRef .tc main_arg0))) (V (Proc.devRef .tc main_arg1)) := by
    rw [← hW17, T16_res W16, c16, a16, b16]; rfl
  clear hW17 a16 b16 c16
  generalize hW18 : after (opsT17 (F := Ideal)) W17 = W18
  have a18 : W18 (Proc.devRef .tc main_v0) = xpad (V (Proc.devRef .tc main_arg0)) := by
    rw [← hW18, opsT17_writes.not_written (by decide) W17]; exact a17
  have b18 : W18 (Proc.devRef .tc main_arg1) = V (Proc.devRef .tc main_arg1) := by
    rw [← hW18, opsT17_writes.not_written (by decide) W17]; exact b17
  have c18 : W18 (Proc.devRef .tc main_v109) = hsum17 (xpad (V (Proc.devRef .tc main_arg0))) (V (Proc.devRef .tc main_arg1)) := by
    rw [← hW18, T17_res W17, c17, a17, b17]; rfl
  clear hW18 a17 b17 c17
  generalize hW19 : after (opsT18 (F := Ideal)) W18 = W19
  have a19 : W19 (Proc.devRef .tc main_v0) = xpad (V (Proc.devRef .tc main_arg0)) := by
    rw [← hW19, opsT18_writes.not_written (by decide) W18]; exact a18
  have b19 : W19 (Proc.devRef .tc main_arg1) = V (Proc.devRef .tc main_arg1) := by
    rw [← hW19, opsT18_writes.not_written (by decide) W18]; exact b18
  have c19 : W19 (Proc.devRef .tc main_v115) = hsum18 (xpad (V (Proc.devRef .tc main_arg0))) (V (Proc.devRef .tc main_arg1)) := by
    rw [← hW19, T18_res W18, c18, a18, b18]; rfl
  clear hW19 a18 b18 c18
  generalize hW20 : after (opsT19 (F := Ideal)) W19 = W20
  have a20 : W20 (Proc.devRef .tc main_v0) = xpad (V (Proc.devRef .tc main_arg0)) := by
    rw [← hW20, opsT19_writes.not_written (by decide) W19]; exact a19
  have b20 : W20 (Proc.devRef .tc main_arg1) = V (Proc.devRef .tc main_arg1) := by
    rw [← hW20, opsT19_writes.not_written (by decide) W19]; exact b19
  have c20 : W20 (Proc.devRef .tc main_v121) = hsum19 (xpad (V (Proc.devRef .tc main_arg0))) (V (Proc.devRef .tc main_arg1)) := by
    rw [← hW20, T19_res W19, c19, a19, b19]; rfl
  clear hW20 a19 b19 c19
  generalize hW21 : after (opsT20 (F := Ideal)) W20 = W21
  have a21 : W21 (Proc.devRef .tc main_v0) = xpad (V (Proc.devRef .tc main_arg0)) := by
    rw [← hW21, opsT20_writes.not_written (by decide) W20]; exact a20
  have b21 : W21 (Proc.devRef .tc main_arg1) = V (Proc.devRef .tc main_arg1) := by
    rw [← hW21, opsT20_writes.not_written (by decide) W20]; exact b20
  have c21 : W21 (Proc.devRef .tc main_v127) = hsum20 (xpad (V (Proc.devRef .tc main_arg0))) (V (Proc.devRef .tc main_arg1)) := by
    rw [← hW21, T20_res W20, c20, a20, b20]; rfl
  clear hW21 a20 b20 c20
  generalize hW22 : after (opsT21 (F := Ideal)) W21 = W22
  have a22 : W22 (Proc.devRef .tc main_v0) = xpad (V (Proc.devRef .tc main_arg0)) := by
    rw [← hW22, opsT21_writes.not_written (by decide) W21]; exact a21
  have b22 : W22 (Proc.devRef .tc main_arg1) = V (Proc.devRef .tc main_arg1) := by
    rw [← hW22, opsT21_writes.not_written (by decide) W21]; exact b21
  have c22 : W22 (Proc.devRef .tc main_v133) = hsum21 (xpad (V (Proc.devRef .tc main_arg0))) (V (Proc.devRef .tc main_arg1)) := by
    rw [← hW22, T21_res W21, c21, a21, b21]; rfl
  clear hW22 a21 b21 c21
  generalize hW23 : after (opsT22 (F := Ideal)) W22 = W23
  have a23 : W23 (Proc.devRef .tc main_v0) = xpad (V (Proc.devRef .tc main_arg0)) := by
    rw [← hW23, opsT22_writes.not_written (by decide) W22]; exact a22
  have b23 : W23 (Proc.devRef .tc main_arg1) = V (Proc.devRef .tc main_arg1) := by
    rw [← hW23, opsT22_writes.not_written (by decide) W22]; exact b22
  have c23 : W23 (Proc.devRef .tc main_v139) = hsum22 (xpad (V (Proc.devRef .tc main_arg0))) (V (Proc.devRef .tc main_arg1)) := by
    rw [← hW23, T22_res W22, c22, a22, b22]; rfl
  clear hW23 a22 b22 c22
  generalize hW24 : after (opsT23 (F := Ideal)) W23 = W24
  have a24 : W24 (Proc.devRef .tc main_v0) = xpad (V (Proc.devRef .tc main_arg0)) := by
    rw [← hW24, opsT23_writes.not_written (by decide) W23]; exact a23
  have b24 : W24 (Proc.devRef .tc main_arg1) = V (Proc.devRef .tc main_arg1) := by
    rw [← hW24, opsT23_writes.not_written (by decide) W23]; exact b23
  have c24 : W24 (Proc.devRef .tc main_v145) = hsum23 (xpad (V (Proc.devRef .tc main_arg0))) (V (Proc.devRef .tc main_arg1)) := by
    rw [← hW24, T23_res W23, c23, a23, b23]; rfl
  clear hW24 a23 b23 c23
  generalize hW25 : after (opsT24 (F := Ideal)) W24 = W25
  have a25 : W25 (Proc.devRef .tc main_v0) = xpad (V (Proc.devRef .tc main_arg0)) := by
    rw [← hW25, opsT24_writes.not_written (by decide) W24]; exact a24
  have b25 : W25 (Proc.devRef .tc main_arg1) = V (Proc.devRef .tc main_arg1) := by
    rw [← hW25, opsT24_writes.not_written (by decide) W24]; exact b24
  have c25 : W25 (Proc.devRef .tc main_v151) = hsum24 (xpad (V (Proc.devRef .tc main_arg0))) (V (Proc.devRef .tc main_arg1)) := by
    rw [← hW25, T24_res W24, c24, a24, b24]; rfl
  clear hW25 a24 b24 c24
  exact c25

/-! ## The run -/

/-- On every device, from any memory with zero counters: every weakly fair execution of @main terminates with the
    result buffer at the last running sum and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v151)
        = hsum24 (xpad (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v151).trans (res_eq (launchContents m c)),
      (h c main_arg0).trans (kept0 (launchContents m c)),
      (h c main_arg1).trans (kept1 (launchContents m c))⟩)
    (run_seq scopedRefs_eq scopedSems_eq defs main (fun _ => ops) main_eq (fun _ => ops_sub) m ρ (fun _ => ops_fresh))

end Cert.ReferenceIdeal.Hand

end
-- ==== Proof.lean ====
/-
  A channel-shared 5×5 dynamic convolution: the kernel's result is the reference's, over the extended reals.

  Both programs pad the image x : [8, 64, 256, 256] with two zeros on each side of its rows and columns, and both
  compute, for every batch b, channel c and pixel (h, w),

      Z[b, c, h, w] = Σ_{dh, dw < 5} xp[b, c, h + dh, w + dw] · wt[5·dh + dw, b, 0, h, w],

  the 25 products added in the same order (dh-major). They differ in two ways only. The kernel works block by
  block — one batch and sixteen channels per grid point, the running sum kept in the output block, which every tap
  loads back and stores again — where the reference works on whole arrays; and the kernel's sum starts from the
  first product where the reference's starts from an array of zeros. So the two results are one function of the
  arguments, entry by entry, and the one law needed is 0 + a = a, which holds for every extended real: no finiteness
  of the inputs is used, and the padded image is carried as a whole array on both sides, never opened.

  The modules: the specification (Spec: the convolution as a function of the padded image and the weights); one
  grid point at block level (Block, KernelBlock: what the 25 stores leave in the output block) and against the whole
  arrays (Point); the kernel's result array (KernelValue: every point writes back its block of the convolution, and
  the 32 blocks tile the result); the reference's products and running sums (HostTap, HostSum: the last running sum
  is the convolution); the reference's run (RefOps, RefRun: its 155 operations as short stretches, each read by
  itself, carried along the line). The kernel does not change under idealization: nothing to preserve.
-/
import proofs.«117650_j18502719111479_2_alg».proof.Defs
import proofs.«117650_j18502719111479_2_alg».proof.Proof.Gen.Kernel
import proofs.«117650_j18502719111479_2_alg».proof.Proof.Gen.Kernel.Frame
import proofs.«117650_j18502719111479_2_alg».proof.Proof.Gen.KernelIdeal
import proofs.«117650_j18502719111479_2_alg».proof.Proof.Gen.KernelIdeal.Frame
import proofs.«117650_j18502719111479_2_alg».proof.Proof.Gen.KernelIdeal.Value
import proofs.«117650_j18502719111479_2_alg».proof.Proof.Gen.ReferenceIdeal
import proofs.«117650_j18502719111479_2_alg».proof.Proof.Gen.Pre_finite_inputs
import proofs.«117650_j18502719111479_2_alg».proof.Proof.KernelValue
import proofs.«117650_j18502719111479_2_alg».proof.Proof.HostSum
import proofs.«117650_j18502719111479_2_alg».proof.Proof.RefRun
import Idealize.ShloMosaic.Adequacy
import Idealize.ShloMosaic.Init

noncomputable section

namespace Cert.Proof

open Idealize.ShloMosaic Idealize.SL.Sem

/-- The kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Hand.run m ρ)

/-- From memories that agree on the arguments, the kernel's result array ends at the convolution of the padded first
    argument with the second, and the reference's at its last running sum of the same two arrays, which is that
    convolution. -/
theorem algebraic : Cert.algebraic_KernelIdeal_ReferenceIdeal := by
  intro m ρ m' ρ' _ hagree
  refine ⟨fun c => Cert.KernelIdeal.Conv.result m c, Cert.KernelIdeal.Conv.run m ρ, ?_⟩
  refine (θ_run Cert.ReferenceIdeal.defs _ _).mono (fun _ h c => ⟨(h c).1.trans ?_, (h c).2⟩)
    (Cert.ReferenceIdeal.Hand.run m' ρ')
  rw [(hagree c).1, (hagree c).2, Cert.ReferenceIdeal.Sum.hsum24_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
